-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S10000x64 : Shape := ⟨2, ![10000, 64]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 153
  | .vmem => 30
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S1x1200000, .i32⟩
  | 11 => ⟨S1200000, .i32⟩
  | 12 => ⟨S1x1200000, .i32⟩
  | 13 => ⟨S1200000, .i32⟩
  | 14 => ⟨S_, .f32⟩
  | 15 => ⟨S100000, .f32⟩
  | 16 => ⟨S_, .i32⟩
  | 17 => ⟨S1200000, .i32⟩
  | 18 => ⟨S1200000, .i1⟩
  | 19 => ⟨S_, .i32⟩
  | 20 => ⟨S1200000, .i32⟩
  | 21 => ⟨S1200000, .i32⟩
  | 22 => ⟨S1200000, .i32⟩
  | 23 => ⟨S1200000x1, .i32⟩
  | 24 => ⟨S_, .f32⟩
  | 25 => ⟨S1200000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1200000, .i32⟩
  | 33 => ⟨S1200000, .i1⟩
  | 34 => ⟨S_, .i32⟩
  | 35 => ⟨S1200000, .i32⟩
  | 36 => ⟨S1200000, .i32⟩
  | 37 => ⟨S1200000, .i32⟩
  | 38 => ⟨S1200000x1, .i32⟩
  | 39 => ⟨S1200000, .f32⟩
  | 40 => ⟨S_, .i32⟩
  | 41 => ⟨S1200000, .i32⟩
  | 42 => ⟨S1200000, .i1⟩
  | 43 => ⟨S_, .i32⟩
  | 44 => ⟨S1200000, .i32⟩
  | 45 => ⟨S1200000, .i32⟩
  | 46 => ⟨S1200000, .i32⟩
  | 47 => ⟨S1200000x1, .i32⟩
  | 48 => ⟨S1200000, .f32⟩
  | 49 => ⟨S1200000, .f32⟩
  | 50 => ⟨S100000, .f32⟩
  | 51 => ⟨S100000x64, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S1200000x1, .f32⟩
  | 62 => ⟨S1200000x64, .f32⟩
  | 63 => ⟨S1200000x64, .f32⟩
  | 64 => ⟨S_, .f32⟩
  | 65 => ⟨S100000x64, .f32⟩
  | 66 => ⟨S_, .i32⟩
  | 67 => ⟨S1200000, .i32⟩
  | 68 => ⟨S1200000, .i1⟩
  | 69 => ⟨S_, .i32⟩
  | 70 => ⟨S1200000, .i32⟩
  | 71 => ⟨S1200000, .i32⟩
  | 72 => ⟨S1200000, .i32⟩
  | 73 => ⟨S1200000x1, .i32⟩
  | 74 => ⟨S100000x64, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S1x64, .f32⟩
  | 99 => ⟨S1x64, .f32⟩
  | 100 => ⟨S1x64, .f32⟩
  | 101 => ⟨S100000x64, .f32⟩
  | 102 => ⟨S100000x64, .f32⟩
  | 103 => ⟨S_, .i32⟩
  | 104 => ⟨S1200000, .i32⟩
  | 105 => ⟨S1200000, .i1⟩
  | 106 => ⟨S_, .i32⟩
  | 107 => ⟨S1200000, .i32⟩
  | 108 => ⟨S1200000, .i32⟩
  | 109 => ⟨S1200000, .i32⟩
  | 110 => ⟨S1200000x1, .i32⟩
  | 111 => ⟨S1200000x64, .f32⟩
  | 112 => ⟨S1200000x1, .f32⟩
  | 113 => ⟨S1200000x64, .f32⟩
  | 114 => ⟨S1200000x64, .f32⟩
  | 115 => ⟨S_, .f32⟩
  | 116 => ⟨S100000x64, .f32⟩
  | 117 => ⟨S_, .i32⟩
  | 118 => ⟨S1200000, .i32⟩
  | 119 => ⟨S1200000, .i1⟩
  | 120 => ⟨S_, .i32⟩
  | 121 => ⟨S1200000, .i32⟩
  | 122 => ⟨S1200000, .i32⟩
  | 123 => ⟨S1200000, .i32⟩
  | 124 => ⟨S1200000x1, .i32⟩
  | 125 => ⟨S100000x64, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S1x64, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100_0 : Ref sig .tc := ⟨.hbm, 133, rfl⟩
abbrev main_v100_1 : Ref sig .tc := ⟨.hbm, 134, rfl⟩
abbrev main_cst_20 : Ref sig .tc := ⟨.hbm, 135, rfl⟩
abbrev main_v101 : Ref sig .tc := ⟨.hbm, 136, rfl⟩
abbrev main_v102 : Ref sig .tc := ⟨.hbm, 137, rfl⟩
abbrev main_cst_21 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_22 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v99) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 254
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S1x1200000, .i32⟩
  | 11 => ⟨S1200000, .i32⟩
  | 12 => ⟨S1x1200000, .i32⟩
  | 13 => ⟨S1200000, .i32⟩
  | 14 => ⟨S100000x64, .f32⟩
  | 15 => ⟨S_, .f32⟩
  | 16 => ⟨S100000, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S_, .f32⟩
  | 26 => ⟨S1200000, .f32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000, .f32⟩
  | 41 => ⟨S_, .i32⟩
  | 42 => ⟨S1200000, .i32⟩
  | 43 => ⟨S1200000, .i1⟩
  | 44 => ⟨S_, .i32⟩
  | 45 => ⟨S1200000, .i32⟩
  | 46 => ⟨S1200000, .i32⟩
  | 47 => ⟨S1200000, .i32⟩
  | 48 => ⟨S1200000x1, .i32⟩
  | 49 => ⟨S1200000, .f32⟩
  | 50 => ⟨S1200000, .f32⟩
  | 51 => ⟨S_, .f32⟩
  | 52 => ⟨S100000x64, .f32⟩
  | 53 => ⟨S1200000x1, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000x64, .f32⟩
  | 63 => ⟨S1200000x64, .f32⟩
  | 64 => ⟨S1200000x64, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S100000x64, .f32⟩
  | 74 => ⟨S100000, .f32⟩
  | 75 => ⟨S100000x1, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S_, .f32⟩
  | 85 => ⟨S64, .f32⟩
  | 86 => ⟨S64, .f32⟩
  | 87 => ⟨S_, .i32⟩
  | 88 => ⟨S_, .f32⟩
  | 89 => ⟨S64, .f32⟩
  | 90 => ⟨S1x64, .f32⟩
  | 91 => ⟨S_, .f32⟩
  | 92 => ⟨S1x64, .f32⟩
  | 93 => ⟨S1x64, .f32⟩
  | 94 => ⟨S100000x64, .f32⟩
  | 95 => ⟨S100000x64, .f32⟩
  | 96 => ⟨S100000x64, .f32⟩
  | 97 => ⟨S_, .f32⟩
  | 98 => ⟨S_, .f32⟩
  | 99 => ⟨S_, .f32⟩
  | 100 => ⟨S_, .f32⟩
  | 101 => ⟨S64, .f32⟩
  | 102 => ⟨S64, .f32⟩
  | 103 => ⟨S64, .f32⟩
  | 104 => ⟨S_, .f32⟩
  | 105 => ⟨S_, .i1⟩
  | 106 => ⟨S_, .f32⟩
  | 107 => ⟨S_, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S64, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S_, .f32⟩
  | _ => ⟨S100000x64, .f32⟩

abbrev hbmTy0_1 (i : Nat) : BufTy := match i % 128 with
  | 0 => ⟨S100000x64, .f32⟩
  | 1 => ⟨S100000x64, .i1⟩
  | 2 => ⟨S_, .f32⟩
  | 3 => ⟨S100000x64, .f32⟩
  | 4 => ⟨S100000x64, .f32⟩
  | 5 => ⟨S100000x64, .f32⟩
  | 6 => ⟨S100000x64, .f32⟩
  | 7 => ⟨S_, .f32⟩
  | 8 => ⟨S100000, .f32⟩
  | 9 => ⟨S_, .i32⟩
  | 10 => ⟨S1200000, .i32⟩
  | 11 => ⟨S1200000, .i1⟩
  | 12 => ⟨S_, .i32⟩
  | 13 => ⟨S1200000, .i32⟩
  | 14 => ⟨S1200000, .i32⟩
  | 15 => ⟨S1200000, .i32⟩
  | 16 => ⟨S1200000x1, .i32⟩
  | 17 => ⟨S_, .f32⟩
  | 18 => ⟨S1200000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1200000, .i32⟩
  | 26 => ⟨S1200000, .i1⟩
  | 27 => ⟨S_, .i32⟩
  | 28 => ⟨S1200000, .i32⟩
  | 29 => ⟨S1200000, .i32⟩
  | 30 => ⟨S1200000, .i32⟩
  | 31 => ⟨S1200000x1, .i32⟩
  | 32 => ⟨S1200000, .f32⟩
  | 33 => ⟨S_, .i32⟩
  | 34 => ⟨S1200000, .i32⟩
  | 35 => ⟨S1200000, .i1⟩
  | 36 => ⟨S_, .i32⟩
  | 37 => ⟨S1200000, .i32⟩
  | 38 => ⟨S1200000, .i32⟩
  | 39 => ⟨S1200000, .i32⟩
  | 40 => ⟨S1200000x1, .i32⟩
  | 41 => ⟨S1200000, .f32⟩
  | 42 => ⟨S1200000, .f32⟩
  | 43 => ⟨S_, .f32⟩
  | 44 => ⟨S100000x64, .f32⟩
  | 45 => ⟨S1200000x1, .f32⟩
  | 46 => ⟨S_, .i32⟩
  | 47 => ⟨S1200000, .i32⟩
  | 48 => ⟨S1200000, .i1⟩
  | 49 => ⟨S_, .i32⟩
  | 50 => ⟨S1200000, .i32⟩
  | 51 => ⟨S1200000, .i32⟩
  | 52 => ⟨S1200000, .i32⟩
  | 53 => ⟨S1200000x1, .i32⟩
  | 54 => ⟨S1200000x64, .f32⟩
  | 55 => ⟨S1200000x64, .f32⟩
  | 56 => ⟨S1200000x64, .f32⟩
  | 57 => ⟨S_, .i32⟩
  | 58 => ⟨S1200000, .i32⟩
  | 59 => ⟨S1200000, .i1⟩
  | 60 => ⟨S_, .i32⟩
  | 61 => ⟨S1200000, .i32⟩
  | 62 => ⟨S1200000, .i32⟩
  | 63 => ⟨S1200000, .i32⟩
  | 64 => ⟨S1200000x1, .i32⟩
  | 65 => ⟨S100000x64, .f32⟩
  | 66 => ⟨S100000, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S_, .f32⟩
  | 120 => ⟨S100000x64, .f32⟩
  | 121 => ⟨S100000x64, .i1⟩
  | 122 => ⟨S_, .f32⟩
  | 123 => ⟨S100000x64, .f32⟩
  | 124 => ⟨S100000x64, .f32⟩
  | 125 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_cst_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_cst_1 : Ref sig .tc := ⟨.hbm, 98, rfl⟩
abbrev main_call0_v8 : Ref sig .tc := ⟨.hbm, 99, rfl⟩
abbrev main_call0_cst_2 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_cst_3 : Ref sig .tc := ⟨.hbm, 104, rfl⟩
abbrev main_call0_v12 : Ref sig .tc := ⟨.hbm, 105, rfl⟩
abbrev main_call0_cst_4 : Ref sig .tc := ⟨.hbm, 106, rfl⟩
abbrev main_call0_call0_v0 : Ref sig .tc := ⟨.hbm, 107, rfl⟩
abbrev main_call0_call0_v1 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_15 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_16 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v77 : Ref sig .tc := ⟨.hbm, 133, rfl⟩
abbrev main_v78 : Ref sig .tc := ⟨.hbm, 134, rfl⟩
abbrev main_cst_17 : Ref sig .tc := ⟨.hbm, 135, rfl⟩
abbrev main_v79 : Ref sig .tc := ⟨.hbm, 136, rfl⟩
abbrev main_c_18 : Ref sig .tc := ⟨.hbm, 137, rfl⟩
abbrev main_v80 : Ref sig .tc := ⟨.hbm, 138, rfl⟩
abbrev main_v81 : Ref sig .tc := ⟨.hbm, 139, rfl⟩
abbrev main_c_19 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_20 : Ref sig .tc := ⟨.hbm, 145, rfl⟩
abbrev main_v86 : Ref sig .tc := ⟨.hbm, 146, rfl⟩
abbrev main_v87 : Ref sig .tc := ⟨.hbm, 147, rfl⟩
abbrev main_cst_21 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_c_22 : Ref sig .tc := ⟨.hbm, 152, rfl⟩
abbrev main_v91 : Ref sig .tc := ⟨.hbm, 153, rfl⟩
abbrev main_v92 : Ref sig .tc := ⟨.hbm, 154, rfl⟩
abbrev main_c_23 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_c_24 : Ref sig .tc := ⟨.hbm, 161, rfl⟩
abbrev main_v98 : Ref sig .tc := ⟨.hbm, 162, rfl⟩
abbrev main_v99 : Ref sig .tc := ⟨.hbm, 163, rfl⟩
abbrev main_c_25 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_26 : Ref sig .tc := ⟨.hbm, 171, rfl⟩
abbrev main_v106 : Ref sig .tc := ⟨.hbm, 172, rfl⟩
abbrev main_v107 : Ref sig .tc := ⟨.hbm, 173, rfl⟩
abbrev main_c_27 : Ref sig .tc := ⟨.hbm, 174, rfl⟩
abbrev main_v108 : Ref sig .tc := ⟨.hbm, 175, rfl⟩
abbrev main_v109 : Ref sig .tc := ⟨.hbm, 176, rfl⟩
abbrev main_c_28 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_c_29 : Ref sig .tc := ⟨.hbm, 185, rfl⟩
abbrev main_v117 : Ref sig .tc := ⟨.hbm, 186, rfl⟩
abbrev main_v118 : Ref sig .tc := ⟨.hbm, 187, rfl⟩
abbrev main_c_30 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_cst_31 : Ref sig .tc := ⟨.hbm, 202, rfl⟩
abbrev main_v132 : Ref sig .tc := ⟨.hbm, 203, rfl⟩
abbrev main_cst_32 : Ref sig .tc := ⟨.hbm, 204, rfl⟩
abbrev main_v133 : Ref sig .tc := ⟨.hbm, 205, rfl⟩
abbrev main_v134 : Ref sig .tc := ⟨.hbm, 206, rfl⟩
abbrev main_c_33 : Ref sig .tc := ⟨.hbm, 207, rfl⟩
abbrev main_call2_cst : Ref sig .tc := ⟨.hbm, 208, rfl⟩
abbrev main_call2_v0 : Ref sig .tc := ⟨.hbm, 209, rfl⟩
abbrev main_call2_v1 : Ref sig .tc := ⟨.hbm, 210, rfl⟩
abbrev main_call2_cst_0 : Ref sig .tc := ⟨.hbm, 211, rfl⟩
abbrev main_call2_v2 : Ref sig .tc := ⟨.hbm, 212, rfl⟩
abbrev main_call2_v3 : Ref sig .tc := ⟨.hbm, 213, rfl⟩
abbrev main_call2_v4 : Ref sig .tc := ⟨.hbm, 214, rfl⟩
abbrev main_call2_v5 : Ref sig .tc := ⟨.hbm, 215, rfl⟩
abbrev main_call2_v6 : Ref sig .tc := ⟨.hbm, 216, rfl⟩
abbrev main_call2_v7 : Ref sig .tc := ⟨.hbm, 217, rfl⟩
abbrev main_call2_cst_1 : Ref sig .tc := ⟨.hbm, 218, rfl⟩
abbrev main_call2_v8 : Ref sig .tc := ⟨.hbm, 219, rfl⟩
abbrev main_call2_cst_2 : Ref sig .tc := ⟨.hbm, 220, rfl⟩
abbrev main_call2_v9 : Ref sig .tc := ⟨.hbm, 221, rfl⟩
abbrev main_call2_v10 : Ref sig .tc := ⟨.hbm, 222, rfl⟩
abbrev main_call2_v11 : Ref sig .tc := ⟨.hbm, 223, rfl⟩
abbrev main_call2_cst_3 : Ref sig .tc := ⟨.hbm, 224, rfl⟩
abbrev main_call2_v12 : Ref sig .tc := ⟨.hbm, 225, rfl⟩
abbrev main_call2_cst_4 : Ref sig .tc := ⟨.hbm, 226, rfl⟩
abbrev main_call2_call0_v0 : Ref sig .tc := ⟨.hbm, 227, rfl⟩
abbrev main_call2_call0_v1 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_34 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_cst_35 : Ref sig .tc := ⟨.hbm, 246, rfl⟩
abbrev main_call3_cst : Ref sig .tc := ⟨.hbm, 247, rfl⟩
abbrev main_call3_v0 : Ref sig .tc := ⟨.hbm, 248, rfl⟩
abbrev main_call3_v1 : Ref sig .tc := ⟨.hbm, 249, rfl⟩
abbrev main_call3_v2 : Ref sig .tc := ⟨.hbm, 250, rfl⟩
abbrev main_call3_v3 : Ref sig .tc := ⟨.hbm, 251, rfl⟩
abbrev main_call3_v4 : Ref sig .tc := ⟨.hbm, 252, rfl⟩
abbrev main_v151 : Ref sig .tc := ⟨.hbm, 253, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S100000x64_S64x64_S100000x64_1_0_0_1_n_n_wf : DotDims.WF S100000x64 S64x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The kernel program's run, with its result buffer named.

  The program is six regions among five stretches of host operations.  Its generated frame follows the
  TensorCore's buffer contents through these eleven segments, from the launch memory to the last boundary
  (`Gen.W11`), and reads the ten argument arrays off that last boundary.  Every unscoped buffer ends at the
  last boundary's contents, the result buffer `main_v115` among them; so the same run, asked about one more
  buffer, also says that the result buffer ends at `Gen.W11 m ρ c main_v115`.  What that array IS, as a
  function of the arguments, is read back through the boundaries elsewhere.
-/
import proofs.«152807_j76802605187214_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program on the TensorCores
    terminates without a fault, and in every final state the result buffer holds the last boundary's
    contents of it and the ten argument arrays are as launched.  The run is the frame's own: the eleven
    segments chained from the launch memory, the last thread state ("every unscoped buffer at the last
    boundary's contents") read against the final state; the result buffer is unscoped, so it is read there
    exactly as the arguments are. -/
theorem run_out : θ_run defs (onTc (τ := τ) (main (F := F))) ⟨m, fun _ => 0, ρ⟩ (fun r => ∀ c : Dev nD,
      r.2.mem ((c.tc : Thread nD τ).loc main_v115) = Gen.W11 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v115 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.KRun

end
-- ==== Proof.Spec.lean ====
/-
  The whole-array functions the six kernel regions compute, over the extended reals.

  A node-feature array has 100000 rows and 64 columns. One graph-convolution layer multiplies it by a
  64 × 64 weight matrix (`mm`), aggregates along the edges, and then normalises each column by its
  batch statistics: the column sums (`colSum`) and the column sums of squares (`colSumSq`), kept as
  1 × 64 rows, give a per-column scale and shift, and `normAct` applies `y = x · scale + shift`
  followed by the leaky rectifier `act` (the identity on positive `y`, a fixed small slope otherwise).
-/
import Idealize.ShloMosaic.PureOps.Ideal
import Idealize.ShloMosaic.Lib.ValueIdx

noncomputable section

open scoped BigOperators

namespace Cert.Spec

open Idealize.ShloMosaic Idealize.ShloMosaic.ValueIdx

/-- The node-feature arrays: 100000 rows, 64 columns. -/
abbrev SN : Shape := ⟨2, ![100000, 64]⟩
/-- The weight matrices: 64 × 64. -/
abbrev SW : Shape := ⟨2, ![64, 64]⟩
/-- A row of per-column statistics: 1 × 64. -/
abbrev SR : Shape := ⟨2, ![1, 64]⟩

/-- The row of an index of a node-feature array. -/
def rowOf (i : SN.Idx) : Fin 100000 := ⟨(i 0).val, idx2_lt0 i⟩
/-- The column of an index of a node-feature array. -/
def colOf (i : SN.Idx) : Fin 64 := ⟨(i 1).val, idx2_lt1 i⟩
/-- The column of an index of a 1 × 64 row. -/
def colOfR (j : SR.Idx) : Fin 64 := ⟨(j 1).val, idx2_lt1 j⟩

@[simp] theorem rowOf_ix2 (r : Fin 100000) (c : Fin 64) : rowOf (ix2 r c) = r := rfl
@[simp] theorem colOf_ix2 (r : Fin 100000) (c : Fin 64) : colOf (ix2 r c) = c := rfl
@[simp] theorem colOfR_ix2 (z : Fin 1) (c : Fin 64) : colOfR (ix2 z c) = c := rfl

/-- Every index of a node-feature array is the pair of its row and its column. -/
theorem eq_row_col (i : SN.Idx) : i = ix2 (rowOf i) (colOf i) := by
  funext a; match a with | ⟨0, _⟩ => rfl | ⟨1, _⟩ => rfl

/-- Every index of a 1 × 64 row is `(0, column)`. -/
theorem eq_zero_col (j : SR.Idx) : j = ix2 (0 : Fin 1) (colOfR j) := by
  funext a
  match a with
  | ⟨0, _⟩ => exact Fin.ext (by have := idx2_lt0 j; show (j 0).val = 0; omega)
  | ⟨1, _⟩ => rfl

/-- The product of a node-feature array with a weight matrix: entry `(r, c)` is `∑ k, x (r, k) · w (k, c)`. -/
def mm (x : SN.Idx → EReal) (w : SW.Idx → EReal) : SN.Idx → EReal :=
  fun i => ∑ k : Fin 64, x (ix2 (rowOf i) k) * w (ix2 k (colOf i))

/-- The column sums, as a 1 × 64 row. -/
def colSum (v : SN.Idx → EReal) : SR.Idx → EReal :=
  fun j => ∑ r : Fin 100000, v (ix2 r (colOfR j))

/-- The column sums of squares, as a 1 × 64 row. -/
def colSumSq (v : SN.Idx → EReal) : SR.Idx → EReal :=
  fun j => ∑ r : Fin 100000, v (ix2 r (colOfR j)) * v (ix2 r (colOfR j))

/-- The leaky rectifier: the identity on positive values, the slope `0x3C23D70A` (the float nearest 0.01) otherwise. -/
def act (y : EReal) : EReal := if 0 < y then y else Ideal.ofBits .f32 0x3C23D70A#32 * y

/-- Scale and shift each column, then rectify. -/
def normAct (x : SN.Idx → EReal) (sc sh : SR.Idx → EReal) : SN.Idx → EReal :=
  fun i => act (x i * sc (ix2 0 (colOf i)) + sh (ix2 0 (colOf i)))

theorem mm_ix2 (x : SN.Idx → EReal) (w : SW.Idx → EReal) (r : Fin 100000) (c : Fin 64) :
    mm x w (ix2 r c) = ∑ k : Fin 64, x (ix2 r k) * w (ix2 k c) := rfl

theorem colSum_ix2 (v : SN.Idx → EReal) (z : Fin 1) (c : Fin 64) :
    colSum v (ix2 z c) = ∑ r : Fin 100000, v (ix2 r c) := rfl

theorem colSumSq_ix2 (v : SN.Idx → EReal) (z : Fin 1) (c : Fin 64) :
    colSumSq v (ix2 z c) = ∑ r : Fin 100000, v (ix2 r c) * v (ix2 r c) := rfl

theorem normAct_ix2 (x : SN.Idx → EReal) (sc sh : SR.Idx → EReal) (r : Fin 100000) (c : Fin 64) :
    normAct x sc sh (ix2 r c) = act (x (ix2 r c) * sc (ix2 0 c) + sh (ix2 0 c)) := rfl

end Cert.Spec

end
-- ==== Proof.KernelStages.lean ====
/-
  The host stages of the kernel program, as named functions of their operands.

  Between its six regions the program runs stretches of array operations on the host.  Read as
  mathematics they are the pieces of two graph-convolution layers over a fixed edge list `ei`
  (2 × 1200000 node numbers: row 0 the sources, row 1 the targets):

  * `srcIdx`, `dstIdx` — the two rows of the edge list as vectors; `wrapCol` adds the node count to a
    negative node number and lays the vector out as a column, which is the form in which the gathers
    and the accumulating scatters take their indices (`srcCol`, `dstCol`);
  * `dinv` — one over the square root of (in-degree + 1): ones accumulated along the targets, plus one,
    inverse square root;
  * `edgeNorm` — per edge, `dinv` at the source times `dinv` at the target; `selfScale` — per node,
    `dinv` squared;
  * `agg ei xw b` — the aggregation of a feature array `xw`: the rows of `xw` gathered at the sources,
    each scaled by its edge's `edgeNorm`, accumulated into zeros at the targets; plus `selfScale · xw`;
    plus the bias row `b` on every row;
  * `bnScale s q γ`, `bnShift s q γ β` — from the column sums `s` and the column sums of squares `q`
    of an array of 100000 rows: mean `s / 100000`, variance `q / 100000 − mean²`, the scale
    `γ · rsqrt (variance + ε)` and the shift `β − mean · scale`.

  `layer` chains them with the regions' whole-array functions — the product with the weight matrix,
  the column statistics, the scale–shift–rectify — and `out` is two layers, the second reading the
  first's result; both layers use the same edge list, hence the same `edgeNorm` and `selfScale`.

  Every stage is the literal composition of the program's operations over variables; nothing here is
  evaluated, and the float constants stay the words the program prints.
-/
import proofs.«152807_j76802605187214_1_alg».proof.KernelIdeal
import proofs.«152807_j76802605187214_1_alg».proof.Proof.Spec

noncomputable section

namespace Cert.KernelIdeal.KStages

open Idealize.ShloMosaic

variable [Facts₀]
open Facts₀

/-- The edge list: 2 × 1200000 node numbers. -/
abbrev Edges : Type := (⟨S2x1200000, .i32⟩ : BufTy).Contents (Elt Ideal)
/-- One node number per edge. -/
abbrev EdgeIdx : Type := (⟨S1200000, .i32⟩ : BufTy).Contents (Elt Ideal)
/-- One node number per edge, as a column. -/
abbrev EdgeCol : Type := (⟨S1200000x1, .i32⟩ : BufTy).Contents (Elt Ideal)
/-- One value per edge. -/
abbrev EdgeVal : Type := (⟨S1200000, .f32⟩ : BufTy).Contents (Elt Ideal)
/-- One value per node. -/
abbrev NodeVal : Type := (⟨S100000, .f32⟩ : BufTy).Contents (Elt Ideal)
/-- A node-feature array: 100000 × 64. -/
abbrev Feat : Type := (⟨S100000x64, .f32⟩ : BufTy).Contents (Elt Ideal)
/-- A weight matrix: 64 × 64. -/
abbrev Weight : Type := (⟨S64x64, .f32⟩ : BufTy).Contents (Elt Ideal)
/-- A per-column parameter: 64 values. -/
abbrev Param : Type := (⟨S64, .f32⟩ : BufTy).Contents (Elt Ideal)
/-- A row of per-column statistics: 1 × 64. -/
abbrev Row : Type := (⟨S1x64, .f32⟩ : BufTy).Contents (Elt Ideal)

/-- The sources: row 0 of the edge list, as a vector. -/
def srcIdx (ei : Edges) : EdgeIdx :=
  shapeCast S1200000 (extractStridedSlice S1x1200000 ![0, 0] ei slices_S2x1200000_S1x1200000_0_0) shapeCasts_S1x1200000_S1200000

/-- The targets: row 1 of the edge list, as a vector. -/
def dstIdx (ei : Edges) : EdgeIdx :=
  shapeCast S1200000 (extractStridedSlice S1x1200000 ![1, 0] ei slices_S2x1200000_S1x1200000_1_0) shapeCasts_S1x1200000_S1200000

/-- A vector of node numbers with the node count added to the negative ones, laid out as a column. -/
def wrapCol (v : EdgeIdx) : EdgeCol :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 100000#32))) v)

/-- The index column of the sources. -/
def srcCol (ei : Edges) : EdgeCol := wrapCol (srcIdx ei)
/-- The index column of the targets. -/
def dstCol (ei : Edges) : EdgeCol := wrapCol (dstIdx ei)

/-- Per node, one over the square root of (the number of edges arriving at it, plus one). -/
def dinv (ei : Edges) : NodeVal :=
  Host.rsqrt (F := Ideal) (φ := .f32)
    (addf (F := Ideal) (φ := .f32)
      (Host.scatterAdd (F := Ideal) (φ := .f32) scatter_S100000_S1200000x1_S1200000_n_0_0_1
        (broadcastInDim S100000 ![] bcast_S_S100000 (constant (F := Ideal) S_ .f32 0x00000000#32))
        (dstCol ei)
        (broadcastInDim S1200000 ![] bcast_S_S1200000 (constant (F := Ideal) S_ .f32 0x3F800000#32)))
      (broadcastInDim S100000 ![] bcast_S_S100000 (constant (F := Ideal) S_ .f32 0x3F800000#32)))

/-- Per edge, `dinv` at its source times `dinv` at its target. -/
def edgeNorm (ei : Edges) : EdgeVal :=
  mulf (F := Ideal) (φ := .f32)
    (Host.gather gather_S100000_S1200000x1_S1200000_n_0_n_n_0_1_1 (dinv ei) (srcCol ei))
    (Host.gather gather_S100000_S1200000x1_S1200000_n_0_n_n_0_1_1 (dinv ei) (dstCol ei))

/-- Per node, `dinv` squared: the weight of a node's own row. -/
def selfScale (ei : Edges) : NodeVal := mulf (F := Ideal) (φ := .f32) (dinv ei) (dinv ei)

/-- The aggregation from its operands as the program holds them: source and target vectors, the per-edge
    weights `en`, the per-node weights `ss`, the features `xw` and the bias `b`. -/
def aggOf (src dst : EdgeIdx) (en : EdgeVal) (ss : NodeVal) (xw : Feat) (b : Param) : Feat :=
  addf (F := Ideal) (φ := .f32)
    (addf (F := Ideal) (φ := .f32)
      (Host.scatterAdd (F := Ideal) (φ := .f32) scatter_S100000x64_S1200000x1_S1200000x64_1_0_0_1
        (broadcastInDim S100000x64 ![] bcast_S_S100000x64 (constant (F := Ideal) S_ .f32 0x00000000#32))
        (wrapCol dst)
        (mulf (F := Ideal) (φ := .f32)
          (broadcastInDim S1200000x64 ![0, 1] bcast_S1200000x1_S1200000x64_0_1
            (broadcastInDim S1200000x1 ![0] bcast_S1200000_S1200000x1_0 en))
          (Host.gather gather_S100000x64_S1200000x1_S1200000x64_1_0_n_n_0_1_164 xw (wrapCol src))))
      (mulf (F := Ideal) (φ := .f32)
        (broadcastInDim S100000x64 ![0, 1] bcast_S100000x1_S100000x64_0_1
          (broadcastInDim S100000x1 ![0] bcast_S100000_S100000x1_0 ss))
        xw))
    (broadcastInDim S100000x64 ![0, 1] bcast_S1x64_S100000x64_0_1 (broadcastInDim S1x64 ![1] bcast_S64_S1x64_1 b))

/-- The aggregation of a feature array along the edge list: gathered at the sources, scaled per edge,
    accumulated at the targets; plus each node's own scaled row; plus the bias. -/
def agg (ei : Edges) (xw : Feat) (b : Param) : Feat :=
  aggOf (srcIdx ei) (dstIdx ei) (edgeNorm ei) (selfScale ei) xw b

/-- A row of column totals over 100000 rows, divided by 100000. -/
def rowMean (s : Row) : Row :=
  Host.divf (F := Ideal) (φ := .f32) s (broadcastInDim S1x64 ![] bcast_S_S1x64 (constant (F := Ideal) S_ .f32 0x47C35000#32))

/-- The normalisation's scale: `γ` over the square root of (variance + ε), the variance the mean of the
    squares minus the square of the mean. -/
def bnScale (s q : Row) (γ : Param) : Row :=
  mulf (F := Ideal) (φ := .f32) (broadcastInDim S1x64 ![1] bcast_S64_S1x64_1 γ)
    (Host.rsqrt (F := Ideal) (φ := .f32)
      (addf (F := Ideal) (φ := .f32) (subf (F := Ideal) (φ := .f32) (rowMean q) (mulf (F := Ideal) (φ := .f32) (rowMean s) (rowMean s)))
        (broadcastInDim S1x64 ![] bcast_S_S1x64 (constant (F := Ideal) S_ .f32 0x3727C5AC#32))))

/-- The normalisation's shift: `β` minus mean times scale. -/
def bnShift (s q : Row) (γ β : Param) : Row :=
  subf (F := Ideal) (φ := .f32) (broadcastInDim S1x64 ![1] bcast_S64_S1x64_1 β) (mulf (F := Ideal) (φ := .f32) (rowMean s) (bnScale s q γ))

/-- One layer: multiply by the weights, aggregate along the edges, normalise each column by its batch
    statistics and rectify. -/
def layer (ei : Edges) (h : Feat) (W : Weight) (b γ β : Param) : Feat :=
  let xw := Cert.Spec.mm h W
  let p := agg ei xw b
  Cert.Spec.normAct p (bnScale (Cert.Spec.colSum p) (Cert.Spec.colSumSq p) γ)
    (bnShift (Cert.Spec.colSum p) (Cert.Spec.colSumSq p) γ β)

/-- The program's result from its ten arguments: features, edge list, then weights, bias, `γ`, `β` of
    the first layer and of the second. -/
def out (a0 : Feat) (a1 : Edges) (a2 : Weight) (a3 a4 a5 : Param) (a6 : Weight) (a7 a8 a9 : Param) : Feat :=
  layer a1 (layer a1 a0 a2 a3 a4 a5) a6 a7 a8 a9

end Cert.KernelIdeal.KStages

end
-- ==== Proof.KernelPass.lean ====
/-
  What the host stretches leave alone.

  A stretch of host operations rewrites exactly the result buffers of its operations and nothing else.
  So a buffer computed earlier (an index vector, the per-edge weights, a region's output) or an argument
  array is carried unchanged through every later stretch that does not name it as a result.  For each of
  the five stretches the results are listed once, each operation's write is checked to be on the list, and
  the carrying is then one membership check over reference names per buffer.
-/
import proofs.«152807_j76802605187214_1_alg».proof.Proof.Gen.KernelIdeal.Launch

set_option maxRecDepth 4096

noncomputable section

namespace Cert.KernelIdeal.KPass

open Idealize.ShloMosaic Cert.KernelIdeal.Gen

variable {F : FTy → Type} [FloatOps F]

/-- The references the host stretch `hostOps0` writes: one per operation, its result. -/
abbrev written0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31]

/-- Each operation of `hostOps0` writes only its own result, which is on the list. -/
theorem hostOps0_writes : (hostOps0 : List (HloOp τ sig (Elt F))).Forall fun op => op.writes ⊆ ((written0).map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer that is none of the stretch's results holds after `hostOps0` what it held before. -/
theorem pass0 (W : Valuation τ sig (Elt F)) (r : Ref sig .tc) (h : r ∉ written0) :
    StableHlo.after hostOps0 W (Proc.devRef .tc r) = W (Proc.devRef .tc r) :=
  StableHlo.after_of_writes_sub hostOps0 W hostOps0_writes h

/-- The references the host stretch `hostOps1` writes: one per operation, its result. -/
abbrev written1 : List (Ref sig .tc) := [main_c_7, main_v33, main_v34, main_c_8, main_v35, main_v36, main_v37, main_v38, main_v39, main_v40, main_v41, main_v42, main_cst_9, main_v43, main_c_10, main_v44, main_v45, main_c_11, main_v46, main_v47, main_v48, main_v49, main_v50, main_v51, main_v52, main_v53, main_v54, main_v55, main_v56, main_v57]

/-- Each operation of `hostOps1` writes only its own result, which is on the list. -/
theorem hostOps1_writes : (hostOps1 : List (HloOp τ sig (Elt F))).Forall fun op => op.writes ⊆ ((written1).map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer that is none of the stretch's results holds after `hostOps1` what it held before. -/
theorem pass1 (W : Valuation τ sig (Elt F)) (r : Ref sig .tc) (h : r ∉ written1) :
    StableHlo.after hostOps1 W (Proc.devRef .tc r) = W (Proc.devRef .tc r) :=
  StableHlo.after_of_writes_sub hostOps1 W hostOps1_writes h

/-- The references the host stretch `hostOps2` writes: one per operation, its result. -/
abbrev written2 : List (Ref sig .tc) := [main_cst_12, main_v59, main_v60, main_cst_13, main_v61, main_v62, main_v63, main_v64, main_cst_14, main_v65, main_v66, main_v67, main_v68, main_v69, main_v70, main_v71, main_v72]

/-- Each operation of `hostOps2` writes only its own result, which is on the list. -/
theorem hostOps2_writes : (hostOps2 : List (HloOp τ sig (Elt F))).Forall fun op => op.writes ⊆ ((written2).map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer that is none of the stretch's results holds after `hostOps2` what it held before. -/
theorem pass2 (W : Valuation τ sig (Elt F)) (r : Ref sig .tc) (h : r ∉ written2) :
    StableHlo.after hostOps2 W (Proc.devRef .tc r) = W (Proc.devRef .tc r) :=
  StableHlo.after_of_writes_sub hostOps2 W hostOps2_writes h

/-- The references the host stretch `hostOps4` writes: one per operation, its result. -/
abbrev written4 : List (Ref sig .tc) := [main_c_15, main_v75, main_v76, main_c_16, main_v77, main_v78, main_v79, main_v80, main_v81, main_v82, main_v83, main_v84, main_cst_17, main_v85, main_c_18, main_v86, main_v87, main_c_19, main_v88, main_v89, main_v90, main_v91, main_v92, main_v93, main_v94, main_v95, main_v96, main_v97, main_v98, main_v99]

/-- Each operation of `hostOps4` writes only its own result, which is on the list. -/
theorem hostOps4_writes : (hostOps4 : List (HloOp τ sig (Elt F))).Forall fun op => op.writes ⊆ ((written4).map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer that is none of the stretch's results holds after `hostOps4` what it held before. -/
theorem pass4 (W : Valuation τ sig (Elt F)) (r : Ref sig .tc) (h : r ∉ written4) :
    StableHlo.after hostOps4 W (Proc.devRef .tc r) = W (Proc.devRef .tc r) :=
  StableHlo.after_of_writes_sub hostOps4 W hostOps4_writes h

/-- The references the host stretch `hostOps5` writes: one per operation, its result. -/
abbrev written5 : List (Ref sig .tc) := [main_cst_20, main_v101, main_v102, main_cst_21, main_v103, main_v104, main_v105, main_v106, main_cst_22, main_v107, main_v108, main_v109, main_v110, main_v111, main_v112, main_v113, main_v114]

/-- Each operation of `hostOps5` writes only its own result, which is on the list. -/
theorem hostOps5_writes : (hostOps5 : List (HloOp τ sig (Elt F))).Forall fun op => op.writes ⊆ ((written5).map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer that is none of the stretch's results holds after `hostOps5` what it held before. -/
theorem pass5 (W : Valuation τ sig (Elt F)) (r : Ref sig .tc) (h : r ∉ written5) :
    StableHlo.after hostOps5 W (Proc.devRef .tc r) = W (Proc.devRef .tc r) :=
  StableHlo.after_of_writes_sub hostOps5 W hostOps5_writes h

end Cert.KernelIdeal.KPass

end
-- ==== Proof.KernelHostA.lean ====
/-
  The first host stretch, read at the four buffers the later segments use.

  Before the first region the program prepares, from the edge list alone, the two index vectors
  (row 0: the sources, row 1: the targets), the per-edge weights and the per-node weights.  Running the
  stretch from ANY buffer contents `W`, each of these four buffers ends at the corresponding stage function
  of `W`'s edge-list argument: the stretch's operations compose, one after the other, to exactly the
  stage's literal composition.
-/
import proofs.«152807_j76802605187214_1_alg».proof.Proof.Gen.KernelIdeal.Launch
import proofs.«152807_j76802605187214_1_alg».proof.Proof.KernelStages

set_option maxRecDepth 16384

noncomputable section

namespace Cert.KernelIdeal.KHost

open Idealize.ShloMosaic Cert.KernelIdeal.Gen Cert.KernelIdeal.KStages

variable (W : Valuation τ sig (Elt Ideal))

/-- The source vector: row 0 of the edge list. -/
theorem host0_src :
    StableHlo.after (hostOps0 (F := Ideal)) W (Proc.devRef .tc main_v1) = srcIdx (W (Proc.devRef .tc main_arg1)) := by
  after_results_simp; rfl

/-- The target vector: row 1 of the edge list. -/
theorem host0_dst :
    StableHlo.after (hostOps0 (F := Ideal)) W (Proc.devRef .tc main_v3) = dstIdx (W (Proc.devRef .tc main_arg1)) := by
  after_results_simp; rfl

/-- The per-edge weights: the inverse root degree at the source times that at the target. -/
theorem host0_edgeNorm :
    StableHlo.after (hostOps0 (F := Ideal)) W (Proc.devRef .tc main_v30) = edgeNorm (W (Proc.devRef .tc main_arg1)) := by
  after_results_simp; rfl

/-- The per-node weights: the inverse root degree squared. -/
theorem host0_selfScale :
    StableHlo.after (hostOps0 (F := Ideal)) W (Proc.devRef .tc main_v31) = selfScale (W (Proc.devRef .tc main_arg1)) := by
  after_results_simp; rfl

end Cert.KernelIdeal.KHost

end
-- ==== Proof.KernelCarry.lean ====
/-
  What each buffer holds at each boundary, when nothing in between writes it.

  The run is eleven segments: five stretches of host operations and six regions.  A stretch rewrites only
  its operations' results; a region rewrites only its windows' arrays, and leaves an INPUT window's array
  as it found it.  So

  * the argument arrays hold their launch contents at every boundary where a later segment reads them;
  * the four buffers the first stretch prepares from the edge list — source and target vectors, per-edge
    and per-node weights — still hold those stage functions of the edge list when the first layer's
    aggregation reads them (after region 0) and when the second layer's does (after region 3), five
    segments later;
  * the aggregated features of each layer, read by its statistics region as an input window, are still
    there for the normalisation region that follows.

  Each fact is a chain of one-segment steps; a step is one membership check over reference names.
-/
import proofs.«152807_j76802605187214_1_alg».proof.Proof.Gen.KernelIdeal.Frame
import proofs.«152807_j76802605187214_1_alg».proof.Proof.KernelPass
import proofs.«152807_j76802605187214_1_alg».proof.Proof.KernelHostA

set_option maxRecDepth 16384

noncomputable section

namespace Cert.KernelIdeal.KCarry

open Idealize.ShloMosaic Idealize.ShloMosaic.TcCoe
open Idealize.ShloMosaic.Pipeline (Dat)
open Cert.KernelIdeal.Gen Cert.KernelIdeal.KStages

variable (m : (ℓ : Loc nD τ sig) → Buf (Elt Ideal) ℓ) (ρ : Dev nD → PrngReg) (c : Dev nD)

/-! ## One segment at a time, for any reference -/

theorem s01 (r : Ref sig .tc) (h : r ∉ KPass.written0) :
    W1 m ρ c (Proc.devRef .tc r) = W0 m ρ c (Proc.devRef .tc r) := KPass.pass0 (W0 m ρ c) r h
theorem s12 (r : Ref sig .tc) (g : ∀ w, Pipeline.arrRef spec0 w ≠ r) :
    W2 m ρ c (Proc.devRef .tc r) = W1 m ρ c (Proc.devRef .tc r) := W2_of_ne m ρ c r g
theorem s23 (r : Ref sig .tc) (h : r ∉ KPass.written1) :
    W3 m ρ c (Proc.devRef .tc r) = W2 m ρ c (Proc.devRef .tc r) := KPass.pass1 (W2 m ρ c) r h
theorem s34 (r : Ref sig .tc) (g : ∀ w, Pipeline.arrRef spec1 w ≠ r) :
    W4 m ρ c (Proc.devRef .tc r) = W3 m ρ c (Proc.devRef .tc r) := W4_of_ne m ρ c r g
theorem s45 (r : Ref sig .tc) (h : r ∉ KPass.written2) :
    W5 m ρ c (Proc.devRef .tc r) = W4 m ρ c (Proc.devRef .tc r) := KPass.pass2 (W4 m ρ c) r h
theorem s56 (r : Ref sig .tc) (g : ∀ w, Pipeline.arrRef spec2 w ≠ r) :
    W6 m ρ c (Proc.devRef .tc r) = W5 m ρ c (Proc.devRef .tc r) := W6_of_ne m ρ c r g
theorem s67 (r : Ref sig .tc) (g : ∀ w, Pipeline.arrRef spec3 w ≠ r) :
    W7 m ρ c (Proc.devRef .tc r) = W6 m ρ c (Proc.devRef .tc r) := W7_of_ne m ρ c r g
theorem s78 (r : Ref sig .tc) (h : r ∉ KPass.written4) :
    W8 m ρ c (Proc.devRef .tc r) = W7 m ρ c (Proc.devRef .tc r) := KPass.pass4 (W7 m ρ c) r h
theorem s89 (r : Ref sig .tc) (g : ∀ w, Pipeline.arrRef spec4 w ≠ r) :
    W9 m ρ c (Proc.devRef .tc r) = W8 m ρ c (Proc.devRef .tc r) := W9_of_ne m ρ c r g
theorem s9A (r : Ref sig .tc) (h : r ∉ KPass.written5) :
    W10 m ρ c (Proc.devRef .tc r) = W9 m ρ c (Proc.devRef .tc r) := KPass.pass5 (W9 m ρ c) r h

/-- From the launch to region 0's exit: two segments. -/
theorem to2 (r : Ref sig .tc) (h0 : r ∉ KPass.written0) (g0 : ∀ w, Pipeline.arrRef spec0 w ≠ r) :
    W2 m ρ c (Proc.devRef .tc r) = W0 m ρ c (Proc.devRef .tc r) :=
  (s12 m ρ c r g0).trans (s01 m ρ c r h0)

/-- From region 0's exit to region 3's exit: five segments. -/
theorem from2to7 (r : Ref sig .tc) (h1 : r ∉ KPass.written1) (g1 : ∀ w, Pipeline.arrRef spec1 w ≠ r)
    (h2 : r ∉ KPass.written2) (g2 : ∀ w, Pipeline.arrRef spec2 w ≠ r) (g3 : ∀ w, Pipeline.arrRef spec3 w ≠ r) :
    W7 m ρ c (Proc.devRef .tc r) = W2 m ρ c (Proc.devRef .tc r) :=
  (s67 m ρ c r g3).trans <| (s56 m ρ c r g2).trans <| (s45 m ρ c r h2).trans <| (s34 m ρ c r g1).trans (s23 m ρ c r h1)

/-! ## The arguments, where they are read -/

theorem W1_arg0 : W1 m ρ c (Proc.devRef .tc main_arg0) = m ((c : Thread nD τ).loc main_arg0) :=
  s01 m ρ c main_arg0 (by decide)
theorem W1_arg2 : W1 m ρ c (Proc.devRef .tc main_arg2) = m ((c : Thread nD τ).loc main_arg2) :=
  s01 m ρ c main_arg2 (by decide)
theorem W2_arg3 : W2 m ρ c (Proc.devRef .tc main_arg3) = m ((c : Thread nD τ).loc main_arg3) :=
  to2 m ρ c main_arg3 (by decide) (by decide)
theorem W4_arg4 : W4 m ρ c (Proc.devRef .tc main_arg4) = m ((c : Thread nD τ).loc main_arg4) :=
  (s34 m ρ c main_arg4 (by decide)).trans <| (s23 m ρ c main_arg4 (by decide)).trans (to2 m ρ c main_arg4 (by decide) (by decide))
theorem W4_arg5 : W4 m ρ c (Proc.devRef .tc main_arg5) = m ((c : Thread nD τ).loc main_arg5) :=
  (s34 m ρ c main_arg5 (by decide)).trans <| (s23 m ρ c main_arg5 (by decide)).trans (to2 m ρ c main_arg5 (by decide) (by decide))
theorem W6_arg6 : W6 m ρ c (Proc.devRef .tc main_arg6) = m ((c : Thread nD τ).loc main_arg6) :=
  (s56 m ρ c main_arg6 (by decide)).trans <| (s45 m ρ c main_arg6 (by decide)).trans <| (s34 m ρ c main_arg6 (by decide)).trans <|
    (s23 m ρ c main_arg6 (by decide)).trans (to2 m ρ c main_arg6 (by decide) (by decide))
theorem W7_arg7 : W7 m ρ c (Proc.devRef .tc main_arg7) = m ((c : Thread nD τ).loc main_arg7) :=
  (from2to7 m ρ c main_arg7 (by decide) (by decide) (by decide) (by decide) (by decide)).trans (to2 m ρ c main_arg7 (by decide) (by decide))
theorem W9_arg8 : W9 m ρ c (Proc.devRef .tc main_arg8) = m ((c : Thread nD τ).loc main_arg8) :=
  (s89 m ρ c main_arg8 (by decide)).trans <| (s78 m ρ c main_arg8 (by decide)).trans <|
    (from2to7 m ρ c main_arg8 (by decide) (by decide) (by decide) (by decide) (by decide)).trans (to2 m ρ c main_arg8 (by decide) (by decide))
theorem W9_arg9 : W9 m ρ c (Proc.devRef .tc main_arg9) = m ((c : Thread nD τ).loc main_arg9) :=
  (s89 m ρ c main_arg9 (by decide)).trans <| (s78 m ρ c main_arg9 (by decide)).trans <|
    (from2to7 m ρ c main_arg9 (by decide) (by decide) (by decide) (by decide) (by decide)).trans (to2 m ρ c main_arg9 (by decide) (by decide))

/-! ## What the first stretch prepares from the edge list, where the two aggregations read it -/

theorem W2_src : W2 m ρ c (Proc.devRef .tc main_v1) = srcIdx (m ((c : Thread nD τ).loc main_arg1)) :=
  (s12 m ρ c main_v1 (by decide)).trans (KHost.host0_src (W0 m ρ c))
theorem W2_dst : W2 m ρ c (Proc.devRef .tc main_v3) = dstIdx (m ((c : Thread nD τ).loc main_arg1)) :=
  (s12 m ρ c main_v3 (by decide)).trans (KHost.host0_dst (W0 m ρ c))
theorem W2_edgeNorm : W2 m ρ c (Proc.devRef .tc main_v30) = edgeNorm (m ((c : Thread nD τ).loc main_arg1)) :=
  (s12 m ρ c main_v30 (by decide)).trans (KHost.host0_edgeNorm (W0 m ρ c))
theorem W2_selfScale : W2 m ρ c (Proc.devRef .tc main_v31) = selfScale (m ((c : Thread nD τ).loc main_arg1)) :=
  (s12 m ρ c main_v31 (by decide)).trans (KHost.host0_selfScale (W0 m ρ c))

theorem W7_src : W7 m ρ c (Proc.devRef .tc main_v1) = srcIdx (m ((c : Thread nD τ).loc main_arg1)) :=
  (from2to7 m ρ c main_v1 (by decide) (by decide) (by decide) (by decide) (by decide)).trans (W2_src m ρ c)
theorem W7_dst : W7 m ρ c (Proc.devRef .tc main_v3) = dstIdx (m ((c : Thread nD τ).loc main_arg1)) :=
  (from2to7 m ρ c main_v3 (by decide) (by decide) (by decide) (by decide) (by decide)).trans (W2_dst m ρ c)
theorem W7_edgeNorm : W7 m ρ c (Proc.devRef .tc main_v30) = edgeNorm (m ((c : Thread nD τ).loc main_arg1)) :=
  (from2to7 m ρ c main_v30 (by decide) (by decide) (by decide) (by decide) (by decide)).trans (W2_edgeNorm m ρ c)
theorem W7_selfScale : W7 m ρ c (Proc.devRef .tc main_v31) = selfScale (m ((c : Thread nD τ).loc main_arg1)) :=
  (from2to7 m ρ c main_v31 (by decide) (by decide) (by decide) (by decide) (by decide)).trans (W2_selfScale m ρ c)

/-! ## The aggregated features, past the statistics region that reads them -/

/-- Region 1 reads `main_v57` through an input window and leaves it as it was; the stretch after it does not
    write it. -/
theorem W5_agg : W5 m ρ c (Proc.devRef .tc main_v57) = W3 m ρ c (Proc.devRef .tc main_v57) :=
  (s45 m ρ c main_v57 (by decide)).trans
    ((W4_arr m ρ c 0).trans (((dat1 (V3 m ρ) c).arrAt_in 0 rfl _).trans (A_eq1 (V3 m ρ) c 0)))

/-- Region 4 reads `main_v99` through an input window and leaves it as it was; the stretch after it does not
    write it. -/
theorem W10_agg : W10 m ρ c (Proc.devRef .tc main_v99) = W8 m ρ c (Proc.devRef .tc main_v99) :=
  (s9A m ρ c main_v99 (by decide)).trans
    ((W9_arr m ρ c 0).trans (((dat4 (V8 m ρ) c).arrAt_in 0 rfl _).trans (A_eq4 (V8 m ρ) c 0)))

end Cert.KernelIdeal.KCarry

end
-- ==== Proof.KernelHostB.lean ====
/-
  The aggregation stretches, read at their result.

  After each matrix product the program aggregates the product along the edges on the host: the second
  stretch for the first layer, the fourth for the second.  Run from ANY buffer contents `W`, the
  stretch's last buffer ends at the aggregation stage of the six buffers it reads — the two index
  vectors, the per-edge and per-node weights, the product, the bias — as `W` holds them.  The two
  stretches are the same operations over different buffers.
-/
import proofs.«152807_j76802605187214_1_alg».proof.Proof.Gen.KernelIdeal.Launch
import proofs.«152807_j76802605187214_1_alg».proof.Proof.KernelStages

set_option maxRecDepth 16384

noncomputable section

namespace Cert.KernelIdeal.KHost

open Idealize.ShloMosaic Cert.KernelIdeal.Gen Cert.KernelIdeal.KStages

variable (W : Valuation τ sig (Elt Ideal))

/-- The first layer's aggregation: of region 0's product `main_v32` with the bias `main_arg3`. -/
theorem host1_agg :
    StableHlo.after (hostOps1 (F := Ideal)) W (Proc.devRef .tc main_v57)
      = aggOf (W (Proc.devRef .tc main_v1)) (W (Proc.devRef .tc main_v3)) (W (Proc.devRef .tc main_v30))
          (W (Proc.devRef .tc main_v31)) (W (Proc.devRef .tc main_v32)) (W (Proc.devRef .tc main_arg3)) := by
  after_results_simp; rfl

/-- The second layer's aggregation: of region 3's product `main_v74` with the bias `main_arg7`. -/
theorem host4_agg :
    StableHlo.after (hostOps4 (F := Ideal)) W (Proc.devRef .tc main_v99)
      = aggOf (W (Proc.devRef .tc main_v1)) (W (Proc.devRef .tc main_v3)) (W (Proc.devRef .tc main_v30))
          (W (Proc.devRef .tc main_v31)) (W (Proc.devRef .tc main_v74)) (W (Proc.devRef .tc main_arg7)) := by
  after_results_simp; rfl

end Cert.KernelIdeal.KHost

end
-- ==== Proof.KernelHostC.lean ====
/-
  The normalisation stretches, read at the scale and the shift.

  After each statistics region the program turns the column sums and sums of squares into the
  normalisation's per-column scale and shift on the host: the third stretch for the first layer, the
  fifth for the second.  Run from ANY buffer contents `W`, the two result buffers end at the scale and
  shift stages of the statistics and the two parameters as `W` holds them.
-/
import proofs.«152807_j76802605187214_1_alg».proof.Proof.Gen.KernelIdeal.Launch
import proofs.«152807_j76802605187214_1_alg».proof.Proof.KernelStages

set_option maxRecDepth 16384

noncomputable section

namespace Cert.KernelIdeal.KHost

open Idealize.ShloMosaic Cert.KernelIdeal.Gen Cert.KernelIdeal.KStages

variable (W : Valuation τ sig (Elt Ideal))

/-- The first layer's scale, from region 1's two outputs and `γ = main_arg4`. -/
theorem host2_scale :
    StableHlo.after (hostOps2 (F := Ideal)) W (Proc.devRef .tc main_v69)
      = bnScale (W (Proc.devRef .tc main_v58_0)) (W (Proc.devRef .tc main_v58_1)) (W (Proc.devRef .tc main_arg4)) := by
  after_results_simp; rfl

/-- The first layer's shift, with `β = main_arg5`. -/
theorem host2_shift :
    StableHlo.after (hostOps2 (F := Ideal)) W (Proc.devRef .tc main_v72)
      = bnShift (W (Proc.devRef .tc main_v58_0)) (W (Proc.devRef .tc main_v58_1)) (W (Proc.devRef .tc main_arg4))
          (W (Proc.devRef .tc main_arg5)) := by
  after_results_simp; rfl

/-- The second layer's scale, from region 4's two outputs and `γ = main_arg8`. -/
theorem host5_scale :
    StableHlo.after (hostOps5 (F := Ideal)) W (Proc.devRef .tc main_v111)
      = bnScale (W (Proc.devRef .tc main_v100_0)) (W (Proc.devRef .tc main_v100_1)) (W (Proc.devRef .tc main_arg8)) := by
  after_results_simp; rfl

/-- The second layer's shift, with `β = main_arg9`. -/
theorem host5_shift :
    StableHlo.after (hostOps5 (F := Ideal)) W (Proc.devRef .tc main_v114)
      = bnShift (W (Proc.devRef .tc main_v100_0)) (W (Proc.devRef .tc main_v100_1)) (W (Proc.devRef .tc main_arg8))
          (W (Proc.devRef .tc main_arg9)) := by
  after_results_simp; rfl

end Cert.KernelIdeal.KHost

end
-- ==== Proof.KernelLayer1.lean ====
/-
  The first layer, read through the first six segments.

  Each region's output is taken as a GIVEN function of the region's input arrays as it finds them — the
  product with a weight matrix for regions 0 and 3, the column sums and sums of squares for regions 1 and
  4, the scale–shift–rectify for regions 2 and 5; the six statements, for any entry contents, are named
  here (`Reg0 … Reg5`) — and each host stretch is read as its stage function of the buffers it finds.
  Going forward from the launch:

  * region 0 multiplies the features by the first weight matrix;
  * the second stretch aggregates the product along the edges (the index vectors and weights the first
    stretch prepared are still in place);
  * region 1 takes the column statistics of the aggregate, the third stretch turns them into the scale
    and the shift, and region 2 applies them and rectifies.

  So at region 2's exit its output buffer holds one `layer` of the first six arguments.  Every step is a
  rewrite between named stage functions applied to variables; no array is ever evaluated.
-/
import proofs.«152807_j76802605187214_1_alg».proof.Proof.Gen.KernelIdeal.Frame
import proofs.«152807_j76802605187214_1_alg».proof.Proof.KernelStages
import proofs.«152807_j76802605187214_1_alg».proof.Proof.KernelCarry
import proofs.«152807_j76802605187214_1_alg».proof.Proof.KernelHostB
import proofs.«152807_j76802605187214_1_alg».proof.Proof.KernelHostC

set_option maxRecDepth 16384

noncomputable section

namespace Cert.KernelIdeal.KChain

open Idealize.ShloMosaic Idealize.ShloMosaic.TcCoe
open Cert.KernelIdeal.Gen Cert.KernelIdeal.KStages

/-- The TensorCore's buffer contents when a region is entered. -/
abbrev Entry : Type := (c : Dev nD) → (b : Ref sig .tc) → Buf (Elt Ideal) ((c : Thread nD τ).loc b)

/-- Region 0's output, for any entry contents: the features times the first weight matrix. -/
def Reg0 : Prop := ∀ (V : Entry) (c : Dev nD),
  (dat0 (F := Ideal) V c).arrAt 2 cfg0.N = Cert.Spec.mm (V c main_arg0) (V c main_arg2)
/-- Region 1's first output: the column sums of its input. -/
def Reg1Sum : Prop := ∀ (V : Entry) (c : Dev nD),
  (dat1 (F := Ideal) V c).arrAt 1 cfg1.N = Cert.Spec.colSum (V c main_v57)
/-- Region 1's second output: the column sums of squares of its input. -/
def Reg1SumSq : Prop := ∀ (V : Entry) (c : Dev nD),
  (dat1 (F := Ideal) V c).arrAt 2 cfg1.N = Cert.Spec.colSumSq (V c main_v57)
/-- Region 2's output: its first input scaled and shifted by the other two, then rectified. -/
def Reg2 : Prop := ∀ (V : Entry) (c : Dev nD),
  (dat2 (F := Ideal) V c).arrAt 3 cfg2.N = Cert.Spec.normAct (V c main_v57) (V c main_v69) (V c main_v72)
/-- Region 3's output: its input times the second weight matrix. -/
def Reg3 : Prop := ∀ (V : Entry) (c : Dev nD),
  (dat3 (F := Ideal) V c).arrAt 2 cfg3.N = Cert.Spec.mm (V c main_v73) (V c main_arg6)
/-- Region 4's first output: the column sums of its input. -/
def Reg4Sum : Prop := ∀ (V : Entry) (c : Dev nD),
  (dat4 (F := Ideal) V c).arrAt 1 cfg4.N = Cert.Spec.colSum (V c main_v99)
/-- Region 4's second output: the column sums of squares of its input. -/
def Reg4SumSq : Prop := ∀ (V : Entry) (c : Dev nD),
  (dat4 (F := Ideal) V c).arrAt 2 cfg4.N = Cert.Spec.colSumSq (V c main_v99)
/-- Region 5's output: its first input scaled and shifted by the other two, then rectified. -/
def Reg5 : Prop := ∀ (V : Entry) (c : Dev nD),
  (dat5 (F := Ideal) V c).arrAt 3 cfg5.N = Cert.Spec.normAct (V c main_v99) (V c main_v111) (V c main_v114)

variable (m : (ℓ : Loc nD τ sig) → Buf (Elt Ideal) ℓ) (ρ : Dev nD → PrngReg)

variable (h0 : Reg0) (h1s : Reg1Sum) (h1q : Reg1SumSq) (h2 : Reg2)

/-! ## The first layer -/

include h0

/-- After region 0: the features times the first weight matrix. -/
theorem W2_product (c : Dev nD) :
    W2 m ρ c (Proc.devRef .tc main_v32) = Cert.Spec.mm (m ((c : Thread nD τ).loc main_arg0)) (m ((c : Thread nD τ).loc main_arg2)) := by
  refine (W2_arr m ρ c 2).trans ((h0 (V1 m ρ) c).trans ?_)
  show Cert.Spec.mm (W1 m ρ c (Proc.devRef .tc main_arg0)) (W1 m ρ c (Proc.devRef .tc main_arg2)) = _
  rw [KCarry.W1_arg0 m ρ c, KCarry.W1_arg2 m ρ c]

/-- After the second stretch: the product aggregated along the edges. -/
theorem W3_aggregate (c : Dev nD) :
    W3 m ρ c (Proc.devRef .tc main_v57) = agg (m ((c : Thread nD τ).loc main_arg1)) (Cert.Spec.mm (m ((c : Thread nD τ).loc main_arg0)) (m ((c : Thread nD τ).loc main_arg2))) (m ((c : Thread nD τ).loc main_arg3)) := by
  refine (KHost.host1_agg (W2 m ρ c)).trans ?_
  rw [KCarry.W2_src m ρ c, KCarry.W2_dst m ρ c, KCarry.W2_edgeNorm m ρ c, KCarry.W2_selfScale m ρ c,
    W2_product m ρ h0 c, KCarry.W2_arg3 m ρ c]
  rfl

/-- The aggregate is still there when region 2 reads it. -/
theorem W5_aggregate (c : Dev nD) :
    W5 m ρ c (Proc.devRef .tc main_v57) = agg (m ((c : Thread nD τ).loc main_arg1)) (Cert.Spec.mm (m ((c : Thread nD τ).loc main_arg0)) (m ((c : Thread nD τ).loc main_arg2))) (m ((c : Thread nD τ).loc main_arg3)) :=
  (KCarry.W5_agg m ρ c).trans (W3_aggregate m ρ h0 c)

include h1s h1q

/-- After region 1: the aggregate's column sums. -/
theorem W4_sum (c : Dev nD) :
    W4 m ρ c (Proc.devRef .tc main_v58_0) = Cert.Spec.colSum (agg (m ((c : Thread nD τ).loc main_arg1)) (Cert.Spec.mm (m ((c : Thread nD τ).loc main_arg0)) (m ((c : Thread nD τ).loc main_arg2))) (m ((c : Thread nD τ).loc main_arg3))) := by
  refine (W4_arr m ρ c 1).trans ((h1s (V3 m ρ) c).trans ?_)
  show Cert.Spec.colSum (W3 m ρ c (Proc.devRef .tc main_v57)) = _
  rw [W3_aggregate m ρ h0 c]

/-- After region 1: the aggregate's column sums of squares. -/
theorem W4_sumSq (c : Dev nD) :
    W4 m ρ c (Proc.devRef .tc main_v58_1) = Cert.Spec.colSumSq (agg (m ((c : Thread nD τ).loc main_arg1)) (Cert.Spec.mm (m ((c : Thread nD τ).loc main_arg0)) (m ((c : Thread nD τ).loc main_arg2))) (m ((c : Thread nD τ).loc main_arg3))) := by
  refine (W4_arr m ρ c 2).trans ((h1q (V3 m ρ) c).trans ?_)
  show Cert.Spec.colSumSq (W3 m ρ c (Proc.devRef .tc main_v57)) = _
  rw [W3_aggregate m ρ h0 c]

/-- After the third stretch: the normalisation's scale. -/
theorem W5_scale (c : Dev nD) :
    W5 m ρ c (Proc.devRef .tc main_v69)
      = bnScale (Cert.Spec.colSum (agg (m ((c : Thread nD τ).loc main_arg1)) (Cert.Spec.mm (m ((c : Thread nD τ).loc main_arg0)) (m ((c : Thread nD τ).loc main_arg2))) (m ((c : Thread nD τ).loc main_arg3)))) (Cert.Spec.colSumSq (agg (m ((c : Thread nD τ).loc main_arg1)) (Cert.Spec.mm (m ((c : Thread nD τ).loc main_arg0)) (m ((c : Thread nD τ).loc main_arg2))) (m ((c : Thread nD τ).loc main_arg3)))) (m ((c : Thread nD τ).loc main_arg4)) := by
  refine (KHost.host2_scale (W4 m ρ c)).trans ?_
  rw [W4_sum m ρ h0 h1s h1q c, W4_sumSq m ρ h0 h1s h1q c, KCarry.W4_arg4 m ρ c]

/-- After the third stretch: the normalisation's shift. -/
theorem W5_shift (c : Dev nD) :
    W5 m ρ c (Proc.devRef .tc main_v72)
      = bnShift (Cert.Spec.colSum (agg (m ((c : Thread nD τ).loc main_arg1)) (Cert.Spec.mm (m ((c : Thread nD τ).loc main_arg0)) (m ((c : Thread nD τ).loc main_arg2))) (m ((c : Thread nD τ).loc main_arg3)))) (Cert.Spec.colSumSq (agg (m ((c : Thread nD τ).loc main_arg1)) (Cert.Spec.mm (m ((c : Thread nD τ).loc main_arg0)) (m ((c : Thread nD τ).loc main_arg2))) (m ((c : Thread nD τ).loc main_arg3)))) (m ((c : Thread nD τ).loc main_arg4)) (m ((c : Thread nD τ).loc main_arg5)) := by
  refine (KHost.host2_shift (W4 m ρ c)).trans ?_
  rw [W4_sum m ρ h0 h1s h1q c, W4_sumSq m ρ h0 h1s h1q c, KCarry.W4_arg4 m ρ c, KCarry.W4_arg5 m ρ c]

include h2

/-- After region 2: the first layer of the arguments. -/
theorem W6_layer (c : Dev nD) :
    W6 m ρ c (Proc.devRef .tc main_v73) = layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine (W6_arr m ρ c 3).trans ((h2 (V5 m ρ) c).trans ?_)
  show Cert.Spec.normAct (W5 m ρ c (Proc.devRef .tc main_v57)) (W5 m ρ c (Proc.devRef .tc main_v69)) (W5 m ρ c (Proc.devRef .tc main_v72)) = _
  rw [W5_aggregate m ρ h0 c, W5_scale m ρ h0 h1s h1q c, W5_shift m ρ h0 h1s h1q c]
  rfl

end Cert.KernelIdeal.KChain

end
-- ==== Proof.KernelChain.lean ====
/-
  The result buffer, read back through the eleven segments to the arguments.

  The first layer's result sits in region 2's output buffer.  Region 3 multiplies it by the second weight
  matrix, the fourth stretch aggregates the product along the same edge list (the index vectors and the
  weights prepared before region 0 are still in place, five segments later), region 4 takes the column
  statistics, the fifth stretch turns them into scale and shift, and region 5 applies them and rectifies —
  the same layer again, over the first layer's result and the second layer's parameters.  So the run's
  last boundary holds the result buffer at `out` of the ten arguments, given the six regions' values.
-/
import proofs.«152807_j76802605187214_1_alg».proof.Proof.KernelLayer1

set_option maxRecDepth 16384

noncomputable section

namespace Cert.KernelIdeal.KChain

open Idealize.ShloMosaic Idealize.ShloMosaic.TcCoe
open Cert.KernelIdeal.Gen Cert.KernelIdeal.KStages

variable (m : (ℓ : Loc nD τ sig) → Buf (Elt Ideal) ℓ) (ρ : Dev nD → PrngReg)

variable (h0 : Reg0) (h1s : Reg1Sum) (h1q : Reg1SumSq) (h2 : Reg2) (h3 : Reg3) (h4s : Reg4Sum) (h4q : Reg4SumSq) (h5 : Reg5)

include h0 h1s h1q h2

/-! ## The second layer -/

include h3

/-- After region 3: the first layer's result times the second weight matrix. -/
theorem W7_product (c : Dev nD) :
    W7 m ρ c (Proc.devRef .tc main_v74) = Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W7_arr m ρ c 2).trans ((h3 (V6 m ρ) c).trans ?_)
  show Cert.Spec.mm (W6 m ρ c (Proc.devRef .tc main_v73)) (W6 m ρ c (Proc.devRef .tc main_arg6)) = _
  rw [W6_layer m ρ h0 h1s h1q h2 c, KCarry.W6_arg6 m ρ c]

/-- After the fourth stretch: that product aggregated along the same edges. -/
theorem W8_aggregate (c : Dev nD) :
    W8 m ρ c (Proc.devRef .tc main_v99) = agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) := by
  refine (KHost.host4_agg (W7 m ρ c)).trans ?_
  rw [KCarry.W7_src m ρ c, KCarry.W7_dst m ρ c, KCarry.W7_edgeNorm m ρ c, KCarry.W7_selfScale m ρ c,
    W7_product m ρ h0 h1s h1q h2 h3 c, KCarry.W7_arg7 m ρ c]
  rfl

/-- The second aggregate is still there when region 5 reads it. -/
theorem W10_aggregate (c : Dev nD) :
    W10 m ρ c (Proc.devRef .tc main_v99) = agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)) :=
  (KCarry.W10_agg m ρ c).trans (W8_aggregate m ρ h0 h1s h1q h2 h3 c)

include h4s h4q

/-- After region 4: the second aggregate's column sums. -/
theorem W9_sum (c : Dev nD) :
    W9 m ρ c (Proc.devRef .tc main_v100_0) = Cert.Spec.colSum (agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7))) := by
  refine (W9_arr m ρ c 1).trans ((h4s (V8 m ρ) c).trans ?_)
  show Cert.Spec.colSum (W8 m ρ c (Proc.devRef .tc main_v99)) = _
  rw [W8_aggregate m ρ h0 h1s h1q h2 h3 c]

/-- After region 4: the second aggregate's column sums of squares. -/
theorem W9_sumSq (c : Dev nD) :
    W9 m ρ c (Proc.devRef .tc main_v100_1) = Cert.Spec.colSumSq (agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7))) := by
  refine (W9_arr m ρ c 2).trans ((h4q (V8 m ρ) c).trans ?_)
  show Cert.Spec.colSumSq (W8 m ρ c (Proc.devRef .tc main_v99)) = _
  rw [W8_aggregate m ρ h0 h1s h1q h2 h3 c]

/-- After the fifth stretch: the second normalisation's scale. -/
theorem W10_scale (c : Dev nD) :
    W10 m ρ c (Proc.devRef .tc main_v111)
      = bnScale (Cert.Spec.colSum (agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)))) (Cert.Spec.colSumSq (agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)))) (m ((c : Thread nD τ).loc main_arg8)) := by
  refine (KHost.host5_scale (W9 m ρ c)).trans ?_
  rw [W9_sum m ρ h0 h1s h1q h2 h3 h4s h4q c, W9_sumSq m ρ h0 h1s h1q h2 h3 h4s h4q c, KCarry.W9_arg8 m ρ c]

/-- After the fifth stretch: the second normalisation's shift. -/
theorem W10_shift (c : Dev nD) :
    W10 m ρ c (Proc.devRef .tc main_v114)
      = bnShift (Cert.Spec.colSum (agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)))) (Cert.Spec.colSumSq (agg (m ((c : Thread nD τ).loc main_arg1)) (Cert.Spec.mm (layer (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)))) (m ((c : Thread nD τ).loc main_arg8)) (m ((c : Thread nD τ).loc main_arg9)) := by
  refine (KHost.host5_shift (W9 m ρ c)).trans ?_
  rw [W9_sum m ρ h0 h1s h1q h2 h3 h4s h4q c, W9_sumSq m ρ h0 h1s h1q h2 h3 h4s h4q c, KCarry.W9_arg8 m ρ c,
    KCarry.W9_arg9 m ρ c]

include h5

/-- THE RESULT BUFFER at the last boundary: two layers of the ten arguments. -/
theorem out_eq (c : Dev nD) :
    W11 m ρ c (Proc.devRef .tc main_v115)
      = KStages.out (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 3).trans ((h5 (V10 m ρ) c).trans ?_)
  show Cert.Spec.normAct (W10 m ρ c (Proc.devRef .tc main_v99)) (W10 m ρ c (Proc.devRef .tc main_v111)) (W10 m ρ c (Proc.devRef .tc main_v114)) = _
  rw [W10_aggregate m ρ h0 h1s h1q h2 h3 c, W10_scale m ρ h0 h1s h1q h2 h3 h4s h4q c,
    W10_shift m ρ h0 h1s h1q h2 h3 h4s h4q c]
  rfl

end Cert.KernelIdeal.KChain

end
-- ==== Proof.RefRun0.lean ====
/-
  Window 0 of the reference's straight line: the operations of `main_part0` as lists, cut where a stage of the
  arithmetic ends; a call of an outlined function is its body's operations at the call's own buffers, a nested
  call's likewise. For each list: every operation touches TensorCore buffers only, and the buffers it writes.
  The window's program is the straight line of its lists, by unfolding.
-/
import proofs.«152807_j76802605187214_1_alg».proof.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-- An operation writes its result buffer only, and that buffer is in the list. -/
local macro "writes_in_list" : tactic =>
  `(tactic| (simp only [nullary_writes, unary_writes, binary_writes, ternary_writes, reshape_writes, Finset.singleton_subset_iff, List.mem_toFinset]
             exact List.mem_map_of_mem (by decide)))

/-- Operations 1 … 5 of the straight line: the two rows of the edge list as vectors and the first dense product. -/
abbrev p01 : List (HloOp τ sig (Elt Ideal)) :=
  [
    unary main_arg1 main_v0 ((extractStridedSlice S1x1200000 ![0, 0] · slices_S2x1200000_S1x1200000_0_0) : (⟨S2x1200000, .i32⟩ : BufTy).Contents (Elt Ideal) → (⟨S1x1200000, .i32⟩ : BufTy).Contents (Elt Ideal)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt Ideal) → (⟨S1x1200000, .i32⟩ : BufTy).Contents (Elt Ideal)),
    reshape main_v2 main_v3 rfl shapeCasts_S1x1200000_S1200000,
    binary main_arg0 main_arg2 main_v4 ((fun l r => Host.dotGeneral (F := Ideal) (φ₁ := .f32) (φ₂ := .f32) dot_S100000x64_S64x64_S100000x64_1_0_0_1_n_n none l r) : (⟨S100000x64, .f32⟩ : BufTy).Contents (Elt Ideal) → (⟨S64x64, .f32⟩ : BufTy).Contents (Elt Ideal) → (⟨S100000x64, .f32⟩ : BufTy).Contents (Elt Ideal)) ]

theorem p01_sub : (p01 : List (HloOp τ sig (Elt Ideal))).Forall fun op => op.bufs ⊆ tcRefs τ sig :=
  ⟨unary_bufs_sub .., reshape_bufs_sub .., unary_bufs_sub .., reshape_bufs_sub .., binary_bufs_sub ..⟩

/-- The buffers these operations write, in order. -/
abbrev p01_W : List (Ref sig .tc) := [main_v0, main_v1, main_v2, main_v3, main_v4]

theorem p01_writes : (p01 : List (HloOp τ sig (Elt Ideal))).Forall fun op =>
    op.writes ⊆ (p01_W.map (Proc.devRef (τ := τ) .tc)).toFinset := by
  simp only [List.Forall]; exact ⟨by writes_in_list, by writes_in_list, by writes_in_list, by writes_in_list, by writes_in_list⟩

/-- Operations 6 … 22 of the straight line: the first layer's degrees and their inverse square roots. -/
abbrev p02 : List (HloOp τ sig (Elt Ideal)) :=
  [
    nullary main_cst (constant (F := Ideal) S_ .f32 0x00000000#32),
    unary main_cst main_v5 (broadcastInDim S100000 ![] bcast_S_S100000 : (⟨S_, .f32⟩ : BufTy).Contents (Elt Ideal) → (⟨S100000, .f32⟩ : BufTy).Contents (Elt Ideal)),
    nullary main_c (constantI S_ 32 0#32),
    unary main_c main_v6 (broadcastInDim S1200000 ![] bcast_S_S1200000 : (⟨S_, .i32⟩ : BufTy).Contents (Elt Ideal) → (⟨S1200000, .i32⟩ : BufTy).Contents (Elt Ideal)),
    binary main_v3 main_v6 main_v7 (cmpi .slt : (⟨S1200000, .i32⟩ : BufTy).Contents (Elt Ideal) → (⟨S1200000, .i32⟩ : BufTy).Contents (Elt Ideal) → (⟨S1200000, .i1⟩ : BufTy).Contents (Elt Ideal)),
    nullary main_c_0 (constantI S_ 32 100000#32),
    unary main_c_0 main_v8 (broadcastInDim S1200000 ![] bcast_S_S1200000 : (⟨S_, .i32⟩ : BufTy).Contents (Elt Ideal) → (⟨S1200000, .i32⟩ : BufTy).Contents (Elt Ideal)),
    binary main_v3 main_v8 main_v9 (addi : (⟨S1200000, .i32⟩ : BufTy).Contents (Elt Ideal) → (⟨S1200000, .i32⟩ : BufTy).Contents (Elt Ideal) → (⟨S1200000, .i32⟩ : BufTy).Contents (Elt Ideal)),
    ternary main_v7 main_v9 main_v3 main_v10 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v10 main_v11 (broadcastInDim S1200000x1 ![0] bcast_S1200000_S1200000x1_0 : (⟨S1200000, .i32⟩ : BufTy).Contents (Elt Ideal) → (⟨S1200000x1, .i32⟩ : BufTy).Contents (Elt Ideal)),
    nullary main_cst_1 (constant (F := Ideal) S_ .f32 0x3F800000#32),
    unary main_cst_1 main_v12 (broadcastInDim S1200000 ![] bcast_S_S1200000 : (⟨S_, .f32⟩ : BufTy).Contents (Elt Ideal) → (⟨S1200000, .f32⟩ : BufTy).Contents (Elt Ideal)),
    ternary main_v5 main_v11 main_v12 main_v13 ((fun x i u => Host.scatterAdd (F := Ideal) (φ := .f32) scatter_S100000_S1200000x1_S1200000_n_0_0_1 x i u) : (⟨S100000, .f32⟩ : BufTy).Contents (Elt Ideal) → (⟨S1200000x1, .i32⟩ : BufTy).Contents (Elt Ideal) → (⟨S1200000, .f32⟩ : BufTy).Contents (Elt Ideal) → (⟨S100000, .f32⟩ : BufTy).Contents (Elt Ideal)),
    nullary main_cst_2 (constant (F := Ideal) S_ .f32 0x3F800000#32),
    unary main_cst_2 main_v14 (broadcastInDim S100000 ![] bcast_S_S100000 : (⟨S_, .f32⟩ : BufTy).Contents (Elt Ideal) → (⟨S100000, .f32⟩ : BufTy).Contents (Elt Ideal)),
    binary main_v13 main_v14 main_v15 (addf (F := Ideal) (φ := .f32) : (⟨S100000, .f32⟩ : BufTy).Contents (Elt Ideal) → (⟨S100000, .f32⟩ : BufTy).Contents (Elt Ideal) → (⟨S100000, .f32⟩ : BufTy).Contents (Elt Ideal)),
    unary main_v15 main_v16 (Host.rsqrt (F := Ideal) (φ := .f32) : (⟨S100000, .f32⟩ : BufTy).Contents (Elt Ideal) → (⟨S100000, .f32⟩ : BufTy).Contents (Elt Ideal)) ]

theorem p02_sub : (p02 : List (HloOp τ sig (Elt Ideal))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩

/-- The buffers these operations write, in order. -/
abbrev p02_W : List (Ref sig .tc) := [main_cst, main_v5, main_c, main_v6, main_v7, main_c_0, main_v8, main_v9, main_v10, main_v11, main_cst_1, main_v12, main_v13, main_cst_2, main_v14, main_v15, main_v16]

theorem p02_writes : (p02 : List (HloOp τ sig (Elt Ideal))).Forall fun op =>
    op.writes ⊆ (p02_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 23 … 41 of the straight line: the first layer's edge weights. -/
abbrev p03 : List (HloOp τ sig (Elt Ideal)) :=
  [
    nullary main_c_3 (constantI S_ 32 0#32),
    unary main_c_3 main_v17 (broadcastInDim S1200000 ![] bcast_S_S1200000 : (⟨S_, .i32⟩ : BufTy).Contents (Elt Ideal) → (⟨S1200000, .i32⟩ : BufTy).Contents (Elt Ideal)),
    binary main_v1 main_v17 main_v18 (cmpi .slt : (⟨S1200000, .i32⟩ : BufTy).Contents (Elt Ideal) → (⟨S1200000, .i32⟩ : BufTy).Contents (Elt Ideal) → (⟨S1200000, .i1⟩ : BufTy).Contents (Elt Ideal)),
    nullary main_c_4 (constantI S_ 32 100000#32),
    unary main_c_4 main_v19 (broadcastInDim S1200000 ![] bcast_S_S1200000 : (⟨S_, .i32⟩ : BufTy).Contents (Elt Ideal) → (⟨S1200000, .i32⟩ : BufTy).Contents (Elt Ideal)),
    binary main_v1 main_v19 main_v20 (addi : (⟨S1200000, .i32⟩ : BufTy).Contents (Elt Ideal) → (⟨S1200000, .i32⟩ : BufTy).Contents (Elt Ideal) → (⟨S1200000, .i32⟩ : BufTy).Contents (Elt Ideal)),
    ternary main_v18 main_v20 main_v1 main_v21 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v21 main_v22 (broadcastInDim S1200000x1 ![0] bcast_S1200000_S1200000x1_0 : (⟨S1200000, .i32⟩ : BufTy).Contents (Elt Ideal) → (⟨S1200000x1, .i32⟩ : BufTy).Contents (Elt Ideal)),
    binary main_v16 main_v22 main_v23 ((fun x i => Host.gather gather_S100000_S1200000x1_S1200000_n_0_n_n_0_1_1 x i) : (⟨S100000, .f32⟩ : BufTy).Contents (Elt Ideal) → (⟨S1200000x1, .i32⟩ : BufTy).Contents (Elt Ideal) → (⟨S1200000, .f32⟩ : BufTy).Contents (Elt Ideal)),
    nullary main_c_5 (constantI S_ 32 0#32),
    unary main_c_5 main_v24 (broadcastInDim S1200000 ![] bcast_S_S1200000 : (⟨S_, .i32⟩ : BufTy).Contents (Elt Ideal) → (⟨S1200000, .i32⟩ : BufTy).Contents (Elt Ideal)),
    binary main_v3 main_v24 main_v25 (cmpi .slt : (⟨S1200000, .i32⟩ : BufTy).Contents (Elt Ideal) → (⟨S1200000, .i32⟩ : BufTy).Contents (Elt Ideal) → (⟨S1200000, .i1⟩ : BufTy).Contents (Elt Ideal)),
    nullary main_c_6 (constantI S_ 32 100000#32),
    unary main_c_6 main_v26 (broadcastInDim S1200000 ![] bcast_S_S1200000 : (⟨S_, .i32⟩ : BufTy).Contents (Elt Ideal) → (⟨S1200000, .i32⟩ : BufTy).Contents (Elt Ideal)),
    binary main_v3 main_v26 main_v27 (addi : (⟨S1200000, .i32⟩ : BufTy).Contents (Elt Ideal) → (⟨S1200000, .i32⟩ : BufTy).Contents (Elt Ideal) → (⟨S1200000, .i32⟩ : BufTy).Contents (Elt Ideal)),
    ternary main_v25 main_v27 main_v3 main_v28 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v28 main_v29 (broadcastInDim S1200000x1 ![0] bcast_S1200000_S1200000x1_0 : (⟨S1200000, .i32⟩ : BufTy).Contents (Elt Ideal) → (⟨S1200000x1, .i32⟩ : BufTy).Contents (Elt Ideal)),
    binary main_v16 main_v29 main_v30 ((fun x i => Host.gather gather_S100000_S1200000x1_S1200000_n_0_n_n_0_1_1 x i) : (⟨S100000, .f32⟩ : BufTy).Contents (Elt Ideal) → (⟨S1200000x1, .i32⟩ : BufTy).Contents (Elt Ideal) → (⟨S1200000, .f32⟩ : BufTy).Contents (Elt Ideal)),
    binary main_v23 main_v30 main_v31 (mulf (F := Ideal) (φ := .f32) : (⟨S1200000, .f32⟩ : BufTy).Contents (Elt Ideal) → (⟨S1200000, .f32⟩ : BufTy).Contents (Elt Ideal) → (⟨S1200000, .f32⟩ : BufTy).Contents (Elt Ideal)) ]

theorem p03_sub : (p03 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The buffers these operations write, in order. -/
abbrev p03_W : List (Ref sig .tc) := [main_c_3, main_v17, main_v18, main_c_4, main_v19, main_v20, main_v21, main_v22, main_v23, main_c_5, main_v24, main_v25, main_c_6, main_v26, main_v27, main_v28, main_v29, main_v30, main_v31]

theorem p03_writes : (p03 : List (HloOp τ sig (Elt Ideal))).Forall fun op =>
    op.writes ⊆ (p03_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 42 … 60 of the straight line: the first layer's aggregation, self loops and bias (the part of it in this window). -/
abbrev p04a : List (HloOp τ sig (Elt Ideal)) :=
  [
    nullary main_cst_7 (constant (F := Ideal) S_ .f32 0x00000000#32),
    unary main_cst_7 main_v32 (broadcastInDim S100000x64 ![] bcast_S_S100000x64 : (⟨S_, .f32⟩ : BufTy).Contents (Elt Ideal) → (⟨S100000x64, .f32⟩ : BufTy).Contents (Elt Ideal)),
    unary main_v31 main_v33 (broadcastInDim S1200000x1 ![0] bcast_S1200000_S1200000x1_0 : (⟨S1200000, .f32⟩ : BufTy).Contents (Elt Ideal) → (⟨S1200000x1, .f32⟩ : BufTy).Contents (Elt Ideal)),
    nullary main_c_8 (constantI S_ 32 0#32),
    unary main_c_8 main_v34 (broadcastInDim S1200000 ![] bcast_S_S1200000 : (⟨S_, .i32⟩ : BufTy).Contents (Elt Ideal) → (⟨S1200000, .i32⟩ : BufTy).Contents (Elt Ideal)),
    binary main_v1 main_v34 main_v35 (cmpi .slt : (⟨S1200000, .i32⟩ : BufTy).Contents (Elt Ideal) → (⟨S1200000, .i32⟩ : BufTy).Contents (Elt Ideal) → (⟨S1200000, .i1⟩ : BufTy).Contents (Elt Ideal)),
    nullary main_c_9 (constantI S_ 32 100000#32),
    unary main_c_9 main_v36 (broadcastInDim S1200000 ![] bcast_S_S1200000 : (⟨S_, .i32⟩ : BufTy).Contents (Elt Ideal) → (⟨S1200000, .i32⟩ : BufTy).Contents (Elt Ideal)),
    binary main_v1 main_v36 main_v37 (addi : (⟨S1200000, .i32⟩ : BufTy).Contents (Elt Ideal) → (⟨S1200000, .i32⟩ : BufTy).Contents (Elt Ideal) → (⟨S1200000, .i32⟩ : BufTy).Contents (Elt Ideal)),
    ternary main_v35 main_v37 main_v1 main_v38 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v38 main_v39 (broadcastInDim S1200000x1 ![0] bcast_S1200000_S1200000x1_0 : (⟨S1200000, .i32⟩ : BufTy).Contents (Elt Ideal) → (⟨S1200000x1, .i32⟩ : BufTy).Contents (Elt Ideal)),
    binary main_v4 main_v39 main_v40 ((fun x i => Host.gather gather_S100000x64_S1200000x1_S1200000x64_1_0_n_n_0_1_164 x i) : (⟨S100000x64, .f32⟩ : BufTy).Contents (Elt Ideal) → (⟨S1200000x1, .i32⟩ : BufTy).Contents (Elt Ideal) → (⟨S1200000x64, .f32⟩ : BufTy).Contents (Elt Ideal)),
    unary main_v33 main_v41 (broadcastInDim S1200000x64 ![0, 1] bcast_S1200000x1_S1200000x64_0_1 : (⟨S1200000x1, .f32⟩ : BufTy).Contents (Elt Ideal) → (⟨S1200000x64, .f32⟩ : BufTy).Contents (Elt Ideal)),
    binary main_v41 main_v40 main_v42 (mulf (F := Ideal) (φ := .f32) : (⟨S1200000x64, .f32⟩ : BufTy).Contents (Elt Ideal) → (⟨S1200000x64, .f32⟩ : BufTy).Contents (Elt Ideal) → (⟨S1200000x64, .f32⟩ : BufTy).Contents (Elt Ideal)),
    nullary main_c_10 (constantI S_ 32 0#32),
    unary main_c_10 main_v43 (broadcastInDim S1200000 ![] bcast_S_S1200000 : (⟨S_, .i32⟩ : BufTy).Contents (Elt Ideal) → (⟨S1200000, .i32⟩ : BufTy).Contents (Elt Ideal)),
    binary main_v3 main_v43 main_v44 (cmpi .slt : (⟨S1200000, .i32⟩ : BufTy).Contents (Elt Ideal) → (⟨S1200000, .i32⟩ : BufTy).Contents (Elt Ideal) → (⟨S1200000, .i1⟩ : BufTy).Contents (Elt Ideal)),
    nullary main_c_11 (constantI S_ 32 100000#32),
    unary main_c_11 main_v45 (broadcastInDim S1200000 ![] bcast_S_S1200000 : (⟨S_, .i32⟩ : BufTy).Contents (Elt Ideal) → (⟨S1200000, .i32⟩ : BufTy).Contents (Elt Ideal)) ]

theorem p04a_sub : (p04a : List (HloOp τ sig (Elt Ideal))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub ..⟩

/-- The buffers these operations write, in order. -/
abbrev p04a_W : List (Ref sig .tc) := [main_cst_7, main_v32, main_v33, main_c_8, main_v34, main_v35, main_c_9, main_v36, main_v37, main_v38, main_v39, main_v40, main_v41, main_v42, main_c_10, main_v43, main_v44, main_c_11, main_v45]

theorem p04a_writes : (p04a : List (HloOp τ sig (Elt Ideal))).Forall fun op =>
    op.writes ⊆ (p04a_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- The window's operations, in order. -/
abbrev w0 : List (HloOp τ sig (Elt Ideal)) := p01 ++ (p02 ++ (p03 ++ (p04a)))

set_option maxRecDepth 16384 in
set_option maxHeartbeats 4000000 in
/-- The window's program is that straight line. -/
theorem main_part0_eq (c : Dev nD) : main_part0 (F := Ideal) c = seq w0 := rfl

theorem w0_sub : (w0 : List (HloOp τ sig (Elt Ideal))).Forall fun op => op.bufs ⊆ tcRefs τ sig :=
  List.forall_iff_forall_mem.mpr fun op h => by
    rcases List.mem_append.mp h with h | h
    · exact List.forall_iff_forall_mem.mp p01_sub op h
    rcases List.mem_append.mp h with h | h
    · exact List.forall_iff_forall_mem.mp p02_sub op h
    rcases List.mem_append.mp h with h | h
    · exact List.forall_iff_forall_mem.mp p03_sub op h
    · exact List.forall_iff_forall_mem.mp p04a_sub op h

end Cert.ReferenceIdeal.RefRun

end
-- ==== Proof.RefRun1.lean ====
/-
  Window 1 of the reference's straight line: the operations of `main_part1` as lists, cut where a stage of the
  arithmetic ends; a call of an outlined function is its body's operations at the call's own buffers, a nested
  call's likewise. For each list: every operation touches TensorCore buffers only, and the buffers it writes.
  The window's program is the straight line of its lists, by unfolding.
-/
import proofs.«152807_j76802605187214_1_alg».proof.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-- An operation writes its result buffer only, and that buffer is in the list. -/
local macro "writes_in_list" : tactic =>
  `(tactic| (simp only [nullary_writes, unary_writes, binary_writes, ternary_writes, reshape_writes, Finset.singleton_subset_iff, List.mem_toFinset]
             exact List.mem_map_of_mem (by decide)))

/-- Operations 61 … 72 of the straight line: the first layer's aggregation, self loops and bias (the part of it in this window). -/
abbrev p04b : List (HloOp τ sig (Elt Ideal)) :=
  [
    binary main_v3 main_v45 main_v46 (addi : (⟨S1200000, .i32⟩ : BufTy).Contents (Elt Ideal) → (⟨S1200000, .i32⟩ : BufTy).Contents (Elt Ideal) → (⟨S1200000, .i32⟩ : BufTy).Contents (Elt Ideal)),
    ternary main_v44 main_v46 main_v3 main_v47 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v47 main_v48 (broadcastInDim S1200000x1 ![0] bcast_S1200000_S1200000x1_0 : (⟨S1200000, .i32⟩ : BufTy).Contents (Elt Ideal) → (⟨S1200000x1, .i32⟩ : BufTy).Contents (Elt Ideal)),
    ternary main_v32 main_v48 main_v42 main_v49 ((fun x i u => Host.scatterAdd (F := Ideal) (φ := .f32) scatter_S100000x64_S1200000x1_S1200000x64_1_0_0_1 x i u) : (⟨S100000x64, .f32⟩ : BufTy).Contents (Elt Ideal) → (⟨S1200000x1, .i32⟩ : BufTy).Contents (Elt Ideal) → (⟨S1200000x64, .f32⟩ : BufTy).Contents (Elt Ideal) → (⟨S100000x64, .f32⟩ : BufTy).Contents (Elt Ideal)),
    binary main_v16 main_v16 main_v50 (mulf (F := Ideal) (φ := .f32) : (⟨S100000, .f32⟩ : BufTy).Contents (Elt Ideal) → (⟨S100000, .f32⟩ : BufTy).Contents (Elt Ideal) → (⟨S100000, .f32⟩ : BufTy).Contents (Elt Ideal)),
    unary main_v50 main_v51 (broadcastInDim S100000x1 ![0] bcast_S100000_S100000x1_0 : (⟨S100000, .f32⟩ : BufTy).Contents (Elt Ideal) → (⟨S100000x1, .f32⟩ : BufTy).Contents (Elt Ideal)),
    unary main_v51 main_v52 (broadcastInDim S100000x64 ![0, 1] bcast_S100000x1_S100000x64_0_1 : (⟨S100000x1, .f32⟩ : BufTy).Contents (Elt Ideal) → (⟨S100000x64, .f32⟩ : BufTy).Contents (Elt Ideal)),
    binary main_v52 main_v4 main_v53 (mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    binary main_v49 main_v53 main_v54 (addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    unary main_arg3 main_v55 (broadcastInDim S1x64 ![1] bcast_S64_S1x64_1 : (⟨S64, .f32⟩ : BufTy).Contents (Elt Ideal) → (⟨S1x64, .f32⟩ : BufTy).Contents (Elt Ideal)),
    unary main_v55 main_v56 (broadcastInDim S100000x64 ![0, 1] bcast_S1x64_S100000x64_0_1 : (⟨S1x64, .f32⟩ : BufTy).Contents (Elt Ideal) → (⟨S100000x64, .f32⟩ : BufTy).Contents (Elt Ideal)),
    binary main_v54 main_v56 main_v57 (addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) ]

theorem p04b_sub : (p04b : List (HloOp τ sig (Elt Ideal))).Forall fun op => op.bufs ⊆ tcRefs τ sig :=
  ⟨binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

/-- The buffers these operations write, in order. -/
abbrev p04b_W : List (Ref sig .tc) := [main_v46, main_v47, main_v48, main_v49, main_v50, main_v51, main_v52, main_v53, main_v54, main_v55, main_v56, main_v57]

theorem p04b_writes : (p04b : List (HloOp τ sig (Elt Ideal))).Forall fun op =>
    op.writes ⊆ (p04b_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list⟩

/-- Operations 73 … 78 of the straight line: the first layer's column means. -/
abbrev p05 : List (HloOp τ sig (Elt Ideal)) :=
  [
    nullary main_cst_12 (constant (F := Ideal) S_ .f32 0x00000000#32),
    binary main_v57 main_cst_12 main_v58 ((fun x v => Host.reduceAdd (F := Ideal) (φ := .f32) x v reducesTo_S100000x64_S64_d0 h_S_) : (⟨S100000x64, .f32⟩ : BufTy).Contents (Elt Ideal) → (⟨S_, .f32⟩ : BufTy).Contents (Elt Ideal) → (⟨S64, .f32⟩ : BufTy).Contents (Elt Ideal)),
    nullary main_cst_13 (constant (F := Ideal) S_ .f32 0x47C35000#32),
    unary main_cst_13 main_v59 (broadcastInDim S64 ![] bcast_S_S64 : (⟨S_, .f32⟩ : BufTy).Contents (Elt Ideal) → (⟨S64, .f32⟩ : BufTy).Contents (Elt Ideal)),
    binary main_v58 main_v59 main_v60 (Host.divf (F := Ideal) (φ := .f32) : (⟨S64, .f32⟩ : BufTy).Contents (Elt Ideal) → (⟨S64, .f32⟩ : BufTy).Contents (Elt Ideal) → (⟨S64, .f32⟩ : BufTy).Contents (Elt Ideal)),
    nullary main_c_14 (constantI S_ 32 0#32) ]

theorem p05_sub : (p05 : List (HloOp τ sig (Elt Ideal))).Forall fun op => op.bufs ⊆ tcRefs τ sig :=
  ⟨nullary_bufs_sub .., binary_bufs_sub .., nullary_bufs_sub .., unary_bufs_sub .., binary_bufs_sub .., nullary_bufs_sub ..⟩

/-- The buffers these operations write, in order. -/
abbrev p05_W : List (Ref sig .tc) := [main_cst_12, main_v58, main_cst_13, main_v59, main_v60, main_c_14]

theorem p05_writes : (p05 : List (HloOp τ sig (Elt Ideal))).Forall fun op =>
    op.writes ⊆ (p05_W.map (Proc.devRef (τ := τ) .tc)).toFinset := by
  simp only [List.Forall]; exact ⟨by writes_in_list, by writes_in_list, by writes_in_list, by writes_in_list, by writes_in_list, by writes_in_list⟩

/-- Operations 79 … 100 of the straight line: the first layer's column variances (the outlined variance and its selection, at this call's buffers). -/
abbrev p06 : List (HloOp τ sig (Elt Ideal)) :=
  [
    TRef.nullary main_call0.cst (constant (F := Ideal) S_ .f32 0x00000000#32),
    TRef.binary (.of main_v57) main_call0.cst main_call0.v0 (fun x v => Host.reduceAdd (F := Ideal) (φ := .f32) x v reducesTo_S100000x64_S64_d0 h_S_),
    TRef.unary main_call0.v0 main_call0.v1 (broadcastInDim S1x64 ![1] bcast_S64_S1x64_1),
    TRef.nullary main_call0.cst_0 (constant (F := Ideal) S_ .f32 0x47C35000#32),
    TRef.unary main_call0.cst_0 main_call0.v2 (broadcastInDim S1x64 ![] bcast_S_S1x64),
    TRef.binary main_call0.v1 main_call0.v2 main_call0.v3 (Host.divf (F := Ideal) (φ := .f32)),
    TRef.unary main_call0.v3 main_call0.v4 (broadcastInDim S100000x64 ![0, 1] bcast_S1x64_S100000x64_0_1),
    TRef.binary (.of main_v57) main_call0.v4 main_call0.v5 (subf (F := Ideal) (φ := .f32)),
    TRef.binary main_call0.v5 main_call0.v5 main_call0.v6 (mulf (F := Ideal) (φ := .f32)),
    TRef.unary (.of main_c_14) main_call0.v7 (sitofp (F := Ideal) .f32),
    TRef.nullary main_call0.cst_1 (constant (F := Ideal) S_ .f32 0x47C35000#32),
    TRef.binary main_call0.cst_1 main_call0.v7 main_call0.v8 (subf (F := Ideal) (φ := .f32)),
    TRef.nullary main_call0.cst_2 (constant (F := Ideal) S_ .f32 0x00000000#32),
    TRef.binary main_call0.v6 main_call0.cst_2 main_call0.v9 (fun x v => Host.reduceAdd (F := Ideal) (φ := .f32) x v reducesTo_S100000x64_S64_d0 h_S_),
    TRef.unary main_call0.v8 main_call0.v10 (broadcastInDim S64 ![] bcast_S_S64),
    TRef.binary main_call0.v9 main_call0.v10 main_call0.v11 (Host.divf (F := Ideal) (φ := .f32)),
    TRef.nullary main_call0.cst_3 (constant (F := Ideal) S_ .f32 0x00000000#32),
    TRef.binary main_call0.v8 main_call0.cst_3 main_call0.v12 (cmpf (F := Ideal) (φ := .f32) .ogt),
    TRef.nullary main_call0.cst_4 (constant (F := Ideal) S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

theorem p06_sub : (p06 : List (HloOp τ sig (Elt Ideal))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers these operations write, in order. -/
abbrev p06_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v61]

theorem p06_writes : (p06 : List (HloOp τ sig (Elt Ideal))).Forall fun op =>
    op.writes ⊆ (p06_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 101 … 117 of the straight line: the first layer's normalisation. -/
abbrev p07 : List (HloOp τ sig (Elt Ideal)) :=
  [
    unary main_v60 main_v62 (broadcastInDim S1x64 ![1] bcast_S64_S1x64_1 : (⟨S64, .f32⟩ : BufTy).Contents (Elt Ideal) → (⟨S1x64, .f32⟩ : BufTy).Contents (Elt Ideal)),
    unary main_v62 main_v63 (broadcastInDim S100000x64 ![0, 1] bcast_S1x64_S100000x64_0_1 : (⟨S1x64, .f32⟩ : BufTy).Contents (Elt Ideal) → (⟨S100000x64, .f32⟩ : BufTy).Contents (Elt Ideal)),
    binary main_v57 main_v63 main_v64 (subf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    unary main_arg4 main_v65 (broadcastInDim S1x64 ![1] bcast_S64_S1x64_1 : (⟨S64, .f32⟩ : BufTy).Contents (Elt Ideal) → (⟨S1x64, .f32⟩ : BufTy).Contents (Elt Ideal)),
    unary main_v65 main_v66 (broadcastInDim S100000x64 ![0, 1] bcast_S1x64_S100000x64_0_1 : (⟨S1x64, .f32⟩ : BufTy).Contents (Elt Ideal) → (⟨S100000x64, .f32⟩ : BufTy).Contents (Elt Ideal)),
    binary main_v66 main_v64 main_v67 (mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    nullary main_cst_15 (constant (F := Ideal) S_ .f32 0x3727C5AC#32),
    unary main_cst_15 main_v68 (broadcastInDim S64 ![] bcast_S_S64 : (⟨S_, .f32⟩ : BufTy).Contents (Elt Ideal) → (⟨S64, .f32⟩ : BufTy).Contents (Elt Ideal)),
    binary main_v61 main_v68 main_v69 (addf (F := Ideal) (φ := .f32) : (⟨S64, .f32⟩ : BufTy).Contents (Elt Ideal) → (⟨S64, .f32⟩ : BufTy).Contents (Elt Ideal) → (⟨S64, .f32⟩ : BufTy).Contents (Elt Ideal)),
    unary main_v69 main_v70 (Host.rsqrt (F := Ideal) (φ := .f32) : (⟨S64, .f32⟩ : BufTy).Contents (Elt Ideal) → (⟨S64, .f32⟩ : BufTy).Contents (Elt Ideal)),
    unary main_v70 main_v71 (broadcastInDim S1x64 ![1] bcast_S64_S1x64_1 : (⟨S64, .f32⟩ : BufTy).Contents (Elt Ideal) → (⟨S1x64, .f32⟩ : BufTy).Contents (Elt Ideal)),
    unary main_v71 main_v72 (broadcastInDim S100000x64 ![0, 1] bcast_S1x64_S100000x64_0_1 : (⟨S1x64, .f32⟩ : BufTy).Contents (Elt Ideal) → (⟨S100000x64, .f32⟩ : BufTy).Contents (Elt Ideal)),
    binary main_v67 main_v72 main_v73 (mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    unary main_arg5 main_v74 (broadcastInDim S1x64 ![1] bcast_S64_S1x64_1 : (⟨S64, .f32⟩ : BufTy).Contents (Elt Ideal) → (⟨S1x64, .f32⟩ : BufTy).Contents (Elt Ideal)),
    unary main_v74 main_v75 (broadcastInDim S100000x64 ![0, 1] bcast_S1x64_S100000x64_0_1 : (⟨S1x64, .f32⟩ : BufTy).Contents (Elt Ideal) → (⟨S100000x64, .f32⟩ : BufTy).Contents (Elt Ideal)),
    binary main_v73 main_v75 main_v76 (addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    nullary main_cst_16 (constant (F := Ideal) S_ .f32 0x3C23D70A#32) ]

theorem p07_sub : (p07 : List (HloOp τ sig (Elt Ideal))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub ..⟩

/-- The buffers these operations write, in order. -/
abbrev p07_W : List (Ref sig .tc) := [main_v62, main_v63, main_v64, main_v65, main_v66, main_v67, main_cst_15, main_v68, main_v69, main_v70, main_v71, main_v72, main_v73, main_v74, main_v75, main_v76, main_cst_16]

theorem p07_writes : (p07 : List (HloOp τ sig (Elt Ideal))).Forall fun op =>
    op.writes ⊆ (p07_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 118 … 124 of the straight line: the first layer's rectifier (the outlined function and its selection, at this call's buffers). -/
abbrev p08 : List (HloOp τ sig (Elt Ideal)) :=
  [
    TRef.nullary main_call1.cst (constant (F := Ideal) S_ .f32 0x00000000#32),
    TRef.unary main_call1.cst main_call1.v0 (broadcastInDim S100000x64 ![] bcast_S_S100000x64),
    TRef.binary (.of main_v76) main_call1.v0 main_call1.v1 (cmpf (F := Ideal) (φ := .f32) .oge),
    TRef.unary (.of main_cst_16) main_call1.v2 id,
    TRef.unary main_call1.v2 main_call1.v3 (broadcastInDim S100000x64 ![] bcast_S_S100000x64),
    TRef.binary main_call1.v3 (.of main_v76) main_call1.v4 (mulf (F := Ideal) (φ := .f32)),
    TRef.ternary main_call1.v1 (.of main_v76) main_call1.v4 main_call1.call0.v0 select ]

theorem p08_sub : (p08 : List (HloOp τ sig (Elt Ideal))).Forall fun op => op.bufs ⊆ tcRefs τ sig :=
  ⟨nullary_bufs_sub .., unary_bufs_sub .., binary_bufs_sub .., unary_bufs_sub .., unary_bufs_sub .., binary_bufs_sub .., ternary_bufs_sub ..⟩

/-- The buffers these operations write, in order. -/
abbrev p08_W : List (Ref sig .tc) := [main_call1_cst, main_call1_v0, main_call1_v1, main_call1_v2, main_call1_v3, main_call1_v4, main_v77]

theorem p08_writes : (p08 : List (HloOp τ sig (Elt Ideal))).Forall fun op =>
    op.writes ⊆ (p08_W.map (Proc.devRef (τ := τ) .tc)).toFinset := by
  simp only [List.Forall]; exact ⟨by writes_in_list, by writes_in_list, by writes_in_list, by writes_in_list, by writes_in_list, by writes_in_list, by writes_in_list⟩

/-- Operations 125 … 125 of the straight line: the second dense product. -/
abbrev p09 : List (HloOp τ sig (Elt Ideal)) :=
  [
    binary main_v77 main_arg6 main_v78 ((fun l r => Host.dotGeneral (F := Ideal) (φ₁ := .f32) (φ₂ := .f32) dot_S100000x64_S64x64_S100000x64_1_0_0_1_n_n none l r) : (⟨S100000x64, .f32⟩ : BufTy).Contents (Elt Ideal) → (⟨S64x64, .f32⟩ : BufTy).Contents (Elt Ideal) → (⟨S100000x64, .f32⟩ : BufTy).Contents (Elt Ideal)) ]

theorem p09_sub : (p09 : List (HloOp τ sig (Elt Ideal))).Forall fun op => op.bufs ⊆ tcRefs τ sig :=
  binary_bufs_sub ..

/-- The buffers these operations write, in order. -/
abbrev p09_W : List (Ref sig .tc) := [main_v78]

theorem p09_writes : (p09 : List (HloOp τ sig (Elt Ideal))).Forall fun op =>
    op.writes ⊆ (p09_W.map (Proc.devRef (τ := τ) .tc)).toFinset := by
  simp only [List.Forall]; exact (by writes_in_list)

/-- Operations 126 … 142 of the straight line: the second layer's degrees and their inverse square roots. -/
abbrev p10 : List (HloOp τ sig (Elt Ideal)) :=
  [
    nullary main_cst_17 (constant (F := Ideal) S_ .f32 0x00000000#32),
    unary main_cst_17 main_v79 (broadcastInDim S100000 ![] bcast_S_S100000 : (⟨S_, .f32⟩ : BufTy).Contents (Elt Ideal) → (⟨S100000, .f32⟩ : BufTy).Contents (Elt Ideal)),
    nullary main_c_18 (constantI S_ 32 0#32),
    unary main_c_18 main_v80 (broadcastInDim S1200000 ![] bcast_S_S1200000 : (⟨S_, .i32⟩ : BufTy).Contents (Elt Ideal) → (⟨S1200000, .i32⟩ : BufTy).Contents (Elt Ideal)),
    binary main_v3 main_v80 main_v81 (cmpi .slt : (⟨S1200000, .i32⟩ : BufTy).Contents (Elt Ideal) → (⟨S1200000, .i32⟩ : BufTy).Contents (Elt Ideal) → (⟨S1200000, .i1⟩ : BufTy).Contents (Elt Ideal)),
    nullary main_c_19 (constantI S_ 32 100000#32),
    unary main_c_19 main_v82 (broadcastInDim S1200000 ![] bcast_S_S1200000 : (⟨S_, .i32⟩ : BufTy).Contents (Elt Ideal) → (⟨S1200000, .i32⟩ : BufTy).Contents (Elt Ideal)),
    binary main_v3 main_v82 main_v83 (addi : (⟨S1200000, .i32⟩ : BufTy).Contents (Elt Ideal) → (⟨S1200000, .i32⟩ : BufTy).Contents (Elt Ideal) → (⟨S1200000, .i32⟩ : BufTy).Contents (Elt Ideal)),
    ternary main_v81 main_v83 main_v3 main_v84 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v84 main_v85 (broadcastInDim S1200000x1 ![0] bcast_S1200000_S1200000x1_0 : (⟨S1200000, .i32⟩ : BufTy).Contents (Elt Ideal) → (⟨S1200000x1, .i32⟩ : BufTy).Contents (Elt Ideal)),
    nullary main_cst_20 (constant (F := Ideal) S_ .f32 0x3F800000#32),
    unary main_cst_20 main_v86 (broadcastInDim S1200000 ![] bcast_S_S1200000 : (⟨S_, .f32⟩ : BufTy).Contents (Elt Ideal) → (⟨S1200000, .f32⟩ : BufTy).Contents (Elt Ideal)),
    ternary main_v79 main_v85 main_v86 main_v87 ((fun x i u => Host.scatterAdd (F := Ideal) (φ := .f32) scatter_S100000_S1200000x1_S1200000_n_0_0_1 x i u) : (⟨S100000, .f32⟩ : BufTy).Contents (Elt Ideal) → (⟨S1200000x1, .i32⟩ : BufTy).Contents (Elt Ideal) → (⟨S1200000, .f32⟩ : BufTy).Contents (Elt Ideal) → (⟨S100000, .f32⟩ : BufTy).Contents (Elt Ideal)),
    nullary main_cst_21 (constant (F := Ideal) S_ .f32 0x3F800000#32),
    unary main_cst_21 main_v88 (broadcastInDim S100000 ![] bcast_S_S100000 : (⟨S_, .f32⟩ : BufTy).Contents (Elt Ideal) → (⟨S100000, .f32⟩ : BufTy).Contents (Elt Ideal)),
    binary main_v87 main_v88 main_v89 (addf (F := Ideal) (φ := .f32) : (⟨S100000, .f32⟩ : BufTy).Contents (Elt Ideal) → (⟨S100000, .f32⟩ : BufTy).Contents (Elt Ideal) → (⟨S100000, .f32⟩ : BufTy).Contents (Elt Ideal)),
    unary main_v89 main_v90 (Host.rsqrt (F := Ideal) (φ := .f32) : (⟨S100000, .f32⟩ : BufTy).Contents (Elt Ideal) → (⟨S100000, .f32⟩ : BufTy).Contents (Elt Ideal)) ]

theorem p10_sub : (p10 : List (HloOp τ sig (Elt Ideal))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩

/-- The buffers these operations write, in order. -/
abbrev p10_W : List (Ref sig .tc) := [main_cst_17, main_v79, main_c_18, main_v80, main_v81, main_c_19, main_v82, main_v83, main_v84, main_v85, main_cst_20, main_v86, main_v87, main_cst_21, main_v88, main_v89, main_v90]

theorem p10_writes : (p10 : List (HloOp τ sig (Elt Ideal))).Forall fun op =>
    op.writes ⊆ (p10_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 143 … 147 of the straight line: the second layer's edge weights (the part of it in this window). -/
abbrev p11a : List (HloOp τ sig (Elt Ideal)) :=
  [
    nullary main_c_22 (constantI S_ 32 0#32),
    unary main_c_22 main_v91 (broadcastInDim S1200000 ![] bcast_S_S1200000 : (⟨S_, .i32⟩ : BufTy).Contents (Elt Ideal) → (⟨S1200000, .i32⟩ : BufTy).Contents (Elt Ideal)),
    binary main_v1 main_v91 main_v92 (cmpi .slt : (⟨S1200000, .i32⟩ : BufTy).Contents (Elt Ideal) → (⟨S1200000, .i32⟩ : BufTy).Contents (Elt Ideal) → (⟨S1200000, .i1⟩ : BufTy).Contents (Elt Ideal)),
    nullary main_c_23 (constantI S_ 32 100000#32),
    unary main_c_23 main_v93 (broadcastInDim S1200000 ![] bcast_S_S1200000 : (⟨S_, .i32⟩ : BufTy).Contents (Elt Ideal) → (⟨S1200000, .i32⟩ : BufTy).Contents (Elt Ideal)) ]

theorem p11a_sub : (p11a : List (HloOp τ sig (Elt Ideal))).Forall fun op => op.bufs ⊆ tcRefs τ sig :=
  ⟨nullary_bufs_sub .., unary_bufs_sub .., binary_bufs_sub .., nullary_bufs_sub .., unary_bufs_sub ..⟩

/-- The buffers these operations write, in order. -/
abbrev p11a_W : List (Ref sig .tc) := [main_c_22, main_v91, main_v92, main_c_23, main_v93]

theorem p11a_writes : (p11a : List (HloOp τ sig (Elt Ideal))).Forall fun op =>
    op.writes ⊆ (p11a_W.map (Proc.devRef (τ := τ) .tc)).toFinset := by
  simp only [List.Forall]; exact ⟨by writes_in_list, by writes_in_list, by writes_in_list, by writes_in_list, by writes_in_list⟩

/-- The window's operations, in order. -/
abbrev w1 : List (HloOp τ sig (Elt Ideal)) := p04b ++ (p05 ++ (p06 ++ (p07 ++ (p08 ++ (p09 ++ (p10 ++ (p11a)))))))

set_option maxRecDepth 16384 in
set_option maxHeartbeats 4000000 in
/-- The window's program is that straight line: the outlined functions' bodies unfold at their calls, the records at their fields, and sequencing reassociates. -/
theorem main_part1_eq (c : Dev nD) : main_part1 (F := Ideal) c = seq w1 := by
  simp only [main_part1, fn_var.body, fn_where.body, fn_leaky_relu.body, fn_where_0.body, bind_assoc, pure_bind]
  rfl

theorem w1_sub : (w1 : List (HloOp τ sig (Elt Ideal))).Forall fun op => op.bufs ⊆ tcRefs τ sig :=
  List.forall_iff_forall_mem.mpr fun op h => by
    rcases List.mem_append.mp h with h | h
    · exact List.forall_iff_forall_mem.mp p04b_sub op h
    rcases List.mem_append.mp h with h | h
    · exact List.forall_iff_forall_mem.mp p05_sub op h
    rcases List.mem_append.mp h with h | h
    · exact List.forall_iff_forall_mem.mp p06_sub op h
    rcases List.mem_append.mp h with h | h
    · exact List.forall_iff_forall_mem.mp p07_sub op h
    rcases List.mem_append.mp h with h | h
    · exact List.forall_iff_forall_mem.mp p08_sub op h
    rcases List.mem_append.mp h with h | h
    · exact List.forall_iff_forall_mem.mp p09_sub op h
    rcases List.mem_append.mp h with h | h
    · exact List.forall_iff_forall_mem.mp p10_sub op h
    · exact List.forall_iff_forall_mem.mp p11a_sub op h

end Cert.ReferenceIdeal.RefRun

end
-- ==== Proof.RefStages.lean ====
/-
  The reference program's arithmetic as named stages over VARIABLES, at the ideal values (a float an extended
  real): two graph-convolution layers, each a dense product, a degree-normalised aggregation over the edge list,
  a bias, a batch normalisation over the rows and a leaky rectifier. Each stage is the composition of the printed
  operations, in their order and with their operands in their places; nothing is simplified.

  The edge list `ei` is a `[2, E]` integer array: row 0 the source node of each edge, row 1 its destination. A
  negative index is wrapped by adding the node count (what indexing with a negative integer means in the source
  program) before it is used as a `[E, 1]` index column.
-/
import proofs.«152807_j76802605187214_1_alg».proof.ReferenceIdeal
import Idealize.ShloMosaic.PureOps.Ideal

noncomputable section

namespace Cert.ReferenceIdeal.RefStages

open Idealize.ShloMosaic Idealize.SL.Sem Cert.ReferenceIdeal
open Cert.ReferenceIdeal.Facts₀

variable [Cert.ReferenceIdeal.Facts]

/-- Row 0 of the edge list as a vector: the edges' source nodes as given (%0, %1). -/
def srcRaw (ei : IVec S2x1200000 32) : IVec S1200000 32 :=
  shapeCast S1200000 (extractStridedSlice S1x1200000 ![0, 0] ei slices_S2x1200000_S1x1200000_0_0) shapeCasts_S1x1200000_S1200000

/-- Row 1 of the edge list as a vector: the edges' destination nodes as given (%2, %3). -/
def dstRaw (ei : IVec S2x1200000 32) : IVec S1200000 32 :=
  shapeCast S1200000 (extractStridedSlice S1x1200000 ![1, 0] ei slices_S2x1200000_S1x1200000_1_0) shapeCasts_S1x1200000_S1200000

/-- An index vector as an `[E, 1]` index column, a negative entry first moved up by the node count 100000
    (compare with zero, add, select, then the column's broadcast). -/
def wrapCol (v : IVec S1200000 32) : IVec S1200000x1 32 :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 100000#32))) v)

/-- The source nodes as an index column (%0, %1, %17–%22). -/
def srcCol (ei : IVec S2x1200000 32) : IVec S1200000x1 32 := wrapCol (srcRaw ei)

/-- The destination nodes as an index column (%2, %3, %6–%11). -/
def dstCol (ei : IVec S2x1200000 32) : IVec S1200000x1 32 := wrapCol (dstRaw ei)

/-- The inverse square root of each node's degree plus one: ones accumulated along the destination column into
    zeros, one added, the reciprocal square root (%5, %12–%16). -/
def dinv (ei : IVec S2x1200000 32) : FVec Ideal S100000 .f32 :=
  Host.rsqrt (F := Ideal)
    (addf
      (Host.scatterAdd (F := Ideal) scatter_S100000_S1200000x1_S1200000_n_0_0_1
        (broadcastInDim S100000 ![] bcast_S_S100000 (constant (F := Ideal) S_ .f32 0x00000000#32))
        (dstCol ei)
        (broadcastInDim S1200000 ![] bcast_S_S1200000 (constant (F := Ideal) S_ .f32 0x3F800000#32)))
      (broadcastInDim S100000 ![] bcast_S_S100000 (constant (F := Ideal) S_ .f32 0x3F800000#32)))

/-- Each edge's weight: the product of `dinv` at its source and at its destination (%23, %30, %31). -/
def edgeNorm (ei : IVec S2x1200000 32) : FVec Ideal S1200000 .f32 :=
  mulf (Host.gather gather_S100000_S1200000x1_S1200000_n_0_n_n_0_1_1 (dinv ei) (srcCol ei))
    (Host.gather gather_S100000_S1200000x1_S1200000_n_0_n_n_0_1_1 (dinv ei) (dstCol ei))

/-- The dense product of the node features with a weight matrix (%4). -/
def dot (h : FVec Ideal S100000x64 .f32) (W : FVec Ideal S64x64 .f32) : FVec Ideal S100000x64 .f32 :=
  Host.dotGeneral (F := Ideal) dot_S100000x64_S64x64_S100000x64_1_0_0_1_n_n none h W

/-- A length-64 vector repeated along the 100000 rows: `[64] → [1, 64] → [100000, 64]`. -/
def rows (v : FVec Ideal S64 .f32) : FVec Ideal S100000x64 .f32 :=
  broadcastInDim S100000x64 ![0, 1] bcast_S1x64_S100000x64_0_1 (broadcastInDim S1x64 ![1] bcast_S64_S1x64_1 v)

/-- The aggregation of one graph convolution over a given dense product `xw` (%5 … %57): the rows of `xw`
    gathered at the edges' sources, each scaled by its edge's weight, accumulated into zeros along the destination
    column; plus `dinv² · xw` row by row (the self loops); plus the bias on every row. -/
def agg (ei : IVec S2x1200000 32) (xw : FVec Ideal S100000x64 .f32) (b : FVec Ideal S64 .f32) : FVec Ideal S100000x64 .f32 :=
  addf
    (addf
      (Host.scatterAdd (F := Ideal) scatter_S100000x64_S1200000x1_S1200000x64_1_0_0_1
        (broadcastInDim S100000x64 ![] bcast_S_S100000x64 (constant (F := Ideal) S_ .f32 0x00000000#32))
        (dstCol ei)
        (mulf
          (broadcastInDim S1200000x64 ![0, 1] bcast_S1200000x1_S1200000x64_0_1
            (broadcastInDim S1200000x1 ![0] bcast_S1200000_S1200000x1_0 (edgeNorm ei)))
          (Host.gather gather_S100000x64_S1200000x1_S1200000x64_1_0_n_n_0_1_164 xw (srcCol ei))))
      (mulf
        (broadcastInDim S100000x64 ![0, 1] bcast_S100000x1_S100000x64_0_1
          (broadcastInDim S100000x1 ![0] bcast_S100000_S100000x1_0 (mulf (dinv ei) (dinv ei))))
        xw))
    (rows b)

/-- One graph convolution (%4 … %57): the aggregation of the dense product. -/
def conv (ei : IVec S2x1200000 32) (h : FVec Ideal S100000x64 .f32) (W : FVec Ideal S64x64 .f32) (b : FVec Ideal S64 .f32) :
    FVec Ideal S100000x64 .f32 :=
  agg ei (dot h W) b

/-- The column means: the sum over the rows from zero, divided by 100000 at shape `[64]` (%58–%60). -/
def mean (p : FVec Ideal S100000x64 .f32) : FVec Ideal S64 .f32 :=
  Host.divf (F := Ideal)
    (Host.reduceAdd (F := Ideal) p (constant (F := Ideal) S_ .f32 0x00000000#32) reducesTo_S100000x64_S64_d0 h_S_)
    (broadcastInDim S64 ![] bcast_S_S64 (constant (F := Ideal) S_ .f32 0x47C35000#32))

/-- The deviation of each entry from its column's mean as the variance computes it: the column sums
    broadcast to `[1, 64]`, divided there by 100000, broadcast over the rows and subtracted. -/
def dev (p : FVec Ideal S100000x64 .f32) : FVec Ideal S100000x64 .f32 :=
  subf p
    (broadcastInDim S100000x64 ![0, 1] bcast_S1x64_S100000x64_0_1
      (Host.divf (F := Ideal)
        (broadcastInDim S1x64 ![1] bcast_S64_S1x64_1
          (Host.reduceAdd (F := Ideal) p (constant (F := Ideal) S_ .f32 0x00000000#32) reducesTo_S100000x64_S64_d0 h_S_))
        (broadcastInDim S1x64 ![] bcast_S_S1x64 (constant (F := Ideal) S_ .f32 0x47C35000#32))))

/-- The variance's divisor, a scalar: 100000 minus the correction, the integer 0 converted to a float. -/
def count : FVec Ideal S_ .f32 :=
  subf (constant (F := Ideal) S_ .f32 0x47C35000#32) (sitofp .f32 (constantI S_ 32 0#32))

/-- The column variances (%61, the outlined variance with its selection inlined): where the divisor is
    positive, the column sums of the squared deviations divided by it; elsewhere the constant `0x7FC00000`. -/
def var (p : FVec Ideal S100000x64 .f32) : FVec Ideal S64 .f32 :=
  select
    (broadcastInDim S64 ![] bcast_S_S64 (cmpf .ogt count (constant (F := Ideal) S_ .f32 0x00000000#32)))
    (Host.divf (F := Ideal)
      (Host.reduceAdd (F := Ideal) (mulf (dev p) (dev p)) (constant (F := Ideal) S_ .f32 0x00000000#32)
        reducesTo_S100000x64_S64_d0 h_S_)
      (broadcastInDim S64 ![] bcast_S_S64 count))
    (broadcastInDim S64 ![] bcast_S_S64 (id (constant (F := Ideal) S_ .f32 0x7FC00000#32)))

/-- The batch normalisation (%62–%76): `γ · (p − mean p) · rsqrt (var p + ε) + β`, every factor repeated along the
    rows, in this order of the products; `ε` is the constant `0x3727C5AC`. -/
def bn (p : FVec Ideal S100000x64 .f32) (γ β : FVec Ideal S64 .f32) : FVec Ideal S100000x64 .f32 :=
  addf
    (mulf
      (mulf (rows γ) (subf p (rows (mean p))))
      (rows (Host.rsqrt (F := Ideal)
        (addf (var p) (broadcastInDim S64 ![] bcast_S_S64 (constant (F := Ideal) S_ .f32 0x3727C5AC#32))))))
    (rows β)

/-- The leaky rectifier (%77, the outlined function with its selection inlined): where `y ≥ 0` the entry, elsewhere
    the slope `0x3C23D70A` times the entry. -/
def leaky (y : FVec Ideal S100000x64 .f32) : FVec Ideal S100000x64 .f32 :=
  select
    (cmpf .oge y (broadcastInDim S100000x64 ![] bcast_S_S100000x64 (constant (F := Ideal) S_ .f32 0x00000000#32)))
    y
    (mulf (broadcastInDim S100000x64 ![] bcast_S_S100000x64 (id (constant (F := Ideal) S_ .f32 0x3C23D70A#32))) y)

/-- One layer: convolution, normalisation, rectifier. -/
def layer (ei : IVec S2x1200000 32) (h : FVec Ideal S100000x64 .f32) (W : FVec Ideal S64x64 .f32)
    (b γ β : FVec Ideal S64 .f32) : FVec Ideal S100000x64 .f32 :=
  leaky (bn (conv ei h W b) γ β)

/-- The program's result: two layers over the same edge list, the second on the first's output. -/
def out (a0 : FVec Ideal S100000x64 .f32) (a1 : IVec S2x1200000 32) (a2 : FVec Ideal S64x64 .f32)
    (a3 a4 a5 : FVec Ideal S64 .f32) (a6 : FVec Ideal S64x64 .f32) (a7 a8 a9 : FVec Ideal S64 .f32) :
    FVec Ideal S100000x64 .f32 :=
  layer a1 (layer a1 a0 a2 a3 a4 a5) a6 a7 a8 a9

end Cert.ReferenceIdeal.RefStages

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«152807_j76802605187214_1_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«152807_j76802605187214_1_alg».proof.Proof.LibSegmentRows
import proofs.«152807_j76802605187214_1_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.RefRun4.lean ====
/-
  The contents of the reference's buffers after each stage of its straight line (stages 1 … 8), from any
  contents `V0`: `val k V0` is what the buffers hold once the first `k` stages' operations have run. For every buffer
  a later stage reads, and for the arguments, one lemma gives its contents as the named stage function
  (`RefStages`) of the argument buffers' contents in `V0`: each operation's result is its function of its
  operands' contents, a buffer a stage does not write keeps what it held, and the composed term IS the stage
  function by unfolding its definition.
-/
import proofs.«152807_j76802605187214_1_alg».proof.Proof.RefRun0
import proofs.«152807_j76802605187214_1_alg».proof.Proof.RefRun1
import proofs.«152807_j76802605187214_1_alg».proof.Proof.RefStages
import proofs.«152807_j76802605187214_1_alg».proof.Proof.LibHostReads

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-! ## Buffers at the boundary of an outlined function

An outlined function reads its operands and writes its result through typed references; at a literal buffer the
carried type is the buffer's own, so moving contents along it is the identity. -/

theorem ofBuf_main_v57 (v : (main_v57 : Ref sig .tc).ty.Contents (Elt Ideal)) :
    (TRef.of main_v57 : TRef sig ⟨S100000x64, .f32⟩).ofBuf v = v := rfl
theorem ofBuf_main_c_14 (v : (main_c_14 : Ref sig .tc).ty.Contents (Elt Ideal)) :
    (TRef.of main_c_14 : TRef sig ⟨S_, .i32⟩).ofBuf v = v := rfl
theorem ofBuf_main_v76 (v : (main_v76 : Ref sig .tc).ty.Contents (Elt Ideal)) :
    (TRef.of main_v76 : TRef sig ⟨S100000x64, .f32⟩).ofBuf v = v := rfl
theorem ofBuf_main_cst_16 (v : (main_cst_16 : Ref sig .tc).ty.Contents (Elt Ideal)) :
    (TRef.of main_cst_16 : TRef sig ⟨S_, .f32⟩).ofBuf v = v := rfl
theorem ofBuf_main_v131 (v : (main_v131 : Ref sig .tc).ty.Contents (Elt Ideal)) :
    (TRef.of main_v131 : TRef sig ⟨S100000x64, .f32⟩).ofBuf v = v := rfl
theorem ofBuf_main_c_33 (v : (main_c_33 : Ref sig .tc).ty.Contents (Elt Ideal)) :
    (TRef.of main_c_33 : TRef sig ⟨S_, .i32⟩).ofBuf v = v := rfl
theorem ofBuf_main_v150 (v : (main_v150 : Ref sig .tc).ty.Contents (Elt Ideal)) :
    (TRef.of main_v150 : TRef sig ⟨S100000x64, .f32⟩).ofBuf v = v := rfl
theorem ofBuf_main_cst_35 (v : (main_cst_35 : Ref sig .tc).ty.Contents (Elt Ideal)) :
    (TRef.of main_cst_35 : TRef sig ⟨S_, .f32⟩).ofBuf v = v := rfl
theorem toBuf_main_v61 (v : (⟨S64, .f32⟩ : BufTy).Contents (Elt Ideal)) :
    (main_call0.call0.v2 : TRef sig ⟨S64, .f32⟩).toBuf v = v := rfl
theorem toBuf_main_v77 (v : (⟨S100000x64, .f32⟩ : BufTy).Contents (Elt Ideal)) :
    (main_call1.call0.v0 : TRef sig ⟨S100000x64, .f32⟩).toBuf v = v := rfl
theorem toBuf_main_v135 (v : (⟨S64, .f32⟩ : BufTy).Contents (Elt Ideal)) :
    (main_call2.call0.v2 : TRef sig ⟨S64, .f32⟩).toBuf v = v := rfl
theorem toBuf_main_v151 (v : (⟨S100000x64, .f32⟩ : BufTy).Contents (Elt Ideal)) :
    (main_call3.call0.v0 : TRef sig ⟨S100000x64, .f32⟩).toBuf v = v := rfl

/-- The buffers' contents before the first stage. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl
theorem val0_main_arg8 (V0 : Valuation τ sig (Elt Ideal)) : val0 V0 (no_index (Proc.devRef .tc main_arg8)) = V0 (Proc.devRef .tc main_arg8) := rfl
theorem val0_main_arg9 (V0 : Valuation τ sig (Elt Ideal)) : val0 V0 (no_index (Proc.devRef .tc main_arg9)) = V0 (Proc.devRef .tc main_arg9) := rfl

/-- The buffers' contents after stage 1: the two rows of the edge list as vectors and the first dense product. -/
def val1 (V0 : Valuation τ sig (Elt Ideal)) : Valuation τ sig (Elt Ideal) := after p01 (val0 V0)

/-- A buffer stage 1 does not write keeps its contents through it. -/
theorem val1_keep (V0 : Valuation τ sig (Elt Ideal)) (r : Ref sig .tc) (h : r ∉ p01_W) :
    val1 V0 (Proc.devRef .tc r) = val0 V0 (Proc.devRef .tc r) := by
  exact after_of_writes_sub p01 _ p01_writes h
theorem val1_main_arg0 (V0 : Valuation τ sig (Elt Ideal)) :
    val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) :
    val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) :
    val1 V0 (no_index (Proc.devRef .tc main_arg2)) = V0 (Proc.devRef .tc main_arg2) :=
  (val1_keep V0 main_arg2 (by decide)).trans (val0_main_arg2 V0)
theorem val1_main_arg3 (V0 : Valuation τ sig (Elt Ideal)) :
    val1 V0 (no_index (Proc.devRef .tc main_arg3)) = V0 (Proc.devRef .tc main_arg3) :=
  (val1_keep V0 main_arg3 (by decide)).trans (val0_main_arg3 V0)
theorem val1_main_arg4 (V0 : Valuation τ sig (Elt Ideal)) :
    val1 V0 (no_index (Proc.devRef .tc main_arg4)) = V0 (Proc.devRef .tc main_arg4) :=
  (val1_keep V0 main_arg4 (by decide)).trans (val0_main_arg4 V0)
theorem val1_main_arg5 (V0 : Valuation τ sig (Elt Ideal)) :
    val1 V0 (no_index (Proc.devRef .tc main_arg5)) = V0 (Proc.devRef .tc main_arg5) :=
  (val1_keep V0 main_arg5 (by decide)).trans (val0_main_arg5 V0)
theorem val1_main_arg6 (V0 : Valuation τ sig (Elt Ideal)) :
    val1 V0 (no_index (Proc.devRef .tc main_arg6)) = V0 (Proc.devRef .tc main_arg6) :=
  (val1_keep V0 main_arg6 (by decide)).trans (val0_main_arg6 V0)
theorem val1_main_arg7 (V0 : Valuation τ sig (Elt Ideal)) :
    val1 V0 (no_index (Proc.devRef .tc main_arg7)) = V0 (Proc.devRef .tc main_arg7) :=
  (val1_keep V0 main_arg7 (by decide)).trans (val0_main_arg7 V0)
theorem val1_main_arg8 (V0 : Valuation τ sig (Elt Ideal)) :
    val1 V0 (no_index (Proc.devRef .tc main_arg8)) = V0 (Proc.devRef .tc main_arg8) :=
  (val1_keep V0 main_arg8 (by decide)).trans (val0_main_arg8 V0)
theorem val1_main_arg9 (V0 : Valuation τ sig (Elt Ideal)) :
    val1 V0 (no_index (Proc.devRef .tc main_arg9)) = V0 (Proc.devRef .tc main_arg9) :=
  (val1_keep V0 main_arg9 (by decide)).trans (val0_main_arg9 V0)
set_option maxRecDepth 16384 in
set_option maxHeartbeats 4000000 in
theorem val1_main_v1 (V0 : Valuation τ sig (Elt Ideal)) :
    val1 V0 (no_index (Proc.devRef .tc main_v1)) = RefStages.srcRaw (V0 (Proc.devRef .tc main_arg1)) := by
  unfold val1
  simp only [p01]
  after_results_simp
  all_goals (try simp only [val0_main_arg1, val0_main_arg0, val0_main_arg2])
  all_goals rfl
set_option maxRecDepth 16384 in
set_option maxHeartbeats 4000000 in
theorem val1_main_v3 (V0 : Valuation τ sig (Elt Ideal)) :
    val1 V0 (no_index (Proc.devRef .tc main_v3)) = RefStages.dstRaw (V0 (Proc.devRef .tc main_arg1)) := by
  unfold val1
  simp only [p01]
  after_results_simp
  all_goals (try simp only [val0_main_arg1, val0_main_arg0, val0_main_arg2])
  all_goals rfl
set_option maxRecDepth 16384 in
set_option maxHeartbeats 4000000 in
theorem val1_main_v4 (V0 : Valuation τ sig (Elt Ideal)) :
    val1 V0 (no_index (Proc.devRef .tc main_v4)) = RefStages.dot (V0 (Proc.devRef .tc main_arg0)) (V0 (Proc.devRef .tc main_arg2)) := by
  unfold val1
  simp only [p01]
  after_results_simp
  all_goals (try simp only [val0_main_arg1, val0_main_arg0, val0_main_arg2])
  all_goals rfl

/-- The buffers' contents after stage 2: the first layer's degrees and their inverse square roots. -/
def val2 (V0 : Valuation τ sig (Elt Ideal)) : Valuation τ sig (Elt Ideal) := after p02 (val1 V0)

/-- A buffer stage 2 does not write keeps its contents through it. -/
theorem val2_keep (V0 : Valuation τ sig (Elt Ideal)) (r : Ref sig .tc) (h : r ∉ p02_W) :
    val2 V0 (Proc.devRef .tc r) = val1 V0 (Proc.devRef .tc r) := by
  exact after_of_writes_sub p02 _ p02_writes h
theorem val2_main_arg0 (V0 : Valuation τ sig (Elt Ideal)) :
    val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) :
    val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) :
    val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) :
    val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) :
    val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) :
    val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) :
    val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) :
    val2 V0 (no_index (Proc.devRef .tc main_arg7)) = V0 (Proc.devRef .tc main_arg7) :=
  (val2_keep V0 main_arg7 (by decide)).trans (val1_main_arg7 V0)
theorem val2_main_arg8 (V0 : Valuation τ sig (Elt Ideal)) :
    val2 V0 (no_index (Proc.devRef .tc main_arg8)) = V0 (Proc.devRef .tc main_arg8) :=
  (val2_keep V0 main_arg8 (by decide)).trans (val1_main_arg8 V0)
theorem val2_main_arg9 (V0 : Valuation τ sig (Elt Ideal)) :
    val2 V0 (no_index (Proc.devRef .tc main_arg9)) = V0 (Proc.devRef .tc main_arg9) :=
  (val2_keep V0 main_arg9 (by decide)).trans (val1_main_arg9 V0)
theorem val2_main_v1 (V0 : Valuation τ sig (Elt Ideal)) :
    val2 V0 (no_index (Proc.devRef .tc main_v1)) = RefStages.srcRaw (V0 (Proc.devRef .tc main_arg1)) :=
  (val2_keep V0 main_v1 (by decide)).trans (val1_main_v1 V0)
theorem val2_main_v3 (V0 : Valuation τ sig (Elt Ideal)) :
    val2 V0 (no_index (Proc.devRef .tc main_v3)) = RefStages.dstRaw (V0 (Proc.devRef .tc main_arg1)) :=
  (val2_keep V0 main_v3 (by decide)).trans (val1_main_v3 V0)
theorem val2_main_v4 (V0 : Valuation τ sig (Elt Ideal)) :
    val2 V0 (no_index (Proc.devRef .tc main_v4)) = RefStages.dot (V0 (Proc.devRef .tc main_arg0)) (V0 (Proc.devRef .tc main_arg2)) :=
  (val2_keep V0 main_v4 (by decide)).trans (val1_main_v4 V0)
set_option maxRecDepth 16384 in
set_option maxHeartbeats 4000000 in
theorem val2_main_v16 (V0 : Valuation τ sig (Elt Ideal)) :
    val2 V0 (no_index (Proc.devRef .tc main_v16)) = RefStages.dinv (V0 (Proc.devRef .tc main_arg1)) := by
  unfold val2
  simp only [p02]
  after_results_simp
  all_goals (try simp only [val1_main_v3])
  all_goals rfl

/-- The buffers' contents after stage 3: the first layer's edge weights. -/
def val3 (V0 : Valuation τ sig (Elt Ideal)) : Valuation τ sig (Elt Ideal) := after p03 (val2 V0)

/-- A buffer stage 3 does not write keeps its contents through it. -/
theorem val3_keep (V0 : Valuation τ sig (Elt Ideal)) (r : Ref sig .tc) (h : r ∉ p03_W) :
    val3 V0 (Proc.devRef .tc r) = val2 V0 (Proc.devRef .tc r) := by
  exact after_of_writes_sub p03 _ p03_writes h
theorem val3_main_arg0 (V0 : Valuation τ sig (Elt Ideal)) :
    val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) :
    val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) :
    val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) :
    val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) :
    val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) :
    val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) :
    val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) :
    val3 V0 (no_index (Proc.devRef .tc main_arg7)) = V0 (Proc.devRef .tc main_arg7) :=
  (val3_keep V0 main_arg7 (by decide)).trans (val2_main_arg7 V0)
theorem val3_main_arg8 (V0 : Valuation τ sig (Elt Ideal)) :
    val3 V0 (no_index (Proc.devRef .tc main_arg8)) = V0 (Proc.devRef .tc main_arg8) :=
  (val3_keep V0 main_arg8 (by decide)).trans (val2_main_arg8 V0)
theorem val3_main_arg9 (V0 : Valuation τ sig (Elt Ideal)) :
    val3 V0 (no_index (Proc.devRef .tc main_arg9)) = V0 (Proc.devRef .tc main_arg9) :=
  (val3_keep V0 main_arg9 (by decide)).trans (val2_main_arg9 V0)
theorem val3_main_v1 (V0 : Valuation τ sig (Elt Ideal)) :
    val3 V0 (no_index (Proc.devRef .tc main_v1)) = RefStages.srcRaw (V0 (Proc.devRef .tc main_arg1)) :=
  (val3_keep V0 main_v1 (by decide)).trans (val2_main_v1 V0)
theorem val3_main_v3 (V0 : Valuation τ sig (Elt Ideal)) :
    val3 V0 (no_index (Proc.devRef .tc main_v3)) = RefStages.dstRaw (V0 (Proc.devRef .tc main_arg1)) :=
  (val3_keep V0 main_v3 (by decide)).trans (val2_main_v3 V0)
theorem val3_main_v4 (V0 : Valuation τ sig (Elt Ideal)) :
    val3 V0 (no_index (Proc.devRef .tc main_v4)) = RefStages.dot (V0 (Proc.devRef .tc main_arg0)) (V0 (Proc.devRef .tc main_arg2)) :=
  (val3_keep V0 main_v4 (by decide)).trans (val2_main_v4 V0)
theorem val3_main_v16 (V0 : Valuation τ sig (Elt Ideal)) :
    val3 V0 (no_index (Proc.devRef .tc main_v16)) = RefStages.dinv (V0 (Proc.devRef .tc main_arg1)) :=
  (val3_keep V0 main_v16 (by decide)).trans (val2_main_v16 V0)
set_option maxRecDepth 16384 in
set_option maxHeartbeats 4000000 in
theorem val3_main_v31 (V0 : Valuation τ sig (Elt Ideal)) :
    val3 V0 (no_index (Proc.devRef .tc main_v31)) = RefStages.edgeNorm (V0 (Proc.devRef .tc main_arg1)) := by
  unfold val3
  simp only [p03]
  after_results_simp
  all_goals (try simp only [val2_main_v1, val2_main_v16, val2_main_v3])
  all_goals rfl

/-- The buffers' contents after stage 4: the first layer's aggregation, self loops and bias. -/
def val4 (V0 : Valuation τ sig (Elt Ideal)) : Valuation τ sig (Elt Ideal) := after p04b (after p04a (val3 V0))

/-- A buffer stage 4 does not write keeps its contents through it. -/
theorem val4_keep (V0 : Valuation τ sig (Elt Ideal)) (r : Ref sig .tc) (h : r ∉ p04a_W ++ p04b_W) :
    val4 V0 (Proc.devRef .tc r) = val3 V0 (Proc.devRef .tc r) := by
  rw [List.mem_append, not_or] at h
  exact (after_of_writes_sub p04b _ p04b_writes h.2).trans (after_of_writes_sub p04a _ p04a_writes h.1)
theorem val4_main_arg0 (V0 : Valuation τ sig (Elt Ideal)) :
    val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) :
    val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) :
    val4 V0 (no_index (Proc.devRef .tc main_arg2)) = V0 (Proc.devRef .tc main_arg2) :=
  (val4_keep V0 main_arg2 (by decide)).trans (val3_main_arg2 V0)
theorem val4_main_arg3 (V0 : Valuation τ sig (Elt Ideal)) :
    val4 V0 (no_index (Proc.devRef .tc main_arg3)) = V0 (Proc.devRef .tc main_arg3) :=
  (val4_keep V0 main_arg3 (by decide)).trans (val3_main_arg3 V0)
theorem val4_main_arg4 (V0 : Valuation τ sig (Elt Ideal)) :
    val4 V0 (no_index (Proc.devRef .tc main_arg4)) = V0 (Proc.devRef .tc main_arg4) :=
  (val4_keep V0 main_arg4 (by decide)).trans (val3_main_arg4 V0)
theorem val4_main_arg5 (V0 : Valuation τ sig (Elt Ideal)) :
    val4 V0 (no_index (Proc.devRef .tc main_arg5)) = V0 (Proc.devRef .tc main_arg5) :=
  (val4_keep V0 main_arg5 (by decide)).trans (val3_main_arg5 V0)
theorem val4_main_arg6 (V0 : Valuation τ sig (Elt Ideal)) :
    val4 V0 (no_index (Proc.devRef .tc main_arg6)) = V0 (Proc.devRef .tc main_arg6) :=
  (val4_keep V0 main_arg6 (by decide)).trans (val3_main_arg6 V0)
theorem val4_main_arg7 (V0 : Valuation τ sig (Elt Ideal)) :
    val4 V0 (no_index (Proc.devRef .tc main_arg7)) = V0 (Proc.devRef .tc main_arg7) :=
  (val4_keep V0 main_arg7 (by decide)).trans (val3_main_arg7 V0)
theorem val4_main_arg8 (V0 : Valuation τ sig (Elt Ideal)) :
    val4 V0 (no_index (Proc.devRef .tc main_arg8)) = V0 (Proc.devRef .tc main_arg8) :=
  (val4_keep V0 main_arg8 (by decide)).trans (val3_main_arg8 V0)
theorem val4_main_arg9 (V0 : Valuation τ sig (Elt Ideal)) :
    val4 V0 (no_index (Proc.devRef .tc main_arg9)) = V0 (Proc.devRef .tc main_arg9) :=
  (val4_keep V0 main_arg9 (by decide)).trans (val3_main_arg9 V0)
theorem val4_main_v1 (V0 : Valuation τ sig (Elt Ideal)) :
    val4 V0 (no_index (Proc.devRef .tc main_v1)) = RefStages.srcRaw (V0 (Proc.devRef .tc main_arg1)) :=
  (val4_keep V0 main_v1 (by decide)).trans (val3_main_v1 V0)
theorem val4_main_v3 (V0 : Valuation τ sig (Elt Ideal)) :
    val4 V0 (no_index (Proc.devRef .tc main_v3)) = RefStages.dstRaw (V0 (Proc.devRef .tc main_arg1)) :=
  (val4_keep V0 main_v3 (by decide)).trans (val3_main_v3 V0)
set_option maxRecDepth 16384 in
set_option maxHeartbeats 4000000 in
theorem val4_main_v57 (V0 : Valuation τ sig (Elt Ideal)) :
    val4 V0 (no_index (Proc.devRef .tc main_v57)) = RefStages.conv (V0 (Proc.devRef .tc main_arg1)) (V0 (Proc.devRef .tc main_arg0)) (V0 (Proc.devRef .tc main_arg2)) (V0 (Proc.devRef .tc main_arg3)) := by
  unfold val4
  simp only [p04a, p04b]
  after_results_simp
  all_goals (try simp only [val3_main_v31, val3_main_v1, val3_main_v4, val3_main_v3, val3_main_v16, val3_main_arg3])
  all_goals rfl

/-- The buffers' contents after stage 5: the first layer's column means. -/
def val5 (V0 : Valuation τ sig (Elt Ideal)) : Valuation τ sig (Elt Ideal) := after p05 (val4 V0)

/-- A buffer stage 5 does not write keeps its contents through it. -/
theorem val5_keep (V0 : Valuation τ sig (Elt Ideal)) (r : Ref sig .tc) (h : r ∉ p05_W) :
    val5 V0 (Proc.devRef .tc r) = val4 V0 (Proc.devRef .tc r) := by
  exact after_of_writes_sub p05 _ p05_writes h
theorem val5_main_arg0 (V0 : Valuation τ sig (Elt Ideal)) :
    val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) :
    val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) :
    val5 V0 (no_index (Proc.devRef .tc main_arg2)) = V0 (Proc.devRef .tc main_arg2) :=
  (val5_keep V0 main_arg2 (by decide)).trans (val4_main_arg2 V0)
theorem val5_main_arg3 (V0 : Valuation τ sig (Elt Ideal)) :
    val5 V0 (no_index (Proc.devRef .tc main_arg3)) = V0 (Proc.devRef .tc main_arg3) :=
  (val5_keep V0 main_arg3 (by decide)).trans (val4_main_arg3 V0)
theorem val5_main_arg4 (V0 : Valuation τ sig (Elt Ideal)) :
    val5 V0 (no_index (Proc.devRef .tc main_arg4)) = V0 (Proc.devRef .tc main_arg4) :=
  (val5_keep V0 main_arg4 (by decide)).trans (val4_main_arg4 V0)
theorem val5_main_arg5 (V0 : Valuation τ sig (Elt Ideal)) :
    val5 V0 (no_index (Proc.devRef .tc main_arg5)) = V0 (Proc.devRef .tc main_arg5) :=
  (val5_keep V0 main_arg5 (by decide)).trans (val4_main_arg5 V0)
theorem val5_main_arg6 (V0 : Valuation τ sig (Elt Ideal)) :
    val5 V0 (no_index (Proc.devRef .tc main_arg6)) = V0 (Proc.devRef .tc main_arg6) :=
  (val5_keep V0 main_arg6 (by decide)).trans (val4_main_arg6 V0)
theorem val5_main_arg7 (V0 : Valuation τ sig (Elt Ideal)) :
    val5 V0 (no_index (Proc.devRef .tc main_arg7)) = V0 (Proc.devRef .tc main_arg7) :=
  (val5_keep V0 main_arg7 (by decide)).trans (val4_main_arg7 V0)
theorem val5_main_arg8 (V0 : Valuation τ sig (Elt Ideal)) :
    val5 V0 (no_index (Proc.devRef .tc main_arg8)) = V0 (Proc.devRef .tc main_arg8) :=
  (val5_keep V0 main_arg8 (by decide)).trans (val4_main_arg8 V0)
theorem val5_main_arg9 (V0 : Valuation τ sig (Elt Ideal)) :
    val5 V0 (no_index (Proc.devRef .tc main_arg9)) = V0 (Proc.devRef .tc main_arg9) :=
  (val5_keep V0 main_arg9 (by decide)).trans (val4_main_arg9 V0)
theorem val5_main_v1 (V0 : Valuation τ sig (Elt Ideal)) :
    val5 V0 (no_index (Proc.devRef .tc main_v1)) = RefStages.srcRaw (V0 (Proc.devRef .tc main_arg1)) :=
  (val5_keep V0 main_v1 (by decide)).trans (val4_main_v1 V0)
theorem val5_main_v3 (V0 : Valuation τ sig (Elt Ideal)) :
    val5 V0 (no_index (Proc.devRef .tc main_v3)) = RefStages.dstRaw (V0 (Proc.devRef .tc main_arg1)) :=
  (val5_keep V0 main_v3 (by decide)).trans (val4_main_v3 V0)
theorem val5_main_v57 (V0 : Valuation τ sig (Elt Ideal)) :
    val5 V0 (no_index (Proc.devRef .tc main_v57)) = RefStages.conv (V0 (Proc.devRef .tc main_arg1)) (V0 (Proc.devRef .tc main_arg0)) (V0 (Proc.devRef .tc main_arg2)) (V0 (Proc.devRef .tc main_arg3)) :=
  (val5_keep V0 main_v57 (by decide)).trans (val4_main_v57 V0)
set_option maxRecDepth 16384 in
set_option maxHeartbeats 4000000 in
theorem val5_main_v60 (V0 : Valuation τ sig (Elt Ideal)) :
    val5 V0 (no_index (Proc.devRef .tc main_v60)) = RefStages.mean (RefStages.conv (V0 (Proc.devRef .tc main_arg1)) (V0 (Proc.devRef .tc main_arg0)) (V0 (Proc.devRef .tc main_arg2)) (V0 (Proc.devRef .tc main_arg3))) := by
  unfold val5
  simp only [p05]
  after_results_simp
  all_goals (try simp only [val4_main_v57])
  all_goals rfl
set_option maxRecDepth 16384 in
set_option maxHeartbeats 4000000 in
theorem val5_main_c_14 (V0 : Valuation τ sig (Elt Ideal)) :
    val5 V0 (no_index (Proc.devRef .tc main_c_14)) = constantI S_ 32 0#32 := by
  unfold val5
  simp only [p05]
  after_results_simp
  all_goals (try simp only [val4_main_v57])
  all_goals rfl

/-- The buffers' contents after stage 6: the first layer's column variances (the outlined variance and its selection, at this call's buffers). -/
def val6 (V0 : Valuation τ sig (Elt Ideal)) : Valuation τ sig (Elt Ideal) := after p06 (val5 V0)

/-- A buffer stage 6 does not write keeps its contents through it. -/
theorem val6_keep (V0 : Valuation τ sig (Elt Ideal)) (r : Ref sig .tc) (h : r ∉ p06_W) :
    val6 V0 (Proc.devRef .tc r) = val5 V0 (Proc.devRef .tc r) := by
  exact after_of_writes_sub p06 _ p06_writes h
theorem val6_main_arg0 (V0 : Valuation τ sig (Elt Ideal)) :
    val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) :
    val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) :
    val6 V0 (no_index (Proc.devRef .tc main_arg2)) = V0 (Proc.devRef .tc main_arg2) :=
  (val6_keep V0 main_arg2 (by decide)).trans (val5_main_arg2 V0)
theorem val6_main_arg3 (V0 : Valuation τ sig (Elt Ideal)) :
    val6 V0 (no_index (Proc.devRef .tc main_arg3)) = V0 (Proc.devRef .tc main_arg3) :=
  (val6_keep V0 main_arg3 (by decide)).trans (val5_main_arg3 V0)
theorem val6_main_arg4 (V0 : Valuation τ sig (Elt Ideal)) :
    val6 V0 (no_index (Proc.devRef .tc main_arg4)) = V0 (Proc.devRef .tc main_arg4) :=
  (val6_keep V0 main_arg4 (by decide)).trans (val5_main_arg4 V0)
theorem val6_main_arg5 (V0 : Valuation τ sig (Elt Ideal)) :
    val6 V0 (no_index (Proc.devRef .tc main_arg5)) = V0 (Proc.devRef .tc main_arg5) :=
  (val6_keep V0 main_arg5 (by decide)).trans (val5_main_arg5 V0)
theorem val6_main_arg6 (V0 : Valuation τ sig (Elt Ideal)) :
    val6 V0 (no_index (Proc.devRef .tc main_arg6)) = V0 (Proc.devRef .tc main_arg6) :=
  (val6_keep V0 main_arg6 (by decide)).trans (val5_main_arg6 V0)
theorem val6_main_arg7 (V0 : Valuation τ sig (Elt Ideal)) :
    val6 V0 (no_index (Proc.devRef .tc main_arg7)) = V0 (Proc.devRef .tc main_arg7) :=
  (val6_keep V0 main_arg7 (by decide)).trans (val5_main_arg7 V0)
theorem val6_main_arg8 (V0 : Valuation τ sig (Elt Ideal)) :
    val6 V0 (no_index (Proc.devRef .tc main_arg8)) = V0 (Proc.devRef .tc main_arg8) :=
  (val6_keep V0 main_arg8 (by decide)).trans (val5_main_arg8 V0)
theorem val6_main_arg9 (V0 : Valuation τ sig (Elt Ideal)) :
    val6 V0 (no_index (Proc.devRef .tc main_arg9)) = V0 (Proc.devRef .tc main_arg9) :=
  (val6_keep V0 main_arg9 (by decide)).trans (val5_main_arg9 V0)
theorem val6_main_v1 (V0 : Valuation τ sig (Elt Ideal)) :
    val6 V0 (no_index (Proc.devRef .tc main_v1)) = RefStages.srcRaw (V0 (Proc.devRef .tc main_arg1)) :=
  (val6_keep V0 main_v1 (by decide)).trans (val5_main_v1 V0)
theorem val6_main_v3 (V0 : Valuation τ sig (Elt Ideal)) :
    val6 V0 (no_index (Proc.devRef .tc main_v3)) = RefStages.dstRaw (V0 (Proc.devRef .tc main_arg1)) :=
  (val6_keep V0 main_v3 (by decide)).trans (val5_main_v3 V0)
theorem val6_main_v57 (V0 : Valuation τ sig (Elt Ideal)) :
    val6 V0 (no_index (Proc.devRef .tc main_v57)) = RefStages.conv (V0 (Proc.devRef .tc main_arg1)) (V0 (Proc.devRef .tc main_arg0)) (V0 (Proc.devRef .tc main_arg2)) (V0 (Proc.devRef .tc main_arg3)) :=
  (val6_keep V0 main_v57 (by decide)).trans (val5_main_v57 V0)
theorem val6_main_v60 (V0 : Valuation τ sig (Elt Ideal)) :
    val6 V0 (no_index (Proc.devRef .tc main_v60)) = RefStages.mean (RefStages.conv (V0 (Proc.devRef .tc main_arg1)) (V0 (Proc.devRef .tc main_arg0)) (V0 (Proc.devRef .tc main_arg2)) (V0 (Proc.devRef .tc main_arg3))) :=
  (val6_keep V0 main_v60 (by decide)).trans (val5_main_v60 V0)
set_option maxRecDepth 16384 in
set_option maxHeartbeats 4000000 in
theorem val6_main_v61 (V0 : Valuation τ sig (Elt Ideal)) :
    val6 V0 (no_index (Proc.devRef .tc main_v61)) = RefStages.var (RefStages.conv (V0 (Proc.devRef .tc main_arg1)) (V0 (Proc.devRef .tc main_arg0)) (V0 (Proc.devRef .tc main_arg2)) (V0 (Proc.devRef .tc main_arg3))) := by
  unfold val6
  simp only [p06]
  after_results_simp
  all_goals (try simp only [val5_main_v57, val5_main_c_14, Cert.LibHostReads.ofBuf_toBuf, ofBuf_main_v57, ofBuf_main_c_14, toBuf_main_v61])
  all_goals rfl

/-- The buffers' contents after stage 7: the first layer's normalisation. -/
def val7 (V0 : Valuation τ sig (Elt Ideal)) : Valuation τ sig (Elt Ideal) := after p07 (val6 V0)

/-- A buffer stage 7 does not write keeps its contents through it. -/
theorem val7_keep (V0 : Valuation τ sig (Elt Ideal)) (r : Ref sig .tc) (h : r ∉ p07_W) :
    val7 V0 (Proc.devRef .tc r) = val6 V0 (Proc.devRef .tc r) := by
  exact after_of_writes_sub p07 _ p07_writes h
theorem val7_main_arg0 (V0 : Valuation τ sig (Elt Ideal)) :
    val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) :
    val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) :
    val7 V0 (no_index (Proc.devRef .tc main_arg2)) = V0 (Proc.devRef .tc main_arg2) :=
  (val7_keep V0 main_arg2 (by decide)).trans (val6_main_arg2 V0)
theorem val7_main_arg3 (V0 : Valuation τ sig (Elt Ideal)) :
    val7 V0 (no_index (Proc.devRef .tc main_arg3)) = V0 (Proc.devRef .tc main_arg3) :=
  (val7_keep V0 main_arg3 (by decide)).trans (val6_main_arg3 V0)
theorem val7_main_arg4 (V0 : Valuation τ sig (Elt Ideal)) :
    val7 V0 (no_index (Proc.devRef .tc main_arg4)) = V0 (Proc.devRef .tc main_arg4) :=
  (val7_keep V0 main_arg4 (by decide)).trans (val6_main_arg4 V0)
theorem val7_main_arg5 (V0 : Valuation τ sig (Elt Ideal)) :
    val7 V0 (no_index (Proc.devRef .tc main_arg5)) = V0 (Proc.devRef .tc main_arg5) :=
  (val7_keep V0 main_arg5 (by decide)).trans (val6_main_arg5 V0)
theorem val7_main_arg6 (V0 : Valuation τ sig (Elt Ideal)) :
    val7 V0 (no_index (Proc.devRef .tc main_arg6)) = V0 (Proc.devRef .tc main_arg6) :=
  (val7_keep V0 main_arg6 (by decide)).trans (val6_main_arg6 V0)
theorem val7_main_arg7 (V0 : Valuation τ sig (Elt Ideal)) :
    val7 V0 (no_index (Proc.devRef .tc main_arg7)) = V0 (Proc.devRef .tc main_arg7) :=
  (val7_keep V0 main_arg7 (by decide)).trans (val6_main_arg7 V0)
theorem val7_main_arg8 (V0 : Valuation τ sig (Elt Ideal)) :
    val7 V0 (no_index (Proc.devRef .tc main_arg8)) = V0 (Proc.devRef .tc main_arg8) :=
  (val7_keep V0 main_arg8 (by decide)).trans (val6_main_arg8 V0)
theorem val7_main_arg9 (V0 : Valuation τ sig (Elt Ideal)) :
    val7 V0 (no_index (Proc.devRef .tc main_arg9)) = V0 (Proc.devRef .tc main_arg9) :=
  (val7_keep V0 main_arg9 (by decide)).trans (val6_main_arg9 V0)
theorem val7_main_v1 (V0 : Valuation τ sig (Elt Ideal)) :
    val7 V0 (no_index (Proc.devRef .tc main_v1)) = RefStages.srcRaw (V0 (Proc.devRef .tc main_arg1)) :=
  (val7_keep V0 main_v1 (by decide)).trans (val6_main_v1 V0)
theorem val7_main_v3 (V0 : Valuation τ sig (Elt Ideal)) :
    val7 V0 (no_index (Proc.devRef .tc main_v3)) = RefStages.dstRaw (V0 (Proc.devRef .tc main_arg1)) :=
  (val7_keep V0 main_v3 (by decide)).trans (val6_main_v3 V0)
set_option maxRecDepth 16384 in
set_option maxHeartbeats 4000000 in
theorem val7_main_v76 (V0 : Valuation τ sig (Elt Ideal)) :
    val7 V0 (no_index (Proc.devRef .tc main_v76)) = RefStages.bn (RefStages.conv (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5)) := by
  unfold val7
  simp only [p07]
  after_results_simp
  all_goals (try simp only [val6_main_v60, val6_main_v57, val6_main_arg4, val6_main_v61, val6_main_arg5])
  all_goals rfl
set_option maxRecDepth 16384 in
set_option maxHeartbeats 4000000 in
theorem val7_main_cst_16 (V0 : Valuation τ sig (Elt Ideal)) :
    val7 V0 (no_index (Proc.devRef .tc main_cst_16)) = constant (F := Ideal) S_ .f32 0x3C23D70A#32 := by
  unfold val7
  simp only [p07]
  after_results_simp
  all_goals (try simp only [val6_main_v60, val6_main_v57, val6_main_arg4, val6_main_v61, val6_main_arg5])
  all_goals rfl

/-- The buffers' contents after stage 8: the first layer's rectifier (the outlined function and its selection, at this call's buffers). -/
def val8 (V0 : Valuation τ sig (Elt Ideal)) : Valuation τ sig (Elt Ideal) := after p08 (val7 V0)

/-- A buffer stage 8 does not write keeps its contents through it. -/
theorem val8_keep (V0 : Valuation τ sig (Elt Ideal)) (r : Ref sig .tc) (h : r ∉ p08_W) :
    val8 V0 (Proc.devRef .tc r) = val7 V0 (Proc.devRef .tc r) := by
  exact after_of_writes_sub p08 _ p08_writes h
theorem val8_main_arg0 (V0 : Valuation τ sig (Elt Ideal)) :
    val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) :
    val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) :
    val8 V0 (no_index (Proc.devRef .tc main_arg2)) = V0 (Proc.devRef .tc main_arg2) :=
  (val8_keep V0 main_arg2 (by decide)).trans (val7_main_arg2 V0)
theorem val8_main_arg3 (V0 : Valuation τ sig (Elt Ideal)) :
    val8 V0 (no_index (Proc.devRef .tc main_arg3)) = V0 (Proc.devRef .tc main_arg3) :=
  (val8_keep V0 main_arg3 (by decide)).trans (val7_main_arg3 V0)
theorem val8_main_arg4 (V0 : Valuation τ sig (Elt Ideal)) :
    val8 V0 (no_index (Proc.devRef .tc main_arg4)) = V0 (Proc.devRef .tc main_arg4) :=
  (val8_keep V0 main_arg4 (by decide)).trans (val7_main_arg4 V0)
theorem val8_main_arg5 (V0 : Valuation τ sig (Elt Ideal)) :
    val8 V0 (no_index (Proc.devRef .tc main_arg5)) = V0 (Proc.devRef .tc main_arg5) :=
  (val8_keep V0 main_arg5 (by decide)).trans (val7_main_arg5 V0)
theorem val8_main_arg6 (V0 : Valuation τ sig (Elt Ideal)) :
    val8 V0 (no_index (Proc.devRef .tc main_arg6)) = V0 (Proc.devRef .tc main_arg6) :=
  (val8_keep V0 main_arg6 (by decide)).trans (val7_main_arg6 V0)
theorem val8_main_arg7 (V0 : Valuation τ sig (Elt Ideal)) :
    val8 V0 (no_index (Proc.devRef .tc main_arg7)) = V0 (Proc.devRef .tc main_arg7) :=
  (val8_keep V0 main_arg7 (by decide)).trans (val7_main_arg7 V0)
theorem val8_main_arg8 (V0 : Valuation τ sig (Elt Ideal)) :
    val8 V0 (no_index (Proc.devRef .tc main_arg8)) = V0 (Proc.devRef .tc main_arg8) :=
  (val8_keep V0 main_arg8 (by decide)).trans (val7_main_arg8 V0)
theorem val8_main_arg9 (V0 : Valuation τ sig (Elt Ideal)) :
    val8 V0 (no_index (Proc.devRef .tc main_arg9)) = V0 (Proc.devRef .tc main_arg9) :=
  (val8_keep V0 main_arg9 (by decide)).trans (val7_main_arg9 V0)
theorem val8_main_v1 (V0 : Valuation τ sig (Elt Ideal)) :
    val8 V0 (no_index (Proc.devRef .tc main_v1)) = RefStages.srcRaw (V0 (Proc.devRef .tc main_arg1)) :=
  (val8_keep V0 main_v1 (by decide)).trans (val7_main_v1 V0)
theorem val8_main_v3 (V0 : Valuation τ sig (Elt Ideal)) :
    val8 V0 (no_index (Proc.devRef .tc main_v3)) = RefStages.dstRaw (V0 (Proc.devRef .tc main_arg1)) :=
  (val8_keep V0 main_v3 (by decide)).trans (val7_main_v3 V0)
set_option maxRecDepth 16384 in
set_option maxHeartbeats 4000000 in
theorem val8_main_v77 (V0 : Valuation τ sig (Elt Ideal)) :
    val8 V0 (no_index (Proc.devRef .tc main_v77)) = RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) := by
  unfold val8
  simp only [p08]
  after_results_simp
  all_goals (try simp only [val7_main_v76, val7_main_cst_16, Cert.LibHostReads.ofBuf_toBuf, ofBuf_main_v76, ofBuf_main_cst_16, toBuf_main_v77])
  all_goals rfl

end Cert.ReferenceIdeal.RefRun

end
-- ==== Proof.RefRun2.lean ====
/-
  Window 2 of the reference's straight line: the operations of `main_part2` as lists, cut where a stage of the
  arithmetic ends; a call of an outlined function is its body's operations at the call's own buffers, a nested
  call's likewise. For each list: every operation touches TensorCore buffers only, and the buffers it writes.
  The window's program is the straight line of its lists, by unfolding.
-/
import proofs.«152807_j76802605187214_1_alg».proof.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-- An operation writes its result buffer only, and that buffer is in the list. -/
local macro "writes_in_list" : tactic =>
  `(tactic| (simp only [nullary_writes, unary_writes, binary_writes, ternary_writes, reshape_writes, Finset.singleton_subset_iff, List.mem_toFinset]
             exact List.mem_map_of_mem (by decide)))

/-- Operations 148 … 161 of the straight line: the second layer's edge weights (the part of it in this window). -/
abbrev p11b : List (HloOp τ sig (Elt Ideal)) :=
  [
    binary main_v1 main_v93 main_v94 (addi : (⟨S1200000, .i32⟩ : BufTy).Contents (Elt Ideal) → (⟨S1200000, .i32⟩ : BufTy).Contents (Elt Ideal) → (⟨S1200000, .i32⟩ : BufTy).Contents (Elt Ideal)),
    ternary main_v92 main_v94 main_v1 main_v95 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v95 main_v96 (broadcastInDim S1200000x1 ![0] bcast_S1200000_S1200000x1_0 : (⟨S1200000, .i32⟩ : BufTy).Contents (Elt Ideal) → (⟨S1200000x1, .i32⟩ : BufTy).Contents (Elt Ideal)),
    binary main_v90 main_v96 main_v97 ((fun x i => Host.gather gather_S100000_S1200000x1_S1200000_n_0_n_n_0_1_1 x i) : (⟨S100000, .f32⟩ : BufTy).Contents (Elt Ideal) → (⟨S1200000x1, .i32⟩ : BufTy).Contents (Elt Ideal) → (⟨S1200000, .f32⟩ : BufTy).Contents (Elt Ideal)),
    nullary main_c_24 (constantI S_ 32 0#32),
    unary main_c_24 main_v98 (broadcastInDim S1200000 ![] bcast_S_S1200000 : (⟨S_, .i32⟩ : BufTy).Contents (Elt Ideal) → (⟨S1200000, .i32⟩ : BufTy).Contents (Elt Ideal)),
    binary main_v3 main_v98 main_v99 (cmpi .slt : (⟨S1200000, .i32⟩ : BufTy).Contents (Elt Ideal) → (⟨S1200000, .i32⟩ : BufTy).Contents (Elt Ideal) → (⟨S1200000, .i1⟩ : BufTy).Contents (Elt Ideal)),
    nullary main_c_25 (constantI S_ 32 100000#32),
    unary main_c_25 main_v100 (broadcastInDim S1200000 ![] bcast_S_S1200000 : (⟨S_, .i32⟩ : BufTy).Contents (Elt Ideal) → (⟨S1200000, .i32⟩ : BufTy).Contents (Elt Ideal)),
    binary main_v3 main_v100 main_v101 (addi : (⟨S1200000, .i32⟩ : BufTy).Contents (Elt Ideal) → (⟨S1200000, .i32⟩ : BufTy).Contents (Elt Ideal) → (⟨S1200000, .i32⟩ : BufTy).Contents (Elt Ideal)),
    ternary main_v99 main_v101 main_v3 main_v102 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v102 main_v103 (broadcastInDim S1200000x1 ![0] bcast_S1200000_S1200000x1_0 : (⟨S1200000, .i32⟩ : BufTy).Contents (Elt Ideal) → (⟨S1200000x1, .i32⟩ : BufTy).Contents (Elt Ideal)),
    binary main_v90 main_v103 main_v104 ((fun x i => Host.gather gather_S100000_S1200000x1_S1200000_n_0_n_n_0_1_1 x i) : (⟨S100000, .f32⟩ : BufTy).Contents (Elt Ideal) → (⟨S1200000x1, .i32⟩ : BufTy).Contents (Elt Ideal) → (⟨S1200000, .f32⟩ : BufTy).Contents (Elt Ideal)),
    binary main_v97 main_v104 main_v105 (mulf (F := Ideal) (φ := .f32) : (⟨S1200000, .f32⟩ : BufTy).Contents (Elt Ideal) → (⟨S1200000, .f32⟩ : BufTy).Contents (Elt Ideal) → (⟨S1200000, .f32⟩ : BufTy).Contents (Elt Ideal)) ]

theorem p11b_sub : (p11b : List (HloOp τ sig (Elt Ideal))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The buffers these operations write, in order. -/
abbrev p11b_W : List (Ref sig .tc) := [main_v94, main_v95, main_v96, main_v97, main_c_24, main_v98, main_v99, main_c_25, main_v100, main_v101, main_v102, main_v103, main_v104, main_v105]

theorem p11b_writes : (p11b : List (HloOp τ sig (Elt Ideal))).Forall fun op =>
    op.writes ⊆ (p11b_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list⟩

/-- Operations 162 … 192 of the straight line: the second layer's aggregation, self loops and bias. -/
abbrev p12 : List (HloOp τ sig (Elt Ideal)) :=
  [
    nullary main_cst_26 (constant (F := Ideal) S_ .f32 0x00000000#32),
    unary main_cst_26 main_v106 (broadcastInDim S100000x64 ![] bcast_S_S100000x64 : (⟨S_, .f32⟩ : BufTy).Contents (Elt Ideal) → (⟨S100000x64, .f32⟩ : BufTy).Contents (Elt Ideal)),
    unary main_v105 main_v107 (broadcastInDim S1200000x1 ![0] bcast_S1200000_S1200000x1_0 : (⟨S1200000, .f32⟩ : BufTy).Contents (Elt Ideal) → (⟨S1200000x1, .f32⟩ : BufTy).Contents (Elt Ideal)),
    nullary main_c_27 (constantI S_ 32 0#32),
    unary main_c_27 main_v108 (broadcastInDim S1200000 ![] bcast_S_S1200000 : (⟨S_, .i32⟩ : BufTy).Contents (Elt Ideal) → (⟨S1200000, .i32⟩ : BufTy).Contents (Elt Ideal)),
    binary main_v1 main_v108 main_v109 (cmpi .slt : (⟨S1200000, .i32⟩ : BufTy).Contents (Elt Ideal) → (⟨S1200000, .i32⟩ : BufTy).Contents (Elt Ideal) → (⟨S1200000, .i1⟩ : BufTy).Contents (Elt Ideal)),
    nullary main_c_28 (constantI S_ 32 100000#32),
    unary main_c_28 main_v110 (broadcastInDim S1200000 ![] bcast_S_S1200000 : (⟨S_, .i32⟩ : BufTy).Contents (Elt Ideal) → (⟨S1200000, .i32⟩ : BufTy).Contents (Elt Ideal)),
    binary main_v1 main_v110 main_v111 (addi : (⟨S1200000, .i32⟩ : BufTy).Contents (Elt Ideal) → (⟨S1200000, .i32⟩ : BufTy).Contents (Elt Ideal) → (⟨S1200000, .i32⟩ : BufTy).Contents (Elt Ideal)),
    ternary main_v109 main_v111 main_v1 main_v112 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v112 main_v113 (broadcastInDim S1200000x1 ![0] bcast_S1200000_S1200000x1_0 : (⟨S1200000, .i32⟩ : BufTy).Contents (Elt Ideal) → (⟨S1200000x1, .i32⟩ : BufTy).Contents (Elt Ideal)),
    binary main_v78 main_v113 main_v114 ((fun x i => Host.gather gather_S100000x64_S1200000x1_S1200000x64_1_0_n_n_0_1_164 x i) : (⟨S100000x64, .f32⟩ : BufTy).Contents (Elt Ideal) → (⟨S1200000x1, .i32⟩ : BufTy).Contents (Elt Ideal) → (⟨S1200000x64, .f32⟩ : BufTy).Contents (Elt Ideal)),
    unary main_v107 main_v115 (broadcastInDim S1200000x64 ![0, 1] bcast_S1200000x1_S1200000x64_0_1 : (⟨S1200000x1, .f32⟩ : BufTy).Contents (Elt Ideal) → (⟨S1200000x64, .f32⟩ : BufTy).Contents (Elt Ideal)),
    binary main_v115 main_v114 main_v116 (mulf (F := Ideal) (φ := .f32) : (⟨S1200000x64, .f32⟩ : BufTy).Contents (Elt Ideal) → (⟨S1200000x64, .f32⟩ : BufTy).Contents (Elt Ideal) → (⟨S1200000x64, .f32⟩ : BufTy).Contents (Elt Ideal)),
    nullary main_c_29 (constantI S_ 32 0#32),
    unary main_c_29 main_v117 (broadcastInDim S1200000 ![] bcast_S_S1200000 : (⟨S_, .i32⟩ : BufTy).Contents (Elt Ideal) → (⟨S1200000, .i32⟩ : BufTy).Contents (Elt Ideal)),
    binary main_v3 main_v117 main_v118 (cmpi .slt : (⟨S1200000, .i32⟩ : BufTy).Contents (Elt Ideal) → (⟨S1200000, .i32⟩ : BufTy).Contents (Elt Ideal) → (⟨S1200000, .i1⟩ : BufTy).Contents (Elt Ideal)),
    nullary main_c_30 (constantI S_ 32 100000#32),
    unary main_c_30 main_v119 (broadcastInDim S1200000 ![] bcast_S_S1200000 : (⟨S_, .i32⟩ : BufTy).Contents (Elt Ideal) → (⟨S1200000, .i32⟩ : BufTy).Contents (Elt Ideal)),
    binary main_v3 main_v119 main_v120 (addi : (⟨S1200000, .i32⟩ : BufTy).Contents (Elt Ideal) → (⟨S1200000, .i32⟩ : BufTy).Contents (Elt Ideal) → (⟨S1200000, .i32⟩ : BufTy).Contents (Elt Ideal)),
    ternary main_v118 main_v120 main_v3 main_v121 (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal)),
    unary main_v121 main_v122 (broadcastInDim S1200000x1 ![0] bcast_S1200000_S1200000x1_0 : (⟨S1200000, .i32⟩ : BufTy).Contents (Elt Ideal) → (⟨S1200000x1, .i32⟩ : BufTy).Contents (Elt Ideal)),
    ternary main_v106 main_v122 main_v116 main_v123 ((fun x i u => Host.scatterAdd (F := Ideal) (φ := .f32) scatter_S100000x64_S1200000x1_S1200000x64_1_0_0_1 x i u) : (⟨S100000x64, .f32⟩ : BufTy).Contents (Elt Ideal) → (⟨S1200000x1, .i32⟩ : BufTy).Contents (Elt Ideal) → (⟨S1200000x64, .f32⟩ : BufTy).Contents (Elt Ideal) → (⟨S100000x64, .f32⟩ : BufTy).Contents (Elt Ideal)),
    binary main_v90 main_v90 main_v124 (mulf (F := Ideal) (φ := .f32) : (⟨S100000, .f32⟩ : BufTy).Contents (Elt Ideal) → (⟨S100000, .f32⟩ : BufTy).Contents (Elt Ideal) → (⟨S100000, .f32⟩ : BufTy).Contents (Elt Ideal)),
    unary main_v124 main_v125 (broadcastInDim S100000x1 ![0] bcast_S100000_S100000x1_0 : (⟨S100000, .f32⟩ : BufTy).Contents (Elt Ideal) → (⟨S100000x1, .f32⟩ : BufTy).Contents (Elt Ideal)),
    unary main_v125 main_v126 (broadcastInDim S100000x64 ![0, 1] bcast_S100000x1_S100000x64_0_1 : (⟨S100000x1, .f32⟩ : BufTy).Contents (Elt Ideal) → (⟨S100000x64, .f32⟩ : BufTy).Contents (Elt Ideal)),
    binary main_v126 main_v78 main_v127 (mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    binary main_v123 main_v127 main_v128 (addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    unary main_arg7 main_v129 (broadcastInDim S1x64 ![1] bcast_S64_S1x64_1 : (⟨S64, .f32⟩ : BufTy).Contents (Elt Ideal) → (⟨S1x64, .f32⟩ : BufTy).Contents (Elt Ideal)),
    unary main_v129 main_v130 (broadcastInDim S100000x64 ![0, 1] bcast_S1x64_S100000x64_0_1 : (⟨S1x64, .f32⟩ : BufTy).Contents (Elt Ideal) → (⟨S100000x64, .f32⟩ : BufTy).Contents (Elt Ideal)),
    binary main_v128 main_v130 main_v131 (addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)) ]

theorem p12_sub : (p12 : List (HloOp τ sig (Elt Ideal))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

/-- The buffers these operations write, in order. -/
abbrev p12_W : List (Ref sig .tc) := [main_cst_26, main_v106, main_v107, main_c_27, main_v108, main_v109, main_c_28, main_v110, main_v111, main_v112, main_v113, main_v114, main_v115, main_v116, main_c_29, main_v117, main_v118, main_c_30, main_v119, main_v120, main_v121, main_v122, main_v123, main_v124, main_v125, main_v126, main_v127, main_v128, main_v129, main_v130, main_v131]

theorem p12_writes : (p12 : List (HloOp τ sig (Elt Ideal))).Forall fun op =>
    op.writes ⊆ (p12_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 193 … 198 of the straight line: the second layer's column means. -/
abbrev p13 : List (HloOp τ sig (Elt Ideal)) :=
  [
    nullary main_cst_31 (constant (F := Ideal) S_ .f32 0x00000000#32),
    binary main_v131 main_cst_31 main_v132 ((fun x v => Host.reduceAdd (F := Ideal) (φ := .f32) x v reducesTo_S100000x64_S64_d0 h_S_) : (⟨S100000x64, .f32⟩ : BufTy).Contents (Elt Ideal) → (⟨S_, .f32⟩ : BufTy).Contents (Elt Ideal) → (⟨S64, .f32⟩ : BufTy).Contents (Elt Ideal)),
    nullary main_cst_32 (constant (F := Ideal) S_ .f32 0x47C35000#32),
    unary main_cst_32 main_v133 (broadcastInDim S64 ![] bcast_S_S64 : (⟨S_, .f32⟩ : BufTy).Contents (Elt Ideal) → (⟨S64, .f32⟩ : BufTy).Contents (Elt Ideal)),
    binary main_v132 main_v133 main_v134 (Host.divf (F := Ideal) (φ := .f32) : (⟨S64, .f32⟩ : BufTy).Contents (Elt Ideal) → (⟨S64, .f32⟩ : BufTy).Contents (Elt Ideal) → (⟨S64, .f32⟩ : BufTy).Contents (Elt Ideal)),
    nullary main_c_33 (constantI S_ 32 0#32) ]

theorem p13_sub : (p13 : List (HloOp τ sig (Elt Ideal))).Forall fun op => op.bufs ⊆ tcRefs τ sig :=
  ⟨nullary_bufs_sub .., binary_bufs_sub .., nullary_bufs_sub .., unary_bufs_sub .., binary_bufs_sub .., nullary_bufs_sub ..⟩

/-- The buffers these operations write, in order. -/
abbrev p13_W : List (Ref sig .tc) := [main_cst_31, main_v132, main_cst_32, main_v133, main_v134, main_c_33]

theorem p13_writes : (p13 : List (HloOp τ sig (Elt Ideal))).Forall fun op =>
    op.writes ⊆ (p13_W.map (Proc.devRef (τ := τ) .tc)).toFinset := by
  simp only [List.Forall]; exact ⟨by writes_in_list, by writes_in_list, by writes_in_list, by writes_in_list, by writes_in_list, by writes_in_list⟩

/-- Operations 199 … 220 of the straight line: the second layer's column variances (the outlined variance and its selection, at this call's buffers). -/
abbrev p14 : List (HloOp τ sig (Elt Ideal)) :=
  [
    TRef.nullary main_call2.cst (constant (F := Ideal) S_ .f32 0x00000000#32),
    TRef.binary (.of main_v131) main_call2.cst main_call2.v0 (fun x v => Host.reduceAdd (F := Ideal) (φ := .f32) x v reducesTo_S100000x64_S64_d0 h_S_),
    TRef.unary main_call2.v0 main_call2.v1 (broadcastInDim S1x64 ![1] bcast_S64_S1x64_1),
    TRef.nullary main_call2.cst_0 (constant (F := Ideal) S_ .f32 0x47C35000#32),
    TRef.unary main_call2.cst_0 main_call2.v2 (broadcastInDim S1x64 ![] bcast_S_S1x64),
    TRef.binary main_call2.v1 main_call2.v2 main_call2.v3 (Host.divf (F := Ideal) (φ := .f32)),
    TRef.unary main_call2.v3 main_call2.v4 (broadcastInDim S100000x64 ![0, 1] bcast_S1x64_S100000x64_0_1),
    TRef.binary (.of main_v131) main_call2.v4 main_call2.v5 (subf (F := Ideal) (φ := .f32)),
    TRef.binary main_call2.v5 main_call2.v5 main_call2.v6 (mulf (F := Ideal) (φ := .f32)),
    TRef.unary (.of main_c_33) main_call2.v7 (sitofp (F := Ideal) .f32),
    TRef.nullary main_call2.cst_1 (constant (F := Ideal) S_ .f32 0x47C35000#32),
    TRef.binary main_call2.cst_1 main_call2.v7 main_call2.v8 (subf (F := Ideal) (φ := .f32)),
    TRef.nullary main_call2.cst_2 (constant (F := Ideal) S_ .f32 0x00000000#32),
    TRef.binary main_call2.v6 main_call2.cst_2 main_call2.v9 (fun x v => Host.reduceAdd (F := Ideal) (φ := .f32) x v reducesTo_S100000x64_S64_d0 h_S_),
    TRef.unary main_call2.v8 main_call2.v10 (broadcastInDim S64 ![] bcast_S_S64),
    TRef.binary main_call2.v9 main_call2.v10 main_call2.v11 (Host.divf (F := Ideal) (φ := .f32)),
    TRef.nullary main_call2.cst_3 (constant (F := Ideal) S_ .f32 0x00000000#32),
    TRef.binary main_call2.v8 main_call2.cst_3 main_call2.v12 (cmpf (F := Ideal) (φ := .f32) .ogt),
    TRef.nullary main_call2.cst_4 (constant (F := Ideal) S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]

theorem p14_sub : (p14 : List (HloOp τ sig (Elt Ideal))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The buffers these operations write, in order. -/
abbrev p14_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v135]

theorem p14_writes : (p14 : List (HloOp τ sig (Elt Ideal))).Forall fun op =>
    op.writes ⊆ (p14_W.map (Proc.devRef (τ := τ) .tc)).toFinset := by
  simp only [List.Forall]; exact ⟨by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list, by writes_in_list⟩

/-- Operations 221 … 228 of the straight line: the second layer's normalisation (the part of it in this window). -/
abbrev p15a : List (HloOp τ sig (Elt Ideal)) :=
  [
    unary main_v134 main_v136 (broadcastInDim S1x64 ![1] bcast_S64_S1x64_1 : (⟨S64, .f32⟩ : BufTy).Contents (Elt Ideal) → (⟨S1x64, .f32⟩ : BufTy).Contents (Elt Ideal)),
    unary main_v136 main_v137 (broadcastInDim S100000x64 ![0, 1] bcast_S1x64_S100000x64_0_1 : (⟨S1x64, .f32⟩ : BufTy).Contents (Elt Ideal) → (⟨S100000x64, .f32⟩ : BufTy).Contents (Elt Ideal)),
    binary main_v131 main_v137 main_v138 (subf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    unary main_arg8 main_v139 (broadcastInDim S1x64 ![1] bcast_S64_S1x64_1 : (⟨S64, .f32⟩ : BufTy).Contents (Elt Ideal) → (⟨S1x64, .f32⟩ : BufTy).Contents (Elt Ideal)),
    unary main_v139 main_v140 (broadcastInDim S100000x64 ![0, 1] bcast_S1x64_S100000x64_0_1 : (⟨S1x64, .f32⟩ : BufTy).Contents (Elt Ideal) → (⟨S100000x64, .f32⟩ : BufTy).Contents (Elt Ideal)),
    binary main_v140 main_v138 main_v141 (mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    nullary main_cst_34 (constant (F := Ideal) S_ .f32 0x3727C5AC#32),
    unary main_cst_34 main_v142 (broadcastInDim S64 ![] bcast_S_S64 : (⟨S_, .f32⟩ : BufTy).Contents (Elt Ideal) → (⟨S64, .f32⟩ : BufTy).Contents (Elt Ideal)) ]

theorem p15a_sub : (p15a : List (HloOp τ sig (Elt Ideal))).Forall fun op => op.bufs ⊆ tcRefs τ sig :=
  ⟨unary_bufs_sub .., unary_bufs_sub .., binary_bufs_sub .., unary_bufs_sub .., unary_bufs_sub .., binary_bufs_sub .., nullary_bufs_sub .., unary_bufs_sub ..⟩

/-- The buffers these operations write, in order. -/
abbrev p15a_W : List (Ref sig .tc) := [main_v136, main_v137, main_v138, main_v139, main_v140, main_v141, main_cst_34, main_v142]

theorem p15a_writes : (p15a : List (HloOp τ sig (Elt Ideal))).Forall fun op =>
    op.writes ⊆ (p15a_W.map (Proc.devRef (τ := τ) .tc)).toFinset := by
  simp only [List.Forall]; exact ⟨by writes_in_list, by writes_in_list, by writes_in_list, by writes_in_list, by writes_in_list, by writes_in_list, by writes_in_list, by writes_in_list⟩

/-- The window's operations, in order. -/
abbrev w2 : List (HloOp τ sig (Elt Ideal)) := p11b ++ (p12 ++ (p13 ++ (p14 ++ (p15a))))

set_option maxRecDepth 16384 in
set_option maxHeartbeats 4000000 in
/-- The window's program is that straight line: the outlined functions' bodies unfold at their calls, the records at their fields, and sequencing reassociates. -/
theorem main_part2_eq (c : Dev nD) : main_part2 (F := Ideal) c = seq w2 := by
  simp only [main_part2, fn_var.body, fn_where.body, fn_leaky_relu.body, fn_where_0.body, bind_assoc, pure_bind]
  rfl

theorem w2_sub : (w2 : List (HloOp τ sig (Elt Ideal))).Forall fun op => op.bufs ⊆ tcRefs τ sig :=
  List.forall_iff_forall_mem.mpr fun op h => by
    rcases List.mem_append.mp h with h | h
    · exact List.forall_iff_forall_mem.mp p11b_sub op h
    rcases List.mem_append.mp h with h | h
    · exact List.forall_iff_forall_mem.mp p12_sub op h
    rcases List.mem_append.mp h with h | h
    · exact List.forall_iff_forall_mem.mp p13_sub op h
    rcases List.mem_append.mp h with h | h
    · exact List.forall_iff_forall_mem.mp p14_sub op h
    · exact List.forall_iff_forall_mem.mp p15a_sub op h

end Cert.ReferenceIdeal.RefRun

end
-- ==== Proof.RefRun3.lean ====
/-
  Window 3 of the reference's straight line: the operations of `main_part3` as lists, cut where a stage of the
  arithmetic ends; a call of an outlined function is its body's operations at the call's own buffers, a nested
  call's likewise. For each list: every operation touches TensorCore buffers only, and the buffers it writes.
  The window's program is the straight line of its lists, by unfolding.
-/
import proofs.«152807_j76802605187214_1_alg».proof.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-- An operation writes its result buffer only, and that buffer is in the list. -/
local macro "writes_in_list" : tactic =>
  `(tactic| (simp only [nullary_writes, unary_writes, binary_writes, ternary_writes, reshape_writes, Finset.singleton_subset_iff, List.mem_toFinset]
             exact List.mem_map_of_mem (by decide)))

/-- Operations 229 … 237 of the straight line: the second layer's normalisation (the part of it in this window). -/
abbrev p15b : List (HloOp τ sig (Elt Ideal)) :=
  [
    binary main_v135 main_v142 main_v143 (addf (F := Ideal) (φ := .f32) : (⟨S64, .f32⟩ : BufTy).Contents (Elt Ideal) → (⟨S64, .f32⟩ : BufTy).Contents (Elt Ideal) → (⟨S64, .f32⟩ : BufTy).Contents (Elt Ideal)),
    unary main_v143 main_v144 (Host.rsqrt (F := Ideal) (φ := .f32) : (⟨S64, .f32⟩ : BufTy).Contents (Elt Ideal) → (⟨S64, .f32⟩ : BufTy).Contents (Elt Ideal)),
    unary main_v144 main_v145 (broadcastInDim S1x64 ![1] bcast_S64_S1x64_1 : (⟨S64, .f32⟩ : BufTy).Contents (Elt Ideal) → (⟨S1x64, .f32⟩ : BufTy).Contents (Elt Ideal)),
    unary main_v145 main_v146 (broadcastInDim S100000x64 ![0, 1] bcast_S1x64_S100000x64_0_1 : (⟨S1x64, .f32⟩ : BufTy).Contents (Elt Ideal) → (⟨S100000x64, .f32⟩ : BufTy).Contents (Elt Ideal)),
    binary main_v141 main_v146 main_v147 (mulf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    unary main_arg9 main_v148 (broadcastInDim S1x64 ![1] bcast_S64_S1x64_1 : (⟨S64, .f32⟩ : BufTy).Contents (Elt Ideal) → (⟨S1x64, .f32⟩ : BufTy).Contents (Elt Ideal)),
    unary main_v148 main_v149 (broadcastInDim S100000x64 ![0, 1] bcast_S1x64_S100000x64_0_1 : (⟨S1x64, .f32⟩ : BufTy).Contents (Elt Ideal) → (⟨S100000x64, .f32⟩ : BufTy).Contents (Elt Ideal)),
    binary main_v147 main_v149 main_v150 (addf (F := Ideal) (φ := .f32) : (⟨S100000x64, .f32⟩ : BufTy).Contents (Elt Ideal) → (⟨S100000x64, .f32⟩ : BufTy).Contents (Elt Ideal) → (⟨S100000x64, .f32⟩ : BufTy).Contents (Elt Ideal)),
    nullary main_cst_35 (constant (F := Ideal) S_ .f32 0x3C23D70A#32) ]

theorem p15b_sub : (p15b : List (HloOp τ sig (Elt Ideal))).Forall fun op => op.bufs ⊆ tcRefs τ sig :=
  ⟨binary_bufs_sub .., unary_bufs_sub .., unary_bufs_sub .., unary_bufs_sub .., binary_bufs_sub .., unary_bufs_sub .., unary_bufs_sub .., binary_bufs_sub .., nullary_bufs_sub ..⟩

/-- The buffers these operations write, in order. -/
abbrev p15b_W : List (Ref sig .tc) := [main_v143, main_v144, main_v145, main_v146, main_v147, main_v148, main_v149, main_v150, main_cst_35]

theorem p15b_writes : (p15b : List (HloOp τ sig (Elt Ideal))).Forall fun op =>
    op.writes ⊆ (p15b_W.map (Proc.devRef (τ := τ) .tc)).toFinset := by
  simp only [List.Forall]; exact ⟨by writes_in_list, by writes_in_list, by writes_in_list, by writes_in_list, by writes_in_list, by writes_in_list, by writes_in_list, by writes_in_list, by writes_in_list⟩

/-- Operations 238 … 244 of the straight line: the second layer's rectifier (the outlined function and its selection, at this call's buffers). -/
abbrev p16 : List (HloOp τ sig (Elt Ideal)) :=
  [
    TRef.nullary main_call3.cst (constant (F := Ideal) S_ .f32 0x00000000#32),
    TRef.unary main_call3.cst main_call3.v0 (broadcastInDim S100000x64 ![] bcast_S_S100000x64),
    TRef.binary (.of main_v150) main_call3.v0 main_call3.v1 (cmpf (F := Ideal) (φ := .f32) .oge),
    TRef.unary (.of main_cst_35) main_call3.v2 id,
    TRef.unary main_call3.v2 main_call3.v3 (broadcastInDim S100000x64 ![] bcast_S_S100000x64),
    TRef.binary main_call3.v3 (.of main_v150) main_call3.v4 (mulf (F := Ideal) (φ := .f32)),
    TRef.ternary main_call3.v1 (.of main_v150) main_call3.v4 main_call3.call0.v0 select ]

theorem p16_sub : (p16 : List (HloOp τ sig (Elt Ideal))).Forall fun op => op.bufs ⊆ tcRefs τ sig :=
  ⟨nullary_bufs_sub .., unary_bufs_sub .., binary_bufs_sub .., unary_bufs_sub .., unary_bufs_sub .., binary_bufs_sub .., ternary_bufs_sub ..⟩

/-- The buffers these operations write, in order. -/
abbrev p16_W : List (Ref sig .tc) := [main_call3_cst, main_call3_v0, main_call3_v1, main_call3_v2, main_call3_v3, main_call3_v4, main_v151]

theorem p16_writes : (p16 : List (HloOp τ sig (Elt Ideal))).Forall fun op =>
    op.writes ⊆ (p16_W.map (Proc.devRef (τ := τ) .tc)).toFinset := by
  simp only [List.Forall]; exact ⟨by writes_in_list, by writes_in_list, by writes_in_list, by writes_in_list, by writes_in_list, by writes_in_list, by writes_in_list⟩

/-- The window's operations, in order. -/
abbrev w3 : List (HloOp τ sig (Elt Ideal)) := p15b ++ (p16)

set_option maxRecDepth 16384 in
set_option maxHeartbeats 4000000 in
/-- The window's program is that straight line: the outlined functions' bodies unfold at their calls, the records at their fields, and sequencing reassociates. -/
theorem main_part3_eq (c : Dev nD) : main_part3 (F := Ideal) c = seq w3 := by
  simp only [main_part3, fn_var.body, fn_where.body, fn_leaky_relu.body, fn_where_0.body, bind_assoc, pure_bind]
  rfl

theorem w3_sub : (w3 : List (HloOp τ sig (Elt Ideal))).Forall fun op => op.bufs ⊆ tcRefs τ sig :=
  List.forall_iff_forall_mem.mpr fun op h => by
    rcases List.mem_append.mp h with h | h
    · exact List.forall_iff_forall_mem.mp p15b_sub op h
    · exact List.forall_iff_forall_mem.mp p16_sub op h

end Cert.ReferenceIdeal.RefRun

end
-- ==== Proof.RefRun5.lean ====
/-
  The contents of the reference's buffers after each stage of its straight line (stages 9 … 16), from any
  contents `V0`: `val k V0` is what the buffers hold once the first `k` stages' operations have run. For every buffer
  a later stage reads, and for the arguments, one lemma gives its contents as the named stage function
  (`RefStages`) of the argument buffers' contents in `V0`: each operation's result is its function of its
  operands' contents, a buffer a stage does not write keeps what it held, and the composed term IS the stage
  function by unfolding its definition.
-/
import proofs.«152807_j76802605187214_1_alg».proof.Proof.RefRun4
import proofs.«152807_j76802605187214_1_alg».proof.Proof.RefRun2
import proofs.«152807_j76802605187214_1_alg».proof.Proof.RefRun3

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]

/-- The buffers' contents after stage 9: the second dense product. -/
def val9 (V0 : Valuation τ sig (Elt Ideal)) : Valuation τ sig (Elt Ideal) := after p09 (val8 V0)

/-- A buffer stage 9 does not write keeps its contents through it. -/
theorem val9_keep (V0 : Valuation τ sig (Elt Ideal)) (r : Ref sig .tc) (h : r ∉ p09_W) :
    val9 V0 (Proc.devRef .tc r) = val8 V0 (Proc.devRef .tc r) := by
  exact after_of_writes_sub p09 _ p09_writes h
theorem val9_main_arg0 (V0 : Valuation τ sig (Elt Ideal)) :
    val9 V0 (no_index (Proc.devRef .tc main_arg0)) = V0 (Proc.devRef .tc main_arg0) :=
  (val9_keep V0 main_arg0 (by decide)).trans (val8_main_arg0 V0)
theorem val9_main_arg1 (V0 : Valuation τ sig (Elt Ideal)) :
    val9 V0 (no_index (Proc.devRef .tc main_arg1)) = V0 (Proc.devRef .tc main_arg1) :=
  (val9_keep V0 main_arg1 (by decide)).trans (val8_main_arg1 V0)
theorem val9_main_arg2 (V0 : Valuation τ sig (Elt Ideal)) :
    val9 V0 (no_index (Proc.devRef .tc main_arg2)) = V0 (Proc.devRef .tc main_arg2) :=
  (val9_keep V0 main_arg2 (by decide)).trans (val8_main_arg2 V0)
theorem val9_main_arg3 (V0 : Valuation τ sig (Elt Ideal)) :
    val9 V0 (no_index (Proc.devRef .tc main_arg3)) = V0 (Proc.devRef .tc main_arg3) :=
  (val9_keep V0 main_arg3 (by decide)).trans (val8_main_arg3 V0)
theorem val9_main_arg4 (V0 : Valuation τ sig (Elt Ideal)) :
    val9 V0 (no_index (Proc.devRef .tc main_arg4)) = V0 (Proc.devRef .tc main_arg4) :=
  (val9_keep V0 main_arg4 (by decide)).trans (val8_main_arg4 V0)
theorem val9_main_arg5 (V0 : Valuation τ sig (Elt Ideal)) :
    val9 V0 (no_index (Proc.devRef .tc main_arg5)) = V0 (Proc.devRef .tc main_arg5) :=
  (val9_keep V0 main_arg5 (by decide)).trans (val8_main_arg5 V0)
theorem val9_main_arg6 (V0 : Valuation τ sig (Elt Ideal)) :
    val9 V0 (no_index (Proc.devRef .tc main_arg6)) = V0 (Proc.devRef .tc main_arg6) :=
  (val9_keep V0 main_arg6 (by decide)).trans (val8_main_arg6 V0)
theorem val9_main_arg7 (V0 : Valuation τ sig (Elt Ideal)) :
    val9 V0 (no_index (Proc.devRef .tc main_arg7)) = V0 (Proc.devRef .tc main_arg7) :=
  (val9_keep V0 main_arg7 (by decide)).trans (val8_main_arg7 V0)
theorem val9_main_arg8 (V0 : Valuation τ sig (Elt Ideal)) :
    val9 V0 (no_index (Proc.devRef .tc main_arg8)) = V0 (Proc.devRef .tc main_arg8) :=
  (val9_keep V0 main_arg8 (by decide)).trans (val8_main_arg8 V0)
theorem val9_main_arg9 (V0 : Valuation τ sig (Elt Ideal)) :
    val9 V0 (no_index (Proc.devRef .tc main_arg9)) = V0 (Proc.devRef .tc main_arg9) :=
  (val9_keep V0 main_arg9 (by decide)).trans (val8_main_arg9 V0)
theorem val9_main_v1 (V0 : Valuation τ sig (Elt Ideal)) :
    val9 V0 (no_index (Proc.devRef .tc main_v1)) = RefStages.srcRaw (V0 (Proc.devRef .tc main_arg1)) :=
  (val9_keep V0 main_v1 (by decide)).trans (val8_main_v1 V0)
theorem val9_main_v3 (V0 : Valuation τ sig (Elt Ideal)) :
    val9 V0 (no_index (Proc.devRef .tc main_v3)) = RefStages.dstRaw (V0 (Proc.devRef .tc main_arg1)) :=
  (val9_keep V0 main_v3 (by decide)).trans (val8_main_v3 V0)
set_option maxRecDepth 16384 in
set_option maxHeartbeats 4000000 in
theorem val9_main_v78 (V0 : Valuation τ sig (Elt Ideal)) :
    val9 V0 (no_index (Proc.devRef .tc main_v78)) = RefStages.dot (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) := by
  unfold val9
  simp only [p09]
  after_results_simp
  all_goals (try simp only [val8_main_v77, val8_main_arg6])
  all_goals rfl

/-- The buffers' contents after stage 10: the second layer's degrees and their inverse square roots. -/
def val10 (V0 : Valuation τ sig (Elt Ideal)) : Valuation τ sig (Elt Ideal) := after p10 (val9 V0)

/-- A buffer stage 10 does not write keeps its contents through it. -/
theorem val10_keep (V0 : Valuation τ sig (Elt Ideal)) (r : Ref sig .tc) (h : r ∉ p10_W) :
    val10 V0 (Proc.devRef .tc r) = val9 V0 (Proc.devRef .tc r) := by
  exact after_of_writes_sub p10 _ p10_writes h
theorem val10_main_arg0 (V0 : Valuation τ sig (Elt Ideal)) :
    val10 V0 (no_index (Proc.devRef .tc main_arg0)) = V0 (Proc.devRef .tc main_arg0) :=
  (val10_keep V0 main_arg0 (by decide)).trans (val9_main_arg0 V0)
theorem val10_main_arg1 (V0 : Valuation τ sig (Elt Ideal)) :
    val10 V0 (no_index (Proc.devRef .tc main_arg1)) = V0 (Proc.devRef .tc main_arg1) :=
  (val10_keep V0 main_arg1 (by decide)).trans (val9_main_arg1 V0)
theorem val10_main_arg2 (V0 : Valuation τ sig (Elt Ideal)) :
    val10 V0 (no_index (Proc.devRef .tc main_arg2)) = V0 (Proc.devRef .tc main_arg2) :=
  (val10_keep V0 main_arg2 (by decide)).trans (val9_main_arg2 V0)
theorem val10_main_arg3 (V0 : Valuation τ sig (Elt Ideal)) :
    val10 V0 (no_index (Proc.devRef .tc main_arg3)) = V0 (Proc.devRef .tc main_arg3) :=
  (val10_keep V0 main_arg3 (by decide)).trans (val9_main_arg3 V0)
theorem val10_main_arg4 (V0 : Valuation τ sig (Elt Ideal)) :
    val10 V0 (no_index (Proc.devRef .tc main_arg4)) = V0 (Proc.devRef .tc main_arg4) :=
  (val10_keep V0 main_arg4 (by decide)).trans (val9_main_arg4 V0)
theorem val10_main_arg5 (V0 : Valuation τ sig (Elt Ideal)) :
    val10 V0 (no_index (Proc.devRef .tc main_arg5)) = V0 (Proc.devRef .tc main_arg5) :=
  (val10_keep V0 main_arg5 (by decide)).trans (val9_main_arg5 V0)
theorem val10_main_arg6 (V0 : Valuation τ sig (Elt Ideal)) :
    val10 V0 (no_index (Proc.devRef .tc main_arg6)) = V0 (Proc.devRef .tc main_arg6) :=
  (val10_keep V0 main_arg6 (by decide)).trans (val9_main_arg6 V0)
theorem val10_main_arg7 (V0 : Valuation τ sig (Elt Ideal)) :
    val10 V0 (no_index (Proc.devRef .tc main_arg7)) = V0 (Proc.devRef .tc main_arg7) :=
  (val10_keep V0 main_arg7 (by decide)).trans (val9_main_arg7 V0)
theorem val10_main_arg8 (V0 : Valuation τ sig (Elt Ideal)) :
    val10 V0 (no_index (Proc.devRef .tc main_arg8)) = V0 (Proc.devRef .tc main_arg8) :=
  (val10_keep V0 main_arg8 (by decide)).trans (val9_main_arg8 V0)
theorem val10_main_arg9 (V0 : Valuation τ sig (Elt Ideal)) :
    val10 V0 (no_index (Proc.devRef .tc main_arg9)) = V0 (Proc.devRef .tc main_arg9) :=
  (val10_keep V0 main_arg9 (by decide)).trans (val9_main_arg9 V0)
theorem val10_main_v1 (V0 : Valuation τ sig (Elt Ideal)) :
    val10 V0 (no_index (Proc.devRef .tc main_v1)) = RefStages.srcRaw (V0 (Proc.devRef .tc main_arg1)) :=
  (val10_keep V0 main_v1 (by decide)).trans (val9_main_v1 V0)
theorem val10_main_v3 (V0 : Valuation τ sig (Elt Ideal)) :
    val10 V0 (no_index (Proc.devRef .tc main_v3)) = RefStages.dstRaw (V0 (Proc.devRef .tc main_arg1)) :=
  (val10_keep V0 main_v3 (by decide)).trans (val9_main_v3 V0)
theorem val10_main_v78 (V0 : Valuation τ sig (Elt Ideal)) :
    val10 V0 (no_index (Proc.devRef .tc main_v78)) = RefStages.dot (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) :=
  (val10_keep V0 main_v78 (by decide)).trans (val9_main_v78 V0)
set_option maxRecDepth 16384 in
set_option maxHeartbeats 4000000 in
theorem val10_main_v90 (V0 : Valuation τ sig (Elt Ideal)) :
    val10 V0 (no_index (Proc.devRef .tc main_v90)) = RefStages.dinv (V0 (Proc.devRef .tc main_arg1)) := by
  unfold val10
  simp only [p10]
  after_results_simp
  all_goals (try simp only [val9_main_v3])
  all_goals rfl

/-- The buffers' contents after stage 11: the second layer's edge weights. -/
def val11 (V0 : Valuation τ sig (Elt Ideal)) : Valuation τ sig (Elt Ideal) := after p11b (after p11a (val10 V0))

/-- A buffer stage 11 does not write keeps its contents through it. -/
theorem val11_keep (V0 : Valuation τ sig (Elt Ideal)) (r : Ref sig .tc) (h : r ∉ p11a_W ++ p11b_W) :
    val11 V0 (Proc.devRef .tc r) = val10 V0 (Proc.devRef .tc r) := by
  rw [List.mem_append, not_or] at h
  exact (after_of_writes_sub p11b _ p11b_writes h.2).trans (after_of_writes_sub p11a _ p11a_writes h.1)
theorem val11_main_arg0 (V0 : Valuation τ sig (Elt Ideal)) :
    val11 V0 (no_index (Proc.devRef .tc main_arg0)) = V0 (Proc.devRef .tc main_arg0) :=
  (val11_keep V0 main_arg0 (by decide)).trans (val10_main_arg0 V0)
theorem val11_main_arg1 (V0 : Valuation τ sig (Elt Ideal)) :
    val11 V0 (no_index (Proc.devRef .tc main_arg1)) = V0 (Proc.devRef .tc main_arg1) :=
  (val11_keep V0 main_arg1 (by decide)).trans (val10_main_arg1 V0)
theorem val11_main_arg2 (V0 : Valuation τ sig (Elt Ideal)) :
    val11 V0 (no_index (Proc.devRef .tc main_arg2)) = V0 (Proc.devRef .tc main_arg2) :=
  (val11_keep V0 main_arg2 (by decide)).trans (val10_main_arg2 V0)
theorem val11_main_arg3 (V0 : Valuation τ sig (Elt Ideal)) :
    val11 V0 (no_index (Proc.devRef .tc main_arg3)) = V0 (Proc.devRef .tc main_arg3) :=
  (val11_keep V0 main_arg3 (by decide)).trans (val10_main_arg3 V0)
theorem val11_main_arg4 (V0 : Valuation τ sig (Elt Ideal)) :
    val11 V0 (no_index (Proc.devRef .tc main_arg4)) = V0 (Proc.devRef .tc main_arg4) :=
  (val11_keep V0 main_arg4 (by decide)).trans (val10_main_arg4 V0)
theorem val11_main_arg5 (V0 : Valuation τ sig (Elt Ideal)) :
    val11 V0 (no_index (Proc.devRef .tc main_arg5)) = V0 (Proc.devRef .tc main_arg5) :=
  (val11_keep V0 main_arg5 (by decide)).trans (val10_main_arg5 V0)
theorem val11_main_arg6 (V0 : Valuation τ sig (Elt Ideal)) :
    val11 V0 (no_index (Proc.devRef .tc main_arg6)) = V0 (Proc.devRef .tc main_arg6) :=
  (val11_keep V0 main_arg6 (by decide)).trans (val10_main_arg6 V0)
theorem val11_main_arg7 (V0 : Valuation τ sig (Elt Ideal)) :
    val11 V0 (no_index (Proc.devRef .tc main_arg7)) = V0 (Proc.devRef .tc main_arg7) :=
  (val11_keep V0 main_arg7 (by decide)).trans (val10_main_arg7 V0)
theorem val11_main_arg8 (V0 : Valuation τ sig (Elt Ideal)) :
    val11 V0 (no_index (Proc.devRef .tc main_arg8)) = V0 (Proc.devRef .tc main_arg8) :=
  (val11_keep V0 main_arg8 (by decide)).trans (val10_main_arg8 V0)
theorem val11_main_arg9 (V0 : Valuation τ sig (Elt Ideal)) :
    val11 V0 (no_index (Proc.devRef .tc main_arg9)) = V0 (Proc.devRef .tc main_arg9) :=
  (val11_keep V0 main_arg9 (by decide)).trans (val10_main_arg9 V0)
theorem val11_main_v1 (V0 : Valuation τ sig (Elt Ideal)) :
    val11 V0 (no_index (Proc.devRef .tc main_v1)) = RefStages.srcRaw (V0 (Proc.devRef .tc main_arg1)) :=
  (val11_keep V0 main_v1 (by decide)).trans (val10_main_v1 V0)
theorem val11_main_v3 (V0 : Valuation τ sig (Elt Ideal)) :
    val11 V0 (no_index (Proc.devRef .tc main_v3)) = RefStages.dstRaw (V0 (Proc.devRef .tc main_arg1)) :=
  (val11_keep V0 main_v3 (by decide)).trans (val10_main_v3 V0)
theorem val11_main_v78 (V0 : Valuation τ sig (Elt Ideal)) :
    val11 V0 (no_index (Proc.devRef .tc main_v78)) = RefStages.dot (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) :=
  (val11_keep V0 main_v78 (by decide)).trans (val10_main_v78 V0)
theorem val11_main_v90 (V0 : Valuation τ sig (Elt Ideal)) :
    val11 V0 (no_index (Proc.devRef .tc main_v90)) = RefStages.dinv (V0 (Proc.devRef .tc main_arg1)) :=
  (val11_keep V0 main_v90 (by decide)).trans (val10_main_v90 V0)
set_option maxRecDepth 16384 in
set_option maxHeartbeats 4000000 in
theorem val11_main_v105 (V0 : Valuation τ sig (Elt Ideal)) :
    val11 V0 (no_index (Proc.devRef .tc main_v105)) = RefStages.edgeNorm (V0 (Proc.devRef .tc main_arg1)) := by
  unfold val11
  simp only [p11a, p11b]
  after_results_simp
  all_goals (try simp only [val10_main_v1, val10_main_v90, val10_main_v3])
  all_goals rfl

/-- The buffers' contents after stage 12: the second layer's aggregation, self loops and bias. -/
def val12 (V0 : Valuation τ sig (Elt Ideal)) : Valuation τ sig (Elt Ideal) := after p12 (val11 V0)

/-- A buffer stage 12 does not write keeps its contents through it. -/
theorem val12_keep (V0 : Valuation τ sig (Elt Ideal)) (r : Ref sig .tc) (h : r ∉ p12_W) :
    val12 V0 (Proc.devRef .tc r) = val11 V0 (Proc.devRef .tc r) := by
  exact after_of_writes_sub p12 _ p12_writes h
theorem val12_main_arg0 (V0 : Valuation τ sig (Elt Ideal)) :
    val12 V0 (no_index (Proc.devRef .tc main_arg0)) = V0 (Proc.devRef .tc main_arg0) :=
  (val12_keep V0 main_arg0 (by decide)).trans (val11_main_arg0 V0)
theorem val12_main_arg1 (V0 : Valuation τ sig (Elt Ideal)) :
    val12 V0 (no_index (Proc.devRef .tc main_arg1)) = V0 (Proc.devRef .tc main_arg1) :=
  (val12_keep V0 main_arg1 (by decide)).trans (val11_main_arg1 V0)
theorem val12_main_arg2 (V0 : Valuation τ sig (Elt Ideal)) :
    val12 V0 (no_index (Proc.devRef .tc main_arg2)) = V0 (Proc.devRef .tc main_arg2) :=
  (val12_keep V0 main_arg2 (by decide)).trans (val11_main_arg2 V0)
theorem val12_main_arg3 (V0 : Valuation τ sig (Elt Ideal)) :
    val12 V0 (no_index (Proc.devRef .tc main_arg3)) = V0 (Proc.devRef .tc main_arg3) :=
  (val12_keep V0 main_arg3 (by decide)).trans (val11_main_arg3 V0)
theorem val12_main_arg4 (V0 : Valuation τ sig (Elt Ideal)) :
    val12 V0 (no_index (Proc.devRef .tc main_arg4)) = V0 (Proc.devRef .tc main_arg4) :=
  (val12_keep V0 main_arg4 (by decide)).trans (val11_main_arg4 V0)
theorem val12_main_arg5 (V0 : Valuation τ sig (Elt Ideal)) :
    val12 V0 (no_index (Proc.devRef .tc main_arg5)) = V0 (Proc.devRef .tc main_arg5) :=
  (val12_keep V0 main_arg5 (by decide)).trans (val11_main_arg5 V0)
theorem val12_main_arg6 (V0 : Valuation τ sig (Elt Ideal)) :
    val12 V0 (no_index (Proc.devRef .tc main_arg6)) = V0 (Proc.devRef .tc main_arg6) :=
  (val12_keep V0 main_arg6 (by decide)).trans (val11_main_arg6 V0)
theorem val12_main_arg7 (V0 : Valuation τ sig (Elt Ideal)) :
    val12 V0 (no_index (Proc.devRef .tc main_arg7)) = V0 (Proc.devRef .tc main_arg7) :=
  (val12_keep V0 main_arg7 (by decide)).trans (val11_main_arg7 V0)
theorem val12_main_arg8 (V0 : Valuation τ sig (Elt Ideal)) :
    val12 V0 (no_index (Proc.devRef .tc main_arg8)) = V0 (Proc.devRef .tc main_arg8) :=
  (val12_keep V0 main_arg8 (by decide)).trans (val11_main_arg8 V0)
theorem val12_main_arg9 (V0 : Valuation τ sig (Elt Ideal)) :
    val12 V0 (no_index (Proc.devRef .tc main_arg9)) = V0 (Proc.devRef .tc main_arg9) :=
  (val12_keep V0 main_arg9 (by decide)).trans (val11_main_arg9 V0)
set_option maxRecDepth 16384 in
set_option maxHeartbeats 4000000 in
theorem val12_main_v131 (V0 : Valuation τ sig (Elt Ideal)) :
    val12 V0 (no_index (Proc.devRef .tc main_v131)) = RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7)) := by
  unfold val12
  simp only [p12]
  after_results_simp
  all_goals (try simp only [val11_main_v105, val11_main_v1, val11_main_v78, val11_main_v3, val11_main_v90, val11_main_arg7])
  all_goals rfl

/-- The buffers' contents after stage 13: the second layer's column means. -/
def val13 (V0 : Valuation τ sig (Elt Ideal)) : Valuation τ sig (Elt Ideal) := after p13 (val12 V0)

/-- A buffer stage 13 does not write keeps its contents through it. -/
theorem val13_keep (V0 : Valuation τ sig (Elt Ideal)) (r : Ref sig .tc) (h : r ∉ p13_W) :
    val13 V0 (Proc.devRef .tc r) = val12 V0 (Proc.devRef .tc r) := by
  exact after_of_writes_sub p13 _ p13_writes h
theorem val13_main_arg0 (V0 : Valuation τ sig (Elt Ideal)) :
    val13 V0 (no_index (Proc.devRef .tc main_arg0)) = V0 (Proc.devRef .tc main_arg0) :=
  (val13_keep V0 main_arg0 (by decide)).trans (val12_main_arg0 V0)
theorem val13_main_arg1 (V0 : Valuation τ sig (Elt Ideal)) :
    val13 V0 (no_index (Proc.devRef .tc main_arg1)) = V0 (Proc.devRef .tc main_arg1) :=
  (val13_keep V0 main_arg1 (by decide)).trans (val12_main_arg1 V0)
theorem val13_main_arg2 (V0 : Valuation τ sig (Elt Ideal)) :
    val13 V0 (no_index (Proc.devRef .tc main_arg2)) = V0 (Proc.devRef .tc main_arg2) :=
  (val13_keep V0 main_arg2 (by decide)).trans (val12_main_arg2 V0)
theorem val13_main_arg3 (V0 : Valuation τ sig (Elt Ideal)) :
    val13 V0 (no_index (Proc.devRef .tc main_arg3)) = V0 (Proc.devRef .tc main_arg3) :=
  (val13_keep V0 main_arg3 (by decide)).trans (val12_main_arg3 V0)
theorem val13_main_arg4 (V0 : Valuation τ sig (Elt Ideal)) :
    val13 V0 (no_index (Proc.devRef .tc main_arg4)) = V0 (Proc.devRef .tc main_arg4) :=
  (val13_keep V0 main_arg4 (by decide)).trans (val12_main_arg4 V0)
theorem val13_main_arg5 (V0 : Valuation τ sig (Elt Ideal)) :
    val13 V0 (no_index (Proc.devRef .tc main_arg5)) = V0 (Proc.devRef .tc main_arg5) :=
  (val13_keep V0 main_arg5 (by decide)).trans (val12_main_arg5 V0)
theorem val13_main_arg6 (V0 : Valuation τ sig (Elt Ideal)) :
    val13 V0 (no_index (Proc.devRef .tc main_arg6)) = V0 (Proc.devRef .tc main_arg6) :=
  (val13_keep V0 main_arg6 (by decide)).trans (val12_main_arg6 V0)
theorem val13_main_arg7 (V0 : Valuation τ sig (Elt Ideal)) :
    val13 V0 (no_index (Proc.devRef .tc main_arg7)) = V0 (Proc.devRef .tc main_arg7) :=
  (val13_keep V0 main_arg7 (by decide)).trans (val12_main_arg7 V0)
theorem val13_main_arg8 (V0 : Valuation τ sig (Elt Ideal)) :
    val13 V0 (no_index (Proc.devRef .tc main_arg8)) = V0 (Proc.devRef .tc main_arg8) :=
  (val13_keep V0 main_arg8 (by decide)).trans (val12_main_arg8 V0)
theorem val13_main_arg9 (V0 : Valuation τ sig (Elt Ideal)) :
    val13 V0 (no_index (Proc.devRef .tc main_arg9)) = V0 (Proc.devRef .tc main_arg9) :=
  (val13_keep V0 main_arg9 (by decide)).trans (val12_main_arg9 V0)
theorem val13_main_v131 (V0 : Valuation τ sig (Elt Ideal)) :
    val13 V0 (no_index (Proc.devRef .tc main_v131)) = RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7)) :=
  (val13_keep V0 main_v131 (by decide)).trans (val12_main_v131 V0)
set_option maxRecDepth 16384 in
set_option maxHeartbeats 4000000 in
theorem val13_main_v134 (V0 : Valuation τ sig (Elt Ideal)) :
    val13 V0 (no_index (Proc.devRef .tc main_v134)) = RefStages.mean (RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7))) := by
  unfold val13
  simp only [p13]
  after_results_simp
  all_goals (try simp only [val12_main_v131])
  all_goals rfl
set_option maxRecDepth 16384 in
set_option maxHeartbeats 4000000 in
theorem val13_main_c_33 (V0 : Valuation τ sig (Elt Ideal)) :
    val13 V0 (no_index (Proc.devRef .tc main_c_33)) = constantI S_ 32 0#32 := by
  unfold val13
  simp only [p13]
  after_results_simp
  all_goals (try simp only [val12_main_v131])
  all_goals rfl

/-- The buffers' contents after stage 14: the second layer's column variances (the outlined variance and its selection, at this call's buffers). -/
def val14 (V0 : Valuation τ sig (Elt Ideal)) : Valuation τ sig (Elt Ideal) := after p14 (val13 V0)

/-- A buffer stage 14 does not write keeps its contents through it. -/
theorem val14_keep (V0 : Valuation τ sig (Elt Ideal)) (r : Ref sig .tc) (h : r ∉ p14_W) :
    val14 V0 (Proc.devRef .tc r) = val13 V0 (Proc.devRef .tc r) := by
  exact after_of_writes_sub p14 _ p14_writes h
theorem val14_main_arg0 (V0 : Valuation τ sig (Elt Ideal)) :
    val14 V0 (no_index (Proc.devRef .tc main_arg0)) = V0 (Proc.devRef .tc main_arg0) :=
  (val14_keep V0 main_arg0 (by decide)).trans (val13_main_arg0 V0)
theorem val14_main_arg1 (V0 : Valuation τ sig (Elt Ideal)) :
    val14 V0 (no_index (Proc.devRef .tc main_arg1)) = V0 (Proc.devRef .tc main_arg1) :=
  (val14_keep V0 main_arg1 (by decide)).trans (val13_main_arg1 V0)
theorem val14_main_arg2 (V0 : Valuation τ sig (Elt Ideal)) :
    val14 V0 (no_index (Proc.devRef .tc main_arg2)) = V0 (Proc.devRef .tc main_arg2) :=
  (val14_keep V0 main_arg2 (by decide)).trans (val13_main_arg2 V0)
theorem val14_main_arg3 (V0 : Valuation τ sig (Elt Ideal)) :
    val14 V0 (no_index (Proc.devRef .tc main_arg3)) = V0 (Proc.devRef .tc main_arg3) :=
  (val14_keep V0 main_arg3 (by decide)).trans (val13_main_arg3 V0)
theorem val14_main_arg4 (V0 : Valuation τ sig (Elt Ideal)) :
    val14 V0 (no_index (Proc.devRef .tc main_arg4)) = V0 (Proc.devRef .tc main_arg4) :=
  (val14_keep V0 main_arg4 (by decide)).trans (val13_main_arg4 V0)
theorem val14_main_arg5 (V0 : Valuation τ sig (Elt Ideal)) :
    val14 V0 (no_index (Proc.devRef .tc main_arg5)) = V0 (Proc.devRef .tc main_arg5) :=
  (val14_keep V0 main_arg5 (by decide)).trans (val13_main_arg5 V0)
theorem val14_main_arg6 (V0 : Valuation τ sig (Elt Ideal)) :
    val14 V0 (no_index (Proc.devRef .tc main_arg6)) = V0 (Proc.devRef .tc main_arg6) :=
  (val14_keep V0 main_arg6 (by decide)).trans (val13_main_arg6 V0)
theorem val14_main_arg7 (V0 : Valuation τ sig (Elt Ideal)) :
    val14 V0 (no_index (Proc.devRef .tc main_arg7)) = V0 (Proc.devRef .tc main_arg7) :=
  (val14_keep V0 main_arg7 (by decide)).trans (val13_main_arg7 V0)
theorem val14_main_arg8 (V0 : Valuation τ sig (Elt Ideal)) :
    val14 V0 (no_index (Proc.devRef .tc main_arg8)) = V0 (Proc.devRef .tc main_arg8) :=
  (val14_keep V0 main_arg8 (by decide)).trans (val13_main_arg8 V0)
theorem val14_main_arg9 (V0 : Valuation τ sig (Elt Ideal)) :
    val14 V0 (no_index (Proc.devRef .tc main_arg9)) = V0 (Proc.devRef .tc main_arg9) :=
  (val14_keep V0 main_arg9 (by decide)).trans (val13_main_arg9 V0)
theorem val14_main_v131 (V0 : Valuation τ sig (Elt Ideal)) :
    val14 V0 (no_index (Proc.devRef .tc main_v131)) = RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7)) :=
  (val14_keep V0 main_v131 (by decide)).trans (val13_main_v131 V0)
theorem val14_main_v134 (V0 : Valuation τ sig (Elt Ideal)) :
    val14 V0 (no_index (Proc.devRef .tc main_v134)) = RefStages.mean (RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7))) :=
  (val14_keep V0 main_v134 (by decide)).trans (val13_main_v134 V0)
set_option maxRecDepth 16384 in
set_option maxHeartbeats 4000000 in
theorem val14_main_v135 (V0 : Valuation τ sig (Elt Ideal)) :
    val14 V0 (no_index (Proc.devRef .tc main_v135)) = RefStages.var (RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7))) := by
  unfold val14
  simp only [p14]
  after_results_simp
  all_goals (try simp only [val13_main_v131, val13_main_c_33, Cert.LibHostReads.ofBuf_toBuf, ofBuf_main_v131, ofBuf_main_c_33, toBuf_main_v135])
  all_goals rfl

/-- The buffers' contents after stage 15: the second layer's normalisation. -/
def val15 (V0 : Valuation τ sig (Elt Ideal)) : Valuation τ sig (Elt Ideal) := after p15b (after p15a (val14 V0))

/-- A buffer stage 15 does not write keeps its contents through it. -/
theorem val15_keep (V0 : Valuation τ sig (Elt Ideal)) (r : Ref sig .tc) (h : r ∉ p15a_W ++ p15b_W) :
    val15 V0 (Proc.devRef .tc r) = val14 V0 (Proc.devRef .tc r) := by
  rw [List.mem_append, not_or] at h
  exact (after_of_writes_sub p15b _ p15b_writes h.2).trans (after_of_writes_sub p15a _ p15a_writes h.1)
theorem val15_main_arg0 (V0 : Valuation τ sig (Elt Ideal)) :
    val15 V0 (no_index (Proc.devRef .tc main_arg0)) = V0 (Proc.devRef .tc main_arg0) :=
  (val15_keep V0 main_arg0 (by decide)).trans (val14_main_arg0 V0)
theorem val15_main_arg1 (V0 : Valuation τ sig (Elt Ideal)) :
    val15 V0 (no_index (Proc.devRef .tc main_arg1)) = V0 (Proc.devRef .tc main_arg1) :=
  (val15_keep V0 main_arg1 (by decide)).trans (val14_main_arg1 V0)
theorem val15_main_arg2 (V0 : Valuation τ sig (Elt Ideal)) :
    val15 V0 (no_index (Proc.devRef .tc main_arg2)) = V0 (Proc.devRef .tc main_arg2) :=
  (val15_keep V0 main_arg2 (by decide)).trans (val14_main_arg2 V0)
theorem val15_main_arg3 (V0 : Valuation τ sig (Elt Ideal)) :
    val15 V0 (no_index (Proc.devRef .tc main_arg3)) = V0 (Proc.devRef .tc main_arg3) :=
  (val15_keep V0 main_arg3 (by decide)).trans (val14_main_arg3 V0)
theorem val15_main_arg4 (V0 : Valuation τ sig (Elt Ideal)) :
    val15 V0 (no_index (Proc.devRef .tc main_arg4)) = V0 (Proc.devRef .tc main_arg4) :=
  (val15_keep V0 main_arg4 (by decide)).trans (val14_main_arg4 V0)
theorem val15_main_arg5 (V0 : Valuation τ sig (Elt Ideal)) :
    val15 V0 (no_index (Proc.devRef .tc main_arg5)) = V0 (Proc.devRef .tc main_arg5) :=
  (val15_keep V0 main_arg5 (by decide)).trans (val14_main_arg5 V0)
theorem val15_main_arg6 (V0 : Valuation τ sig (Elt Ideal)) :
    val15 V0 (no_index (Proc.devRef .tc main_arg6)) = V0 (Proc.devRef .tc main_arg6) :=
  (val15_keep V0 main_arg6 (by decide)).trans (val14_main_arg6 V0)
theorem val15_main_arg7 (V0 : Valuation τ sig (Elt Ideal)) :
    val15 V0 (no_index (Proc.devRef .tc main_arg7)) = V0 (Proc.devRef .tc main_arg7) :=
  (val15_keep V0 main_arg7 (by decide)).trans (val14_main_arg7 V0)
theorem val15_main_arg8 (V0 : Valuation τ sig (Elt Ideal)) :
    val15 V0 (no_index (Proc.devRef .tc main_arg8)) = V0 (Proc.devRef .tc main_arg8) :=
  (val15_keep V0 main_arg8 (by decide)).trans (val14_main_arg8 V0)
theorem val15_main_arg9 (V0 : Valuation τ sig (Elt Ideal)) :
    val15 V0 (no_index (Proc.devRef .tc main_arg9)) = V0 (Proc.devRef .tc main_arg9) :=
  (val15_keep V0 main_arg9 (by decide)).trans (val14_main_arg9 V0)
set_option maxRecDepth 16384 in
set_option maxHeartbeats 4000000 in
theorem val15_main_v150 (V0 : Valuation τ sig (Elt Ideal)) :
    val15 V0 (no_index (Proc.devRef .tc main_v150)) = RefStages.bn (RefStages.conv (V0 (Proc.devRef .tc main_arg1)) (RefStages.layer (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9)) := by
  unfold val15
  simp only [p15a, p15b]
  after_results_simp
  all_goals (try simp only [val14_main_v134, val14_main_v131, val14_main_arg8, val14_main_v135, val14_main_arg9])
  all_goals rfl
set_option maxRecDepth 16384 in
set_option maxHeartbeats 4000000 in
theorem val15_main_cst_35 (V0 : Valuation τ sig (Elt Ideal)) :
    val15 V0 (no_index (Proc.devRef .tc main_cst_35)) = constant (F := Ideal) S_ .f32 0x3C23D70A#32 := by
  unfold val15
  simp only [p15a, p15b]
  after_results_simp
  all_goals (try simp only [val14_main_v134, val14_main_v131, val14_main_arg8, val14_main_v135, val14_main_arg9])
  all_goals rfl

/-- The buffers' contents after stage 16: the second layer's rectifier (the outlined function and its selection, at this call's buffers). -/
def val16 (V0 : Valuation τ sig (Elt Ideal)) : Valuation τ sig (Elt Ideal) := after p16 (val15 V0)

/-- A buffer stage 16 does not write keeps its contents through it. -/
theorem val16_keep (V0 : Valuation τ sig (Elt Ideal)) (r : Ref sig .tc) (h : r ∉ p16_W) :
    val16 V0 (Proc.devRef .tc r) = val15 V0 (Proc.devRef .tc r) := by
  exact after_of_writes_sub p16 _ p16_writes h
theorem val16_main_arg0 (V0 : Valuation τ sig (Elt Ideal)) :
    val16 V0 (no_index (Proc.devRef .tc main_arg0)) = V0 (Proc.devRef .tc main_arg0) :=
  (val16_keep V0 main_arg0 (by decide)).trans (val15_main_arg0 V0)
theorem val16_main_arg1 (V0 : Valuation τ sig (Elt Ideal)) :
    val16 V0 (no_index (Proc.devRef .tc main_arg1)) = V0 (Proc.devRef .tc main_arg1) :=
  (val16_keep V0 main_arg1 (by decide)).trans (val15_main_arg1 V0)
theorem val16_main_arg2 (V0 : Valuation τ sig (Elt Ideal)) :
    val16 V0 (no_index (Proc.devRef .tc main_arg2)) = V0 (Proc.devRef .tc main_arg2) :=
  (val16_keep V0 main_arg2 (by decide)).trans (val15_main_arg2 V0)
theorem val16_main_arg3 (V0 : Valuation τ sig (Elt Ideal)) :
    val16 V0 (no_index (Proc.devRef .tc main_arg3)) = V0 (Proc.devRef .tc main_arg3) :=
  (val16_keep V0 main_arg3 (by decide)).trans (val15_main_arg3 V0)
theorem val16_main_arg4 (V0 : Valuation τ sig (Elt Ideal)) :
    val16 V0 (no_index (Proc.devRef .tc main_arg4)) = V0 (Proc.devRef .tc main_arg4) :=
  (val16_keep V0 main_arg4 (by decide)).trans (val15_main_arg4 V0)
theorem val16_main_arg5 (V0 : Valuation τ sig (Elt Ideal)) :
    val16 V0 (no_index (Proc.devRef .tc main_arg5)) = V0 (Proc.devRef .tc main_arg5) :=
  (val16_keep V0 main_arg5 (by decide)).trans (val15_main_arg5 V0)
theorem val16_main_arg6 (V0 : Valuation τ sig (Elt Ideal)) :
    val16 V0 (no_index (Proc.devRef .tc main_arg6)) = V0 (Proc.devRef .tc main_arg6) :=
  (val16_keep V0 main_arg6 (by decide)).trans (val15_main_arg6 V0)
theorem val16_main_arg7 (V0 : Valuation τ sig (Elt Ideal)) :
    val16 V0 (no_index (Proc.devRef .tc main_arg7)) = V0 (Proc.devRef .tc main_arg7) :=
  (val16_keep V0 main_arg7 (by decide)).trans (val15_main_arg7 V0)
theorem val16_main_arg8 (V0 : Valuation τ sig (Elt Ideal)) :
    val16 V0 (no_index (Proc.devRef .tc main_arg8)) = V0 (Proc.devRef .tc main_arg8) :=
  (val16_keep V0 main_arg8 (by decide)).trans (val15_main_arg8 V0)
theorem val16_main_arg9 (V0 : Valuation τ sig (Elt Ideal)) :
    val16 V0 (no_index (Proc.devRef .tc main_arg9)) = V0 (Proc.devRef .tc main_arg9) :=
  (val16_keep V0 main_arg9 (by decide)).trans (val15_main_arg9 V0)
set_option maxRecDepth 16384 in
set_option maxHeartbeats 4000000 in
theorem val16_main_v151 (V0 : Valuation τ sig (Elt Ideal)) :
    val16 V0 (no_index (Proc.devRef .tc main_v151)) = RefStages.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val16
  simp only [p16]
  after_results_simp
  all_goals (try simp only [val15_main_v150, val15_main_cst_35, Cert.LibHostReads.ofBuf_toBuf, ofBuf_main_v150, ofBuf_main_cst_35, toBuf_main_v151])
  all_goals rfl

end Cert.ReferenceIdeal.RefRun

end
-- ==== Proof.RefRun.lean ====
/-
  The reference program's run, at the ideal values. Its straight line of 244 operations (the four printed windows,
  each call of an outlined function replaced by its body's operations at the call's own buffers) runs from any
  memory with zero counters to a state in which the result buffer holds `RefStages.out` of the argument arrays —
  two graph-convolution layers over the same edge list — and every argument array is unchanged: the run of a
  straight line leaves each buffer at the fold of the operations' results over the launch contents, and that
  fold, stage by stage, is the named stage function of the arguments.
-/
import proofs.«152807_j76802605187214_1_alg».proof.Proof.RefRun5
import proofs.«152807_j76802605187214_1_alg».proof.Defs
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

section

variable [Cert.ReferenceIdeal.Facts]

/-- The whole straight line: the four windows in order. -/
abbrev ops : List (HloOp τ sig (Elt Ideal)) := w0 ++ (w1 ++ (w2 ++ w3))

set_option maxRecDepth 16384 in
/-- The program is that straight line: its four windows in sequence, each the straight line of its own list. -/
theorem main_eq (c : Dev nD) : main (F := Ideal) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt Ideal))).Forall fun op => op.bufs ⊆ tcRefs τ sig :=
  List.forall_iff_forall_mem.mpr fun op h => by
    rcases List.mem_append.mp h with h | h
    · exact List.forall_iff_forall_mem.mp w0_sub op h
    rcases List.mem_append.mp h with h | h
    · exact List.forall_iff_forall_mem.mp w1_sub op h
    rcases List.mem_append.mp h with h | h
    · exact List.forall_iff_forall_mem.mp w2_sub op h
    · exact List.forall_iff_forall_mem.mp w3_sub op h

theorem p01_fresh : ∀ op ∈ (p01 : List (HloOp τ sig (Elt Ideal))), op.fresh = ∅ := by
  intro op h; (repeat (cases h with | head => rfl | tail _ h => ?_)); exact nomatch h
theorem p02_fresh : ∀ op ∈ (p02 : List (HloOp τ sig (Elt Ideal))), op.fresh = ∅ := by
  intro op h; (repeat (cases h with | head => rfl | tail _ h => ?_)); exact nomatch h
theorem p03_fresh : ∀ op ∈ (p03 : List (HloOp τ sig (Elt Ideal))), op.fresh = ∅ := by
  intro op h; (repeat (cases h with | head => rfl | tail _ h => ?_)); exact nomatch h
theorem p04a_fresh : ∀ op ∈ (p04a : List (HloOp τ sig (Elt Ideal))), op.fresh = ∅ := by
  intro op h; (repeat (cases h with | head => rfl | tail _ h => ?_)); exact nomatch h
theorem p04b_fresh : ∀ op ∈ (p04b : List (HloOp τ sig (Elt Ideal))), op.fresh = ∅ := by
  intro op h; (repeat (cases h with | head => rfl | tail _ h => ?_)); exact nomatch h
theorem p05_fresh : ∀ op ∈ (p05 : List (HloOp τ sig (Elt Ideal))), op.fresh = ∅ := by
  intro op h; (repeat (cases h with | head => rfl | tail _ h => ?_)); exact nomatch h
theorem p06_fresh : ∀ op ∈ (p06 : List (HloOp τ sig (Elt Ideal))), op.fresh = ∅ := by
  intro op h; (repeat (cases h with | head => rfl | tail _ h => ?_)); exact nomatch h
theorem p07_fresh : ∀ op ∈ (p07 : List (HloOp τ sig (Elt Ideal))), op.fresh = ∅ := by
  intro op h; (repeat (cases h with | head => rfl | tail _ h => ?_)); exact nomatch h
theorem p08_fresh : ∀ op ∈ (p08 : List (HloOp τ sig (Elt Ideal))), op.fresh = ∅ := by
  intro op h; (repeat (cases h with | head => rfl | tail _ h => ?_)); exact nomatch h
theorem p09_fresh : ∀ op ∈ (p09 : List (HloOp τ sig (Elt Ideal))), op.fresh = ∅ := by
  intro op h; (repeat (cases h with | head => rfl | tail _ h => ?_)); exact nomatch h
theorem p10_fresh : ∀ op ∈ (p10 : List (HloOp τ sig (Elt Ideal))), op.fresh = ∅ := by
  intro op h; (repeat (cases h with | head => rfl | tail _ h => ?_)); exact nomatch h
theorem p11a_fresh : ∀ op ∈ (p11a : List (HloOp τ sig (Elt Ideal))), op.fresh = ∅ := by
  intro op h; (repeat (cases h with | head => rfl | tail _ h => ?_)); exact nomatch h
theorem p11b_fresh : ∀ op ∈ (p11b : List (HloOp τ sig (Elt Ideal))), op.fresh = ∅ := by
  intro op h; (repeat (cases h with | head => rfl | tail _ h => ?_)); exact nomatch h
theorem p12_fresh : ∀ op ∈ (p12 : List (HloOp τ sig (Elt Ideal))), op.fresh = ∅ := by
  intro op h; (repeat (cases h with | head => rfl | tail _ h => ?_)); exact nomatch h
theorem p13_fresh : ∀ op ∈ (p13 : List (HloOp τ sig (Elt Ideal))), op.fresh = ∅ := by
  intro op h; (repeat (cases h with | head => rfl | tail _ h => ?_)); exact nomatch h
theorem p14_fresh : ∀ op ∈ (p14 : List (HloOp τ sig (Elt Ideal))), op.fresh = ∅ := by
  intro op h; (repeat (cases h with | head => rfl | tail _ h => ?_)); exact nomatch h
theorem p15a_fresh : ∀ op ∈ (p15a : List (HloOp τ sig (Elt Ideal))), op.fresh = ∅ := by
  intro op h; (repeat (cases h with | head => rfl | tail _ h => ?_)); exact nomatch h
theorem p15b_fresh : ∀ op ∈ (p15b : List (HloOp τ sig (Elt Ideal))), op.fresh = ∅ := by
  intro op h; (repeat (cases h with | head => rfl | tail _ h => ?_)); exact nomatch h
theorem p16_fresh : ∀ op ∈ (p16 : List (HloOp τ sig (Elt Ideal))), op.fresh = ∅ := by
  intro op h; (repeat (cases h with | head => rfl | tail _ h => ?_)); exact nomatch h

theorem w0_fresh : ∀ op ∈ (w0 : List (HloOp τ sig (Elt Ideal))), op.fresh = ∅ := by
  intro op h
  rcases List.mem_append.mp h with h | h
  · exact p01_fresh op h
  rcases List.mem_append.mp h with h | h
  · exact p02_fresh op h
  rcases List.mem_append.mp h with h | h
  · exact p03_fresh op h
  · exact p04a_fresh op h

theorem w1_fresh : ∀ op ∈ (w1 : List (HloOp τ sig (Elt Ideal))), op.fresh = ∅ := by
  intro op h
  rcases List.mem_append.mp h with h | h
  · exact p04b_fresh op h
  rcases List.mem_append.mp h with h | h
  · exact p05_fresh op h
  rcases List.mem_append.mp h with h | h
  · exact p06_fresh op h
  rcases List.mem_append.mp h with h | h
  · exact p07_fresh op h
  rcases List.mem_append.mp h with h | h
  · exact p08_fresh op h
  rcases List.mem_append.mp h with h | h
  · exact p09_fresh op h
  rcases List.mem_append.mp h with h | h
  · exact p10_fresh op h
  · exact p11a_fresh op h

theorem w2_fresh : ∀ op ∈ (w2 : List (HloOp τ sig (Elt Ideal))), op.fresh = ∅ := by
  intro op h
  rcases List.mem_append.mp h with h | h
  · exact p11b_fresh op h
  rcases List.mem_append.mp h with h | h
  · exact p12_fresh op h
  rcases List.mem_append.mp h with h | h
  · exact p13_fresh op h
  rcases List.mem_append.mp h with h | h
  · exact p14_fresh op h
  · exact p15a_fresh op h

theorem w3_fresh : ∀ op ∈ (w3 : List (HloOp τ sig (Elt Ideal))), op.fresh = ∅ := by
  intro op h
  rcases List.mem_append.mp h with h | h
  · exact p15b_fresh op h
  · exact p16_fresh op h

/-- Every operation determines its results: none allocates. -/
theorem ops_fresh : ∀ op ∈ (ops : List (HloOp τ sig (Elt Ideal))), op.fresh = ∅ := by
  intro op h
  rcases List.mem_append.mp h with h | h
  · exact w0_fresh op h
  rcases List.mem_append.mp h with h | h
  · exact w1_fresh op h
  rcases List.mem_append.mp h with h | h
  · exact w2_fresh op h
  · exact w3_fresh op h

/-- The fold of the whole line is the last stage's contents. -/
theorem after_ops (V0 : Valuation τ sig (Elt Ideal)) : after ops V0 = val16 V0 := by
  simp only [ops, w0, w1, w2, w3, after_append]
  rfl

/-- On every device, from any memory with zero counters: every weakly fair execution of the reference terminates
    with its result at `RefStages.out` of the argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v151) = RefStages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v151).trans ((congrFun (after_ops _) _).trans (val16_main_v151 _)),
      (h c main_arg0).trans ((congrFun (after_ops _) _).trans (val16_main_arg0 _)),
      (h c main_arg1).trans ((congrFun (after_ops _) _).trans (val16_main_arg1 _)),
      (h c main_arg2).trans ((congrFun (after_ops _) _).trans (val16_main_arg2 _)),
      (h c main_arg3).trans ((congrFun (after_ops _) _).trans (val16_main_arg3 _)),
      (h c main_arg4).trans ((congrFun (after_ops _) _).trans (val16_main_arg4 _)),
      (h c main_arg5).trans ((congrFun (after_ops _) _).trans (val16_main_arg5 _)),
      (h c main_arg6).trans ((congrFun (after_ops _) _).trans (val16_main_arg6 _)),
      (h c main_arg7).trans ((congrFun (after_ops _) _).trans (val16_main_arg7 _)),
      (h c main_arg8).trans ((congrFun (after_ops _) _).trans (val16_main_arg8 _)),
      (h c main_arg9).trans ((congrFun (after_ops _) _).trans (val16_main_arg9 _))⟩)
    (run_seq scopedRefs_eq scopedSems_eq defs main (fun _ => ops) main_eq (fun _ => ops_sub) m ρ (fun _ => ops_fresh))

end

/-- The reference runs (terminates, no fault) and its argument arrays end unchanged. -/
theorem frame [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2) (run m ρ)

end Cert.ReferenceIdeal.RefRun

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.BlockRows.lean ====
/-
  What one grid point's body computes, entry by entry, over the extended reals.

  Each of the four pointwise-or-matmul kernels loads whole blocks — 10000 rows of a node-feature array, and a
  64 × 64 weight matrix or two 1 × 64 rows of per-column statistics — and stores one 10000 × 64 block. Over the
  extended reals the narrowing to a 16-bit format is the identity, so the matrix-product body stores, at entry
  `(p, q)`, the sum over `k` of `x (p, k) · w (k, q)`; the normalising body stores the leaky rectifier of
  `x (p, q) · scale (0, q) + shift (0, q)`, the two rows being repeated down the 10000 rows of the block.
-/
import proofs.«152807_j76802605187214_1_alg».proof.Proof.Gen.KernelIdeal.Skeleton
import proofs.«152807_j76802605187214_1_alg».proof.Proof.Spec
import proofs.«152807_j76802605187214_1_alg».proof.Proof.LibPlainMatmul
import Idealize.ShloMosaic.Lib.Pipeline.Value
import Idealize.ShloMosaic.Lib.ValueLayout

noncomputable section

open scoped BigOperators

namespace Cert.KernelIdeal.BlockRows

open Cert.KernelIdeal Cert.KernelIdeal.Gen Idealize.ShloMosaic Idealize.ShloMosaic.ValueIdx

/-- The first layer's matrix-product body at entry `(p, q)` of its block: the row `p` of the loaded feature
    block against the column `q` of the loaded weight matrix (the format narrowing is the identity, the
    accumulator starts at zero). -/
theorem matmul0_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  exact Cert.LibPlainMatmul.matmul_zero_apply (M := 10000) (K := 64) (N := 64)
    dot_S10000x64_S64x64_S10000x64_1_0_0_1_n_n rfl rfl rfl rfl rfl rfl none _ _ p q

/-- The second layer's matrix-product body at entry `(p, q)`: the same sum (its extra reshape keeps the shape). -/
theorem matmul3_apply (x0 : Vec Ideal S10000x64 .f32) (x1 : Vec Ideal S64x64 .f32) (p : Fin 10000) (q : Fin 64) :
    k3_pay1 (F := Ideal) x0 x1 (ix2 p q) = ∑ k : Fin 64, x0 (ix2 p k) * x1 (ix2 k q) := by
  unfold k3_pay1
  rw [shapeCast_self]
  exact Cert.LibPlainMatmul.matmul_zero_apply (M := 10000) (K := 64) (N := 64)
    dot_S10000x64_S64x64_S10000x64_1_0_0_1_n_n rfl rfl rfl rfl rfl rfl none _ _ p q

/-- The comparison-and-select of the rectifier on one extended real: keep `y` when it is positive, otherwise
    scale it by the slope. -/
theorem leaky_select (y : EReal) :
    Scalar.select (Ideal.cmp .ogt y (Ideal.ofBits .f32 0x00000000#32)) y (Ideal.ofBits .f32 0x3C23D70A#32 * y)
      = Cert.Spec.act y := by
  rw [Ideal.ofBits_zero_f32]
  unfold Cert.Spec.act Scalar.select Ideal.cmp
  by_cases h : 0 < y <;> simp [h]

/-- The first layer's normalising body at entry `(p, q)` of its block: the feature entry times the scale row's
    column `q` plus the shift row's column `q` (each row repeated down the block), then the leaky rectifier. -/
theorem normAct2_apply (x0 : Vec Ideal S10000x64 .f32) (x1 x2 : Vec Ideal S1x64 .f32) (p : Fin 10000) (q : Fin 64) :
    k2_pay1 (F := Ideal) x0 x1 x2 (ix2 p q) = Cert.Spec.act (x0 (ix2 p q) * x1 (ix2 0 q) + x2 (ix2 0 q)) := by
  unfold k2_pay1
  simp only [shapeCast_self, select_apply, cmpf_apply, mulf_apply, addf_apply, broadcast_apply, broadcastTo_1b_ab_apply]
  exact leaky_select _

/-- The second layer's normalising body at entry `(p, q)`: the same function of its three blocks. -/
theorem normAct5_apply (x0 : Vec Ideal S10000x64 .f32) (x1 x2 : Vec Ideal S1x64 .f32) (p : Fin 10000) (q : Fin 64) :
    k5_pay1 (F := Ideal) x0 x1 x2 (ix2 p q) = Cert.Spec.act (x0 (ix2 p q) * x1 (ix2 0 q) + x2 (ix2 0 q)) := by
  unfold k5_pay1
  simp only [shapeCast_self, select_apply, cmpf_apply, mulf_apply, addf_apply, broadcast_apply, broadcastTo_1b_ab_apply]
  exact leaky_select _

end Cert.KernelIdeal.BlockRows

end
-- ==== Proof.RegionMatmul0.lean ====
/-
  The first layer's matrix-product region as one function of the arrays it finds.

  The region runs its body at 10 grid points. At point `t` the body sees rows `10000·t … 10000·t + 9999` of the
  100000 × 64 feature array (all 64 columns) and the whole 64 × 64 weight matrix, and what it stores is written
  back to the same rows of the result array. Entry `(p, q)` of the stored block is the sum over `k` of
  `x (10000·t + p, k) · w (k, q)` — row `10000·t + p` of the product of the two arrays. The ten row blocks are
  disjoint and together are all 100000 rows (row `r` lies in block `r / 10000`), so after the last point the
  result array is the product, whatever it held before.
-/
import proofs.«152807_j76802605187214_1_alg».proof.Proof.Gen.KernelIdeal.Frame
import proofs.«152807_j76802605187214_1_alg».proof.Proof.Spec
import proofs.«152807_j76802605187214_1_alg».proof.Proof.BlockRows
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at offsets `(0, 0)` of their buffers. -/
theorem zero_offsets : (![0, 0] : Fin 2 → Nat) = fun _ => 0 := funext fun a => by fin_cases a <;> rfl

/-- The block index of each window at each of the 10 grid points: the feature window and the result window are
    at block row `t`, block column 0; the weight window stays at block `(0, 0)`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, at `(p, k)`, is the feature array at row `10000·t + p`, column `k`. -/
theorem features_apply (c : Dev nD) (t : Fin cfg0.N) (p : Fin 10000) (k : Fin 64) (r : Fin 100000)
    (hr : r.val = 10000 * t.val + p.val) :
    (iblk0 V c 0 t : Vec Ideal S10000x64 .f32) (ix2 p k) = (V c main_arg0 : S100000x64.Idx → EReal) (ix2 r k) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weight block at every point is the whole weight matrix. -/
theorem weights_apply (c : Dev nD) (t : Fin cfg0.N) (k : Fin 64) (q : Fin 64) :
    (iblk0 V c 1 t : Vec Ideal S64x64 .f32) (ix2 k q) = (V c main_arg2 : S64x64.Idx → EReal) (ix2 k q) := by
  obtain ⟨-, -, e2, e3, -⟩ := index_facts t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Entry `(p, q)` of the result window's block at point `t` is entry `(10000·t + p, q)` of the result array. -/
theorem result_emb (t : Fin cfg0.N) (p : Fin 10000) (q : Fin 64) (r : Fin 100000)
    (hr : r.val = 10000 * t.val + p.val) :
    (((cfg0.win 2).blk t).view.emb (ix2 p q) : S100000x64.Idx) = ix2 r q := by
  obtain ⟨-, -, -, -, e4, e5⟩ := index_facts t
  funext a
  apply Fin.ext
  match a with
  | ⟨0, _⟩ => show win0_2.index t (0 : Fin 2) * 10000 + 1 * p.val = r.val; rw [e4, hr]; omega
  | ⟨1, _⟩ => show win0_2.index t (1 : Fin 2) * 64 + 1 * q.val = q.val; rw [e5]; omega

/-- What point `t` writes back is block `t` of the product of the feature array and the weight matrix. -/
theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  refine funext fun (j : S10000x64.Idx) => ?_
  obtain ⟨p, q, rfl⟩ : ∃ (p : Fin 10000) (q : Fin 64), j = ix2 p q := ⟨j 0, j 1, eq_ix2 j⟩
  have hN : cfg0.N = 10 := N_0
  have hlt : 10000 * t.val + p.val < 100000 := by have := t.isLt; omega
  show k0_pay1 (F := Ideal) (iblk0 V c 0 t) (iblk0 V c 1 t) (ix2 p q)
    = Cert.Spec.mm (V c main_arg0) (V c main_arg2) (((cfg0.win 2).blk t).view.emb (ix2 p q))
  refine (BlockRows.matmul0_apply (iblk0 V c 0 t) (iblk0 V c 1 t) p q).trans ?_
  rw [result_emb t p q ⟨_, hlt⟩ rfl, Cert.Spec.mm_ix2]
  refine Finset.sum_congr rfl fun k _ => ?_
  rw [features_apply V c t p k ⟨_, hlt⟩ rfl, weights_apply V c t k q]

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Every index of the result array is in some point's block: row `r` is in the block of point `r / 10000`. -/
theorem cover (i : S100000x64.Idx) :
    ∃ t : Fin cfg0.N, (cfg0.win 2).flush t = true ∧ i ∈ ((cfg0.win 2).blk t).view.set := by
  have hN : cfg0.N = 10 := N_0
  have hi0 : (i 0).val < 100000 := idx2_lt0 i
  have hi1 : (i 1).val < 64 := idx2_lt1 i
  have ht : (i 0).val / 10000 < cfg0.N := by rw [hN]; omega
  obtain ⟨-, -, -, -, e4, e5⟩ := index_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- After the region the result array is the product of the feature array and the weight matrix as the region
    found them. -/
theorem out_eq (c : Dev nD) :
    (dat0 (F := Ideal) V c).arrAt 2 cfg0.N = Cert.Spec.mm (V c main_arg0) (V c main_arg2) :=
  (dat0 V c).arrAt_eq_of_cover 2 (Cert.Spec.mm (V c main_arg0) (V c main_arg2)) (fun t _ => flushed_eq V c t) cover

end Cert.KernelIdeal.Region0

end
-- ==== Proof.RegionMatmul3.lean ====
/-
  The second layer's matrix-product region as one function of the arrays it finds.

  The region runs its body at 10 grid points. At point `t` the body sees rows `10000·t … 10000·t + 9999` of the
  100000 × 64 feature array (all 64 columns) and the whole 64 × 64 weight matrix, and what it stores is written
  back to the same rows of the result array. Entry `(p, q)` of the stored block is the sum over `k` of
  `x (10000·t + p, k) · w (k, q)` — row `10000·t + p` of the product of the two arrays. The ten row blocks are
  disjoint and together are all 100000 rows (row `r` lies in block `r / 10000`), so after the last point the
  result array is the product, whatever it held before.
-/
import proofs.«152807_j76802605187214_1_alg».proof.Proof.Gen.KernelIdeal.Frame
import proofs.«152807_j76802605187214_1_alg».proof.Proof.Spec
import proofs.«152807_j76802605187214_1_alg».proof.Proof.BlockRows
import Idealize.ShloMosaic.Lib.Pipeline.Value

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at offsets `(0, 0)` of their buffers. -/
theorem zero_offsets : (![0, 0] : Fin 2 → Nat) = fun _ => 0 := funext fun a => by fin_cases a <;> rfl

/-- The block index of each window at each of the 10 grid points: the feature window and the result window are
    at block row `t`, block column 0; the weight window stays at block `(0, 0)`. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature block at point `t`, at `(p, k)`, is the feature array at row `10000·t + p`, column `k`. -/
theorem features_apply (c : Dev nD) (t : Fin cfg3.N) (p : Fin 10000) (k : Fin 64) (r : Fin 100000)
    (hr : r.val = 10000 * t.val + p.val) :
    (iblk3 V c 0 t : Vec Ideal S10000x64 .f32) (ix2 p k) = (V c main_v73 : S100000x64.Idx → EReal) (ix2 r k) := by
  obtain ⟨e0, e1, -⟩ := index_facts t
  unfold iblk3
  rw [View.read_apply]
  show V c main_v73 _ = V c main_v73 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- The weight block at every point is the whole weight matrix. -/
theorem weights_apply (c : Dev nD) (t : Fin cfg3.N) (k : Fin 64) (q : Fin 64) :
    (iblk3 V c 1 t : Vec Ideal S64x64 .f32) (ix2 k q) = (V c main_arg6 : S64x64.Idx → EReal) (ix2 k q) := by
  obtain ⟨-, -, e2, e3, -⟩ := index_facts t
  unfold iblk3
  rw [View.read_apply]
  show V c main_arg6 _ = V c main_arg6 _
  congr 1
  funext a
  apply Fin.ext
  match a with
  | ⟨0, _⟩ => show win3_1.index t (0 : Fin 2) * 64 + 1 * k.val = k.val; rw [e2]; omega
  | ⟨1, _⟩ => show win3_1.index t (1 : Fin 2) * 64 + 1 * q.val = q.val; rw [e3]; omega

/-- Entry `(p, q)` of the result window's block at point `t` is entry `(10000·t + p, q)` of the result array. -/
theorem result_emb (t : Fin cfg3.N) (p : Fin 10000) (q : Fin 64) (r : Fin 100000)
    (hr : r.val = 10000 * t.val + p.val) :
    (((cfg3.win 2).blk t).view.emb (ix2 p q) : S100000x64.Idx) = ix2 r q := by
  obtain ⟨-, -, -, -, e4, e5⟩ := index_facts t
  funext a
  apply Fin.ext
  match a with
  | ⟨0, _⟩ => show win3_2.index t (0 : Fin 2) * 10000 + 1 * p.val = r.val; rw [e4, hr]; omega
  | ⟨1, _⟩ => show win3_2.index t (1 : Fin 2) * 64 + 1 * q.val = q.val; rw [e5]; omega

/-- What point `t` writes back is block `t` of the product of the feature array and the weight matrix. -/
theorem flushed_eq (c : Dev nD) (t : Fin cfg3.N) :
    (dat3 (F := Ideal) V c).flushed 2 t
      = ((cfg3.win 2).blk t).view.read (Elt Ideal) (Cert.Spec.mm (V c main_v73) (V c main_arg6)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S64x64) zero_offsets]
  refine funext fun (j : S10000x64.Idx) => ?_
  obtain ⟨p, q, rfl⟩ : ∃ (p : Fin 10000) (q : Fin 64), j = ix2 p q := ⟨j 0, j 1, eq_ix2 j⟩
  have hN : cfg3.N = 10 := N_3
  have hlt : 10000 * t.val + p.val < 100000 := by have := t.isLt; omega
  show k3_pay1 (F := Ideal) (iblk3 V c 0 t) (iblk3 V c 1 t) (ix2 p q)
    = Cert.Spec.mm (V c main_v73) (V c main_arg6) (((cfg3.win 2).blk t).view.emb (ix2 p q))
  refine (BlockRows.matmul3_apply (iblk3 V c 0 t) (iblk3 V c 1 t) p q).trans ?_
  rw [result_emb t p q ⟨_, hlt⟩ rfl, Cert.Spec.mm_ix2]
  refine Finset.sum_congr rfl fun k _ => ?_
  rw [features_apply V c t p k ⟨_, hlt⟩ rfl, weights_apply V c t k q]

/-- An index of the result array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v74).slice (win3_2.rect t)).set ↔ _
  rw [View.set_slice_whole, Rect.mem_set_unit]
  exact Iff.rfl

/-- Every index of the result array is in some point's block: row `r` is in the block of point `r / 10000`. -/
theorem cover (i : S100000x64.Idx) :
    ∃ t : Fin cfg3.N, (cfg3.win 2).flush t = true ∧ i ∈ ((cfg3.win 2).blk t).view.set := by
  have hN : cfg3.N = 10 := N_3
  have hi0 : (i 0).val < 100000 := idx2_lt0 i
  have hi1 : (i 1).val < 64 := idx2_lt1 i
  have ht : (i 0).val / 10000 < cfg3.N := by rw [hN]; omega
  obtain ⟨-, -, -, -, e4, e5⟩ := index_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]; omega

/-- After the region the result array is the product of the feature array and the weight matrix as the region
    found them. -/
theorem out_eq (c : Dev nD) :
    (dat3 (F := Ideal) V c).arrAt 2 cfg3.N = Cert.Spec.mm (V c main_v73) (V c main_arg6) :=
  (dat3 V c).arrAt_eq_of_cover 2 (Cert.Spec.mm (V c main_v73) (V c main_arg6)) (fun t _ => flushed_eq V c t) cover

end Cert.KernelIdeal.Region3

end
-- ==== Proof.RegionAct2.lean ====
/-
  The first layer's normalise-and-rectify region as one function of the arrays it finds.

  The region runs its body at 10 grid points. At point `t` the body sees rows `10000·t … 10000·t + 9999` of the
  100000 × 64 feature array (all 64 columns) and the whole 1 × 64 scale row and 1 × 64 shift row, and what it
  stores is written back to the same rows of the result array. Entry `(p, q)` of the stored block is the leaky
  rectifier of `x (10000·t + p, q) · scale (0, q) + shift (0, q)`: the entry `(10000·t + p, q)` of the
  column-wise scale-and-shift of the whole array, rectified. The ten row blocks are disjoint and together are all
  100000 rows (row `r` lies in block `r / 10000`), so after the last point the result array is that function of
  the three arrays, whatever it held before.
-/
import proofs.«152807_j76802605187214_1_alg».proof.Proof.Gen.KernelIdeal.Frame
import proofs.«152807_j76802605187214_1_alg».proof.Proof.Spec
import proofs.«152807_j76802605187214_1_alg».proof.Proof.BlockRows
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at offsets `(0, 0)` of their buffers. -/
theorem zero_offsets : (![0, 0] : Fin 2 → Nat) = fun _ => 0 := funext fun a => by fin_cases a <;> rfl

/-- The block index of each window at each of the 10 grid points: the feature window and the result window are
    at block row `t`, block column 0; the scale and shift windows stay at block `(0, 0)`. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at point `t`, at `(p, q)`, is the feature array at row `10000·t + p`, column `q`. -/
theorem features_apply (c : Dev nD) (t : Fin cfg2.N) (p : Fin 10000) (q : Fin 64) (r : Fin 100000)
    (hr : r.val = 10000 * t.val + p.val) :
    (iblk2 V c 0 t : Vec Ideal S10000x64 .f32) (ix2 p q) = (V c main_v57 : S100000x64.Idx → EReal) (ix2 r q) := by
  obtain ⟨e0, e1, -⟩ := index_facts t
  unfold iblk2
  rw [View.read_apply]
  show V c main_v57 _ = V c main_v57 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * q.val = q.val; rw [e1]; omega

/-- The scale block at every point is the whole scale row. -/
theorem scale_apply (c : Dev nD) (t : Fin cfg2.N) (q : Fin 64) :
    (iblk2 V c 1 t : Vec Ideal S1x64 .f32) (ix2 (0 : Fin 1) q) = (V c main_v69 : S1x64.Idx → EReal) (ix2 (0 : Fin 1) q) := by
  obtain ⟨-, -, e2, e3, -⟩ := index_facts t
  unfold iblk2
  rw [View.read_apply]
  show V c main_v69 _ = V c main_v69 _
  congr 1
  funext a
  apply Fin.ext
  match a with
  | ⟨0, _⟩ => show win2_1.index t (0 : Fin 2) * 1 + 1 * 0 = 0; omega
  | ⟨1, _⟩ => show win2_1.index t (1 : Fin 2) * 64 + 1 * q.val = q.val; rw [e3]; omega

/-- The shift block at every point is the whole shift row. -/
theorem shift_apply (c : Dev nD) (t : Fin cfg2.N) (q : Fin 64) :
    (iblk2 V c 2 t : Vec Ideal S1x64 .f32) (ix2 (0 : Fin 1) q) = (V c main_v72 : S1x64.Idx → EReal) (ix2 (0 : Fin 1) q) := by
  obtain ⟨-, -, -, -, e4, e5, -⟩ := index_facts t
  unfold iblk2
  rw [View.read_apply]
  show V c main_v72 _ = V c main_v72 _
  congr 1
  funext a
  apply Fin.ext
  match a with
  | ⟨0, _⟩ => show win2_2.index t (0 : Fin 2) * 1 + 1 * 0 = 0; omega
  | ⟨1, _⟩ => show win2_2.index t (1 : Fin 2) * 64 + 1 * q.val = q.val; rw [e5]; omega

/-- Entry `(p, q)` of the result window's block at point `t` is entry `(10000·t + p, q)` of the result array. -/
theorem result_emb (t : Fin cfg2.N) (p : Fin 10000) (q : Fin 64) (r : Fin 100000)
    (hr : r.val = 10000 * t.val + p.val) :
    (((cfg2.win 3).blk t).view.emb (ix2 p q) : S100000x64.Idx) = ix2 r q := by
  obtain ⟨-, -, -, -, -, -, e6, e7⟩ := index_facts t
  funext a
  apply Fin.ext
  match a with
  | ⟨0, _⟩ => show win2_3.index t (0 : Fin 2) * 10000 + 1 * p.val = r.val; rw [e6, hr]; omega
  | ⟨1, _⟩ => show win2_3.index t (1 : Fin 2) * 64 + 1 * q.val = q.val; rw [e7]; omega

/-- What point `t` writes back is block `t` of the scaled, shifted and rectified feature array. -/
theorem flushed_eq (c : Dev nD) (t : Fin cfg2.N) :
    (dat2 (F := Ideal) V c).flushed 3 t
      = ((cfg2.win 3).blk t).view.read (Elt Ideal) (Cert.Spec.normAct (V c main_v57) (V c main_v69) (V c main_v72)) := by
  show (cfg2.win 3).cut (grid2.coords t) ((dat2 V c).after 3 t) = _
  rw [after2_3]
  unfold out2_3
  rw [View.canon_unit_zero zero_offsets]
  simp only [View.ld_unit_zero (S := S10000x64) zero_offsets, View.ld_unit_zero (S := S1x64) zero_offsets]
  refine funext fun (j : S10000x64.Idx) => ?_
  obtain ⟨p, q, rfl⟩ : ∃ (p : Fin 10000) (q : Fin 64), j = ix2 p q := ⟨j 0, j 1, eq_ix2 j⟩
  have hN : cfg2.N = 10 := N_2
  have hlt : 10000 * t.val + p.val < 100000 := by have := t.isLt; omega
  show k2_pay1 (F := Ideal) (iblk2 V c 0 t) (iblk2 V c 1 t) (iblk2 V c 2 t) (ix2 p q)
    = Cert.Spec.normAct (V c main_v57) (V c main_v69) (V c main_v72) (((cfg2.win 3).blk t).view.emb (ix2 p q))
  refine (BlockRows.normAct2_apply (iblk2 V c 0 t) (iblk2 V c 1 t) (iblk2 V c 2 t) p q).trans ?_
  rw [result_emb t p q ⟨_, hlt⟩ rfl, Cert.Spec.normAct_ix2, features_apply V c t p q ⟨_, hlt⟩ rfl,
    scale_apply V c t q, shift_apply V c t q]

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v73).slice (win2_3.rect t)).set ↔ _
  rw [View.set_slice_whole, Rect.mem_set_unit]
  exact Iff.rfl

/-- Every index of the result array is in some point's block: row `r` is in the block of point `r / 10000`. -/
theorem cover (i : S100000x64.Idx) :
    ∃ t : Fin cfg2.N, (cfg2.win 3).flush t = true ∧ i ∈ ((cfg2.win 3).blk t).view.set := by
  have hN : cfg2.N = 10 := N_2
  have hi0 : (i 0).val < 100000 := idx2_lt0 i
  have hi1 : (i 1).val < 64 := idx2_lt1 i
  have ht : (i 0).val / 10000 < cfg2.N := by rw [hN]; omega
  obtain ⟨-, -, -, -, -, -, e6, e7⟩ := index_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    rw [e7]; omega

/-- After the region the result array is the feature array scaled and shifted column by column and rectified,
    from the three arrays as the region found them. -/
theorem out_eq (c : Dev nD) :
    (dat2 (F := Ideal) V c).arrAt 3 cfg2.N = Cert.Spec.normAct (V c main_v57) (V c main_v69) (V c main_v72) :=
  (dat2 V c).arrAt_eq_of_cover 3 (Cert.Spec.normAct (V c main_v57) (V c main_v69) (V c main_v72))
    (fun t _ => flushed_eq V c t) cover

end Cert.KernelIdeal.Region2

end
-- ==== Proof.RegionAct5.lean ====
/-
  The second layer's normalise-and-rectify region as one function of the arrays it finds.

  The region runs its body at 10 grid points. At point `t` the body sees rows `10000·t … 10000·t + 9999` of the
  100000 × 64 feature array (all 64 columns) and the whole 1 × 64 scale row and 1 × 64 shift row, and what it
  stores is written back to the same rows of the result array. Entry `(p, q)` of the stored block is the leaky
  rectifier of `x (10000·t + p, q) · scale (0, q) + shift (0, q)`: the entry `(10000·t + p, q)` of the
  column-wise scale-and-shift of the whole array, rectified. The ten row blocks are disjoint and together are all
  100000 rows (row `r` lies in block `r / 10000`), so after the last point the result array is that function of
  the three arrays, whatever it held before.
-/
import proofs.«152807_j76802605187214_1_alg».proof.Proof.Gen.KernelIdeal.Frame
import proofs.«152807_j76802605187214_1_alg».proof.Proof.Spec
import proofs.«152807_j76802605187214_1_alg».proof.Proof.BlockRows
import Idealize.ShloMosaic.Lib.Pipeline.Value

noncomputable section

open scoped BigOperators

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store start at offsets `(0, 0)` of their buffers. -/
theorem zero_offsets : (![0, 0] : Fin 2 → Nat) = fun _ => 0 := funext fun a => by fin_cases a <;> rfl

/-- The block index of each window at each of the 10 grid points: the feature window and the result window are
    at block row `t`, block column 0; the scale and shift windows stay at block `(0, 0)`. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The feature block at point `t`, at `(p, q)`, is the feature array at row `10000·t + p`, column `q`. -/
theorem features_apply (c : Dev nD) (t : Fin cfg5.N) (p : Fin 10000) (q : Fin 64) (r : Fin 100000)
    (hr : r.val = 10000 * t.val + p.val) :
    (iblk5 V c 0 t : Vec Ideal S10000x64 .f32) (ix2 p q) = (V c main_v99 : S100000x64.Idx → EReal) (ix2 r q) := by
  obtain ⟨e0, e1, -⟩ := index_facts t
  unfold iblk5
  rw [View.read_apply]
  show V c main_v99 _ = V c main_v99 _
  congr 1
  funext a
  apply Fin.ext
  match a with
  | ⟨0, _⟩ => show win5_0.index t (0 : Fin 2) * 10000 + 1 * p.val = r.val; rw [e0, hr]; omega
  | ⟨1, _⟩ => show win5_0.index t (1 : Fin 2) * 64 + 1 * q.val = q.val; rw [e1]; omega

/-- The scale block at every point is the whole scale row. -/
theorem scale_apply (c : Dev nD) (t : Fin cfg5.N) (q : Fin 64) :
    (iblk5 V c 1 t : Vec Ideal S1x64 .f32) (ix2 (0 : Fin 1) q) = (V c main_v111 : S1x64.Idx → EReal) (ix2 (0 : Fin 1) q) := by
  obtain ⟨-, -, e2, e3, -⟩ := index_facts t
  unfold iblk5
  rw [View.read_apply]
  show V c main_v111 _ = V c main_v111 _
  congr 1
  funext a
  apply Fin.ext
  match a with
  | ⟨0, _⟩ => show win5_1.index t (0 : Fin 2) * 1 + 1 * 0 = 0; omega
  | ⟨1, _⟩ => show win5_1.index t (1 : Fin 2) * 64 + 1 * q.val = q.val; rw [e3]; omega

/-- The shift block at every point is the whole shift row. -/
theorem shift_apply (c : Dev nD) (t : Fin cfg5.N) (q : Fin 64) :
    (iblk5 V c 2 t : Vec Ideal S1x64 .f32) (ix2 (0 : Fin 1) q) = (V c main_v114 : S1x64.Idx → EReal) (ix2 (0 : Fin 1) q) := by
  obtain ⟨-, -, -, -, e4, e5, -⟩ := index_facts t
  unfold iblk5
  rw [View.read_apply]
  show V c main_v114 _ = V c main_v114 _
  congr 1
  funext a
  apply Fin.ext
  match a with
  | ⟨0, _⟩ => show win5_2.index t (0 : Fin 2) * 1 + 1 * 0 = 0; omega
  | ⟨1, _⟩ => show win5_2.index t (1 : Fin 2) * 64 + 1 * q.val = q.val; rw [e5]; omega

/-- Entry `(p, q)` of the result window's block at point `t` is entry `(10000·t + p, q)` of the result array. -/
theorem result_emb (t : Fin cfg5.N) (p : Fin 10000) (q : Fin 64) (r : Fin 100000)
    (hr : r.val = 10000 * t.val + p.val) :
    (((cfg5.win 3).blk t).view.emb (ix2 p q) : S100000x64.Idx) = ix2 r q := by
  obtain ⟨-, -, -, -, -, -, e6, e7⟩ := index_facts t
  funext a
  apply Fin.ext
  match a with
  | ⟨0, _⟩ => show win5_3.index t (0 : Fin 2) * 10000 + 1 * p.val = r.val; rw [e6, hr]; omega
  | ⟨1, _⟩ => show win5_3.index t (1 : Fin 2) * 64 + 1 * q.val = q.val; rw [e7]; omega

/-- What point `t` writes back is block `t` of the scaled, shifted and rectified feature array. -/
theorem flushed_eq (c : Dev nD) (t : Fin cfg5.N) :
    (dat5 (F := Ideal) V c).flushed 3 t
      = ((cfg5.win 3).blk t).view.read (Elt Ideal) (Cert.Spec.normAct (V c main_v99) (V c main_v111) (V c main_v114)) := by
  show (cfg5.win 3).cut (grid5.coords t) ((dat5 V c).after 3 t) = _
  rw [after5_3]
  unfold out5_3
  rw [View.canon_unit_zero zero_offsets]
  simp only [View.ld_unit_zero (S := S10000x64) zero_offsets, View.ld_unit_zero (S := S1x64) zero_offsets]
  refine funext fun (j : S10000x64.Idx) => ?_
  obtain ⟨p, q, rfl⟩ : ∃ (p : Fin 10000) (q : Fin 64), j = ix2 p q := ⟨j 0, j 1, eq_ix2 j⟩
  have hN : cfg5.N = 10 := N_5
  have hlt : 10000 * t.val + p.val < 100000 := by have := t.isLt; omega
  show k5_pay1 (F := Ideal) (iblk5 V c 0 t) (iblk5 V c 1 t) (iblk5 V c 2 t) (ix2 p q)
    = Cert.Spec.normAct (V c main_v99) (V c main_v111) (V c main_v114) (((cfg5.win 3).blk t).view.emb (ix2 p q))
  refine (BlockRows.normAct5_apply (iblk5 V c 0 t) (iblk5 V c 1 t) (iblk5 V c 2 t) p q).trans ?_
  rw [result_emb t p q ⟨_, hlt⟩ rfl, Cert.Spec.normAct_ix2, features_apply V c t p q ⟨_, hlt⟩ rfl,
    scale_apply V c t q, shift_apply V c t q]

/-- An index of the result array is in point `t`'s block iff each coordinate is in the block's range on its axis. -/
theorem mem_blk (t : Fin cfg5.N) (i : S100000x64.Idx) :
    i ∈ ((cfg5.win 3).blk t).view.set ↔ ∀ a : Fin 2, win5_3.index t a * S10000x64.size a ≤ (i a).val
      ∧ (i a).val < win5_3.index t a * S10000x64.size a + S10000x64.size a := by
  show i ∈ ((View.whole main_v115).slice (win5_3.rect t)).set ↔ _
  rw [View.set_slice_whole, Rect.mem_set_unit]
  exact Iff.rfl

/-- Every index of the result array is in some point's block: row `r` is in the block of point `r / 10000`. -/
theorem cover (i : S100000x64.Idx) :
    ∃ t : Fin cfg5.N, (cfg5.win 3).flush t = true ∧ i ∈ ((cfg5.win 3).blk t).view.set := by
  have hN : cfg5.N = 10 := N_5
  have hi0 : (i 0).val < 100000 := idx2_lt0 i
  have hi1 : (i 1).val < 64 := idx2_lt1 i
  have ht : (i 0).val / 10000 < cfg5.N := by rw [hN]; omega
  obtain ⟨-, -, -, -, -, -, e6, e7⟩ := index_facts ⟨(i 0).val / 10000, ht⟩
  refine ⟨⟨(i 0).val / 10000, ht⟩, flush5_3 _, ?_⟩
  rw [mem_blk]
  intro a
  match a with
  | ⟨0, _⟩ =>
    show win5_3.index ⟨(i 0).val / 10000, ht⟩ (0 : Fin 2) * 10000 ≤ (i 0).val
      ∧ (i 0).val < win5_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win5_3.index ⟨(i 0).val / 10000, ht⟩ (1 : Fin 2) * 64 ≤ (i 1).val
      ∧ (i 1).val < win5_3.index ⟨(i 0).val / 10000, ht⟩ (1 : Fin 2) * 64 + 64
    rw [e7]; omega

/-- After the region the result array is the feature array scaled and shifted column by column and rectified,
    from the three arrays as the region found them. -/
theorem out_eq (c : Dev nD) :
    (dat5 (F := Ideal) V c).arrAt 3 cfg5.N = Cert.Spec.normAct (V c main_v99) (V c main_v111) (V c main_v114) :=
  (dat5 V c).arrAt_eq_of_cover 3 (Cert.Spec.normAct (V c main_v99) (V c main_v111) (V c main_v114))
    (fun t _ => flushed_eq V c t) cover

end Cert.KernelIdeal.Region5

end
-- ==== Proof.RegionStats1Points.lean ====
/-
  Region 1, point by point: what one grid point leaves in the two resident 1 × 64 rows.

  The region's body, at every point, loads the current 10000 × 64 block of its input and the two rows, and
  stores back: the first row plus the block's column sums, and the second row plus the column sums of the
  block's squares. At the first point it has just before stored zeros into both rows, so what it loads back are
  those zeros. Each row is written by stores that cover it whole, so what a point leaves in a row is the
  payload of the last store (`out_A_1 … out_B_2`, for any float values), and the two rows after a point are:
  at the first point, the step applied to the zero rows and block 0 (`outsAt_first`); at a later point, the step
  applied to what the point before left and that point's block (`outsAt_later`).
-/
import proofs.«152807_j76802605187214_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

/-! ## What one point leaves in the two rows, for any float values -/

section Pieces

variable {F : FTy → Type} [FloatOps F]

theorem hz : (![0, 0] : Fin 2 → Nat) = fun _ => 0 := funext fun a => by fin_cases a <;> rfl

/-- A later point leaves in the first row its one store's payload: the row as the point before left it, plus the
    block's column sums. Both loads read whole buffers. -/
theorem out_B_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S10000x64) hz,
    View.ld_unit_zero (S := S1x64) hz]

/-- A later point leaves in the second row: the row as it was, plus the column sums of the block's squares. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S10000x64) hz,
    View.ld_unit_zero (S := S1x64) hz]

/-- The first point stores the zero row, reads it back, and leaves: zero plus the block's column sums. The
    read-back is a covered load of the store just made. -/
theorem out_A_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

/-- The first point leaves in the second row: zero plus the column sums of the block's squares. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S10000x64) hz]

variable (V : (c : Dev nD) → (b : Ref sig .tc) → Buf (Elt F) ((c : Thread nD τ).loc b))

/-- The two rows after the first point: the reset case on block 0. -/
theorem outsAt_first (c : Dev nD) (t : Fin cfg1.N) (h0 : t.val % 10 = 0) :
    outsAt1 V c t.val t.isLt
      = (k1_pay4 (iblk1 V c 0 t) k1_pay1, k1_pay5 (iblk1 V c 0 t) k1_pay2) := by
  rw [outsAt1_A V c t h0]
  exact Prod.ext
    (out_A_1 c (grid1.coords t) (ms1_0 t) (hs1_0 t) (ms1_1 t) (hs1_1 t) (ms1_2 t) (hs1_2 t) ((hcond1_0 t).mpr h0) (iblk1 V c 0 t))
    (out_A_2 c (grid1.coords t) (ms1_0 t) (hs1_0 t) (ms1_1 t) (hs1_1 t) (ms1_2 t) (hs1_2 t) ((hcond1_0 t).mpr h0) (iblk1 V c 0 t))

/-- The two rows after a later point: the accumulating case on block `t`, over what the point before left. -/
theorem outsAt_later (c : Dev nD) (t : Fin cfg1.N) (h0 : ¬t.val % 10 = 0) :
    outsAt1 V c t.val t.isLt
      = (k1_pay4 (iblk1 V c 0 t) (outsAt1 V c (t.val - 1) (Nat.lt_of_le_of_lt (Nat.sub_le _ _) t.isLt)).1,
         k1_pay5 (iblk1 V c 0 t) (outsAt1 V c (t.val - 1) (Nat.lt_of_le_of_lt (Nat.sub_le _ _) t.isLt)).2) := by
  rw [outsAt1_B V c t h0]
  exact Prod.ext
    (out_B_1 c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1 (outsAt1 V c (t.val - 1) (Nat.lt_of_le_of_lt (Nat.sub_le _ _) t.isLt)).2)
    (out_B_2 c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1 (outsAt1 V c (t.val - 1) (Nat.lt_of_le_of_lt (Nat.sub_le _ _) t.isLt)).2)

end Pieces

end Cert.KernelIdeal.Region1

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«152807_j76802605187214_1_alg».proof.Proof.LibRows
import proofs.«152807_j76802605187214_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.RegionStatsBlocks.lean ====
/-
  Column statistics of a 100000 × 64 array gathered over ten blocks of 10000 consecutive rows.

  Block `t` (`t < 10`) holds the rows `10000·t + k`, `k < 10000`. A column's total over all rows is the sum of
  its ten block totals (`sum_blockTotal`): the rows are only regrouped, which needs no more than the associativity
  and commutativity of `+` on the extended reals, so nothing has to be finite. A running total that starts at
  zero and gains one block total per step is, after step `n`, the sum of the totals of blocks `0 … n`
  (`start_total`, `next_total`).

  One step, read at column `c` of the 1 × 64 row that keeps the totals (`step_sum`, `step_sumsq`): the row as it
  was, plus the sum down column `c` of the block — of its entries, or of their squares. The sum down a column of a
  10000 × 64 block is the reduction over the first axis, recast from 64 entries to a 1 × 64 row.
-/
import proofs.«152807_j76802605187214_1_alg».proof.Proof.Spec
import proofs.«152807_j76802605187214_1_alg».proof.Proof.LibMatrixReduce
import proofs.«152807_j76802605187214_1_alg».proof.Proof.LibERealSums
import Idealize.ShloMosaic.Lib.ValueLayout
import Idealize.ShloMosaic.PureOps.Ideal.Laws

noncomputable section

open Idealize.ShloMosaic Idealize.ShloMosaic.ValueIdx

namespace Cert.StatsBlocks

/-- One block of rows: 10000 × 64. -/
abbrev SB : Shape := ⟨2, ![10000, 64]⟩
/-- The 64 column totals of a block, before they are laid out as a row. -/
abbrev SC : Shape := ⟨1, ![64]⟩

/-- Row `k` of block `t` is row `10000·t + k` of the array. -/
def blockRow (t : Fin 10) (k : Fin 10000) : Fin 100000 := ⟨10000 * t.val + k.val, by omega⟩

/-- The total of `f` over the rows of block `t`; zero past the last block, so that it is a function of every natural. -/
def blockTotal (f : Fin 100000 → EReal) (t : ℕ) : EReal :=
  if h : t < 10 then ∑ k : Fin 10000, f (blockRow ⟨t, h⟩ k) else 0

/-- Inside the grid the block total is the plain sum over the block's rows. -/
theorem blockTotal_of_lt (f : Fin 100000 → EReal) (t : ℕ) (h : t < 10) :
    blockTotal f t = ∑ k : Fin 10000, f (blockRow ⟨t, h⟩ k) := dif_pos h

/-- The ten block totals add up to the total over all rows. -/
theorem sum_blockTotal (f : Fin 100000 → EReal) :
    ∑ s ∈ Finset.range 10, blockTotal f s = ∑ r : Fin 100000, f r := by
  rw [Finset.sum_range,
    Cert.LibERealSums.sum_fin_blocks (m := 10) (n := 10000) (by norm_num) blockRow (fun _ _ => rfl) f]
  exact Finset.sum_congr rfl fun t _ => blockTotal_of_lt f t.val t.isLt

/-- Zero plus the first block's total is the running total after block 0. -/
theorem start_total (f : Fin 100000 → EReal) (z b : EReal) (hz : z = 0) (hb : b = blockTotal f 0) :
    z + b = ∑ s ∈ Finset.range (0 + 1), blockTotal f s := by
  rw [hz, hb, zero_add, Finset.sum_range_one]

/-- The running total after block `n` plus the next block's total is the running total after block `n + 1`. -/
theorem next_total (f : Fin 100000 → EReal) (n : ℕ) (a b : EReal)
    (ha : a = ∑ s ∈ Finset.range (n + 1), blockTotal f s) (hb : b = blockTotal f (n + 1)) :
    a + b = ∑ s ∈ Finset.range (n + 1 + 1), blockTotal f s := by
  rw [ha, hb, Finset.sum_range_succ _ (n + 1)]

/-- The zero the totals start from, broadcast along the row, is the extended real `0` at every column. -/
theorem zero_row (c : Fin 64) :
    broadcast Cert.Spec.SR (Scalar.ofBits (F := Ideal) .f32 0x00000000#32) (ix2 (0 : Fin 1) c) = 0 :=
  Ideal.ofBits_zero_f32

/-- One step of the column sums, at column `c`: the row as it was plus the sum down column `c` of the block. -/
theorem step_sum (x : FVec Ideal SB .f32) (acc : FVec Ideal Cert.Spec.SR .f32)
    (hxx : SB.ShapeCasts SB) (hrr : Cert.Spec.SR.ShapeCasts Cert.Spec.SR) (hcr : SC.ShapeCasts Cert.Spec.SR)
    (hred : SB.Reduces [0] SC) (hφ : FKind.Formats .f32) (hacc : (0x00000000#32 : BitVec 32) = FKind.add.neutral .f32 hφ)
    (c : Fin 64) :
    addf (shapeCast Cert.Spec.SR acc hrr)
        (shapeCast Cert.Spec.SR (multiReduction .add [0] SC (shapeCast SB x hxx) 0x00000000#32 hred hφ hacc) hcr)
        (ix2 (0 : Fin 1) c)
      = acc (ix2 (0 : Fin 1) c) + ∑ k : Fin 10000, x (ix2 k c) := by
  rw [addf_apply, shapeCast_self, shapeCast_self, shapeCast_a_1a_apply, Cert.LibMatrixReduce.colSum_apply]

/-- One step of the column sums of squares, at column `c`: the row as it was plus the sum down column `c` of the
    squared entries of the block. -/
theorem step_sumsq (x : FVec Ideal SB .f32) (acc : FVec Ideal Cert.Spec.SR .f32)
    (hxx : SB.ShapeCasts SB) (hrr : Cert.Spec.SR.ShapeCasts Cert.Spec.SR) (hcr : SC.ShapeCasts Cert.Spec.SR)
    (hred : SB.Reduces [0] SC) (hφ : FKind.Formats .f32) (hacc : (0x00000000#32 : BitVec 32) = FKind.add.neutral .f32 hφ)
    (c : Fin 64) :
    addf (shapeCast Cert.Spec.SR acc hrr)
        (shapeCast Cert.Spec.SR
          (multiReduction .add [0] SC (mulf (shapeCast SB x hxx) (shapeCast SB x hxx)) 0x00000000#32 hred hφ hacc) hcr)
        (ix2 (0 : Fin 1) c)
      = acc (ix2 (0 : Fin 1) c) + ∑ k : Fin 10000, x (ix2 k c) * x (ix2 k c) := by
  rw [addf_apply, shapeCast_self, shapeCast_self, shapeCast_a_1a_apply, Cert.LibMatrixReduce.colSum_apply]
  rfl

end Cert.StatsBlocks

end
-- ==== Proof.RegionStats1Totals.lean ====
/-
  Region 1: the running column totals of a 100000 × 64 array read in ten blocks of rows.

  At point `t` the region reads block `t` of its input — the rows `10000·t + k`, `k < 10000`, all 64 columns
  (`iblk_apply`) — and keeps two 1 × 64 rows that stay resident across the points. Read at column `col`, one
  point's step adds to the first row the sum down that column of the block and to the second the sum of the
  squared entries (`pay4_apply`, `pay5_apply`); the first point starts both from zero (`pay1_apply`,
  `pay2_apply`). So after point `n` the rows hold, in column `col`, the sum of the block totals of blocks
  `0 … n` (`running`, by induction on the point: point 0 is the reset case, every later point adds to what the
  point before left), and after the last point the totals over all 100000 rows (`last_sum`, `last_sumsq`):
  the ten blocks partition the rows, and regrouping a sum of extended reals needs no finiteness.
-/
import proofs.«152807_j76802605187214_1_alg».proof.Proof.RegionStats1Points
import proofs.«152807_j76802605187214_1_alg».proof.Proof.Spec
import proofs.«152807_j76802605187214_1_alg».proof.Proof.RegionStatsBlocks

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen
open Cert.StatsBlocks (blockRow blockTotal)

/-! ## One step, read at a column -/

/-- The first row's step at column `col`: the row as it was, plus the sum down the column of the block. -/
theorem pay4_apply (x : FVec Ideal S10000x64 .f32) (acc : FVec Ideal S1x64 .f32) (col : Fin 64) :
    k1_pay4 (F := Ideal) x acc (ix2 (0 : Fin 1) col)
      = acc (ix2 (0 : Fin 1) col) + ∑ k : Fin 10000, x (ix2 k col) := by
  unfold k1_pay4 k1_pay3
  exact Cert.StatsBlocks.step_sum x acc _ _ _ _ _ _ col

/-- The second row's step at column `col`: the row as it was, plus the sum down the column of the squares. -/
theorem pay5_apply (x : FVec Ideal S10000x64 .f32) (acc : FVec Ideal S1x64 .f32) (col : Fin 64) :
    k1_pay5 (F := Ideal) x acc (ix2 (0 : Fin 1) col)
      = acc (ix2 (0 : Fin 1) col) + ∑ k : Fin 10000, x (ix2 k col) * x (ix2 k col) := by
  unfold k1_pay5 k1_pay3
  exact Cert.StatsBlocks.step_sumsq x acc _ _ _ _ _ _ col

/-- The row the first point stores into the first output is zero at every column. -/
theorem pay1_apply (col : Fin 64) : k1_pay1 (F := Ideal) (ix2 (0 : Fin 1) col) = 0 := by
  unfold k1_pay1
  exact Cert.StatsBlocks.zero_row col

/-- The row the first point stores into the second output is zero at every column. -/
theorem pay2_apply (col : Fin 64) : k1_pay2 (F := Ideal) (ix2 (0 : Fin 1) col) = 0 := by
  unfold k1_pay2
  exact Cert.StatsBlocks.zero_row col

/-! ## The blocks of the input -/

variable (V : (c : Dev nD) → (b : Ref sig .tc) → Buf (Elt Ideal) ((c : Thread nD τ).loc b))

/-- The input window's block index at point `t` is `(t, 0)`: decided over the ten points. -/
theorem idx_facts : ∀ t : Fin cfg1.N, win1_0.index t 0 = t.val ∧ win1_0.index t 1 = 0 :=
  (by decide +kernel : ∀ t : Fin grid1.N, win1_0.index t 0 = t.val ∧ win1_0.index t 1 = 0)

/-- Column `col` of the input array as the region finds it, as a function of the row. -/
def column (c : Dev nD) (col : Fin 64) : Fin 100000 → EReal :=
  fun r => (V c main_v57 : Cert.Spec.SN.Idx → EReal) (ix2 r col)

/-- The squares of column `col`. -/
def columnSq (c : Dev nD) (col : Fin 64) : Fin 100000 → EReal :=
  fun r => column V c col r * column V c col r

/-- Entry `(k, col)` of the block read at point `t` is entry `(10000·t + k, col)` of the input array. -/
theorem iblk_apply (c : Dev nD) (t : Fin cfg1.N) (ht : t.val < 10) (x : FVec Ideal S10000x64 .f32)
    (hx : x = iblk1 V c 0 t) (k : Fin 10000) (col : Fin 64) :
    x (ix2 k col) = column V c col (blockRow ⟨t.val, ht⟩ k) := by
  subst hx
  unfold iblk1 column
  rw [View.read_apply]
  show V c main_v57 _ = V c main_v57 _
  congr 1
  funext a
  apply Fin.ext
  match a with
  | ⟨0, _⟩ =>
    show win1_0.index t 0 * 10000 + 1 * k.val = 10000 * t.val + k.val
    rw [(idx_facts t).1]; omega
  | ⟨1, _⟩ =>
    show win1_0.index t 1 * 64 + 1 * col.val = col.val
    rw [(idx_facts t).2]; omega

/-- The sum down column `col` of the block read at point `t` is the column's total over block `t`. -/
theorem block_sum (c : Dev nD) (t : Fin cfg1.N) (ht : t.val < 10) (x : FVec Ideal S10000x64 .f32)
    (hx : x = iblk1 V c 0 t) (col : Fin 64) :
    ∑ k : Fin 10000, x (ix2 k col) = blockTotal (column V c col) t.val := by
  rw [Cert.StatsBlocks.blockTotal_of_lt _ _ ht]
  exact Finset.sum_congr rfl fun k _ => iblk_apply V c t ht x hx k col

/-- The same for the squares. -/
theorem block_sumsq (c : Dev nD) (t : Fin cfg1.N) (ht : t.val < 10) (x : FVec Ideal S10000x64 .f32)
    (hx : x = iblk1 V c 0 t) (col : Fin 64) :
    ∑ k : Fin 10000, x (ix2 k col) * x (ix2 k col) = blockTotal (columnSq V c col) t.val := by
  rw [Cert.StatsBlocks.blockTotal_of_lt _ _ ht]
  exact Finset.sum_congr rfl fun k _ =>
    congrArg₂ (· * ·) (iblk_apply V c t ht x hx k col) (iblk_apply V c t ht x hx k col)

/-! ## The running totals -/

/-- After point `n` the two rows hold, in column `col`, the column's (and its squares') totals over blocks `0 … n`:
    point 0 starts from zero, each later point adds its block's total to what the point before left. -/
theorem running (c : Dev nD) : ∀ (n : ℕ) (h : n < cfg1.N) (col : Fin 64),
    (outsAt1 V c n h).1 (ix2 (0 : Fin 1) col) = ∑ s ∈ Finset.range (n + 1), blockTotal (column V c col) s
      ∧ (outsAt1 V c n h).2 (ix2 (0 : Fin 1) col) = ∑ s ∈ Finset.range (n + 1), blockTotal (columnSq V c col) s
  | 0, h, col => by
    have e := outsAt_first V c ⟨0, h⟩ (Nat.zero_mod 10)
    have h10 : (⟨0, h⟩ : Fin cfg1.N).val < 10 := Nat.zero_lt_succ 9
    refine ⟨?_, ?_⟩
    · refine (congrFun (congrArg Prod.fst e) (ix2 (0 : Fin 1) col)).trans ?_
      refine (pay4_apply (iblk1 V c 0 ⟨0, h⟩) k1_pay1 col).trans ?_
      exact Cert.StatsBlocks.start_total _ _ _ (pay1_apply col) (block_sum V c ⟨0, h⟩ h10 (iblk1 V c 0 ⟨0, h⟩) rfl col)
    · refine (congrFun (congrArg Prod.snd e) (ix2 (0 : Fin 1) col)).trans ?_
      refine (pay5_apply (iblk1 V c 0 ⟨0, h⟩) k1_pay2 col).trans ?_
      exact Cert.StatsBlocks.start_total _ _ _ (pay2_apply col) (block_sumsq V c ⟨0, h⟩ h10 (iblk1 V c 0 ⟨0, h⟩) rfl col)
  | n + 1, h, col => by
    have hN : cfg1.N = 10 := N_1
    have hB : ¬(⟨n + 1, h⟩ : Fin cfg1.N).val % 10 = 0 := by dsimp only; omega
    have h10 : (⟨n + 1, h⟩ : Fin cfg1.N).val < 10 := by dsimp only; omega
    have e := outsAt_later V c ⟨n + 1, h⟩ hB
    have ih := running c n (Nat.lt_of_succ_lt h) col
    refine ⟨?_, ?_⟩
    · refine (congrFun (congrArg Prod.fst e) (ix2 (0 : Fin 1) col)).trans ?_
      refine (pay4_apply (iblk1 V c 0 ⟨n + 1, h⟩) (outsAt1 V c n (Nat.lt_of_succ_lt h)).1 col).trans ?_
      exact Cert.StatsBlocks.next_total _ n _ _ ih.1 (block_sum V c ⟨n + 1, h⟩ h10 (iblk1 V c 0 ⟨n + 1, h⟩) rfl col)
    · refine (congrFun (congrArg Prod.snd e) (ix2 (0 : Fin 1) col)).trans ?_
      refine (pay5_apply (iblk1 V c 0 ⟨n + 1, h⟩) (outsAt1 V c n (Nat.lt_of_succ_lt h)).2 col).trans ?_
      exact Cert.StatsBlocks.next_total _ n _ _ ih.2 (block_sumsq V c ⟨n + 1, h⟩ h10 (iblk1 V c 0 ⟨n + 1, h⟩) rfl col)

/-- After the last point the first row holds the column sums of the whole input. -/
theorem last_sum (c : Dev nD) (h : 9 < cfg1.N) :
    (outsAt1 V c 9 h).1 = (Cert.Spec.colSum (V c main_v57) : Cert.Spec.SR.Idx → EReal) := by
  funext j
  obtain ⟨col, rfl⟩ : ∃ col : Fin 64, j = ix2 (0 : Fin 1) col := ⟨_, Cert.Spec.eq_zero_col j⟩
  exact ((running V c 9 h col).1).trans (Cert.StatsBlocks.sum_blockTotal (column V c col))

/-- After the last point the second row holds the column sums of squares of the whole input. -/
theorem last_sumsq (c : Dev nD) (h : 9 < cfg1.N) :
    (outsAt1 V c 9 h).2 = (Cert.Spec.colSumSq (V c main_v57) : Cert.Spec.SR.Idx → EReal) := by
  funext j
  obtain ⟨col, rfl⟩ : ∃ col : Fin 64, j = ix2 (0 : Fin 1) col := ⟨_, Cert.Spec.eq_zero_col j⟩
  exact ((running V c 9 h col).2).trans (Cert.StatsBlocks.sum_blockTotal (columnSq V c col))

end Cert.KernelIdeal.Region1

end
-- ==== Proof.RegionStats1.lean ====
/-
  Region 1: the column statistics of a 100000 × 64 array, as two whole-array functions.

  The region keeps two 1 × 64 rows resident across its ten grid points; after the last point they hold the
  column sums and the column sums of squares of the whole input. Only the last point writes the rows back, and
  each row is a single block that is the whole 1 × 64 array (its block index is `(0, 0)` at every point), so
  what that point writes is the array (`flushed_sum`, `flushed_sumsq`) and its block covers every index. The
  two output arrays therefore end holding exactly the column sums and the column sums of squares of the input
  as the region found it (`sum_eq`, `sumsq_eq`).
-/
import proofs.«152807_j76802605187214_1_alg».proof.Proof.RegionStats1Totals

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-! ## What the last point writes back, and the arrays after the region -/

/-- The one write-back of the first row, at the last point, writes the column sums: its block `(0, 0)` of the
    1 × 64 array, read through zero offsets, is the array. -/
theorem flushed_sum (c : Dev nD) (t : Fin cfg1.N) (hf : (cfg1.win 1).flush t = true) :
    (dat1 V c).flushed 1 t
      = ((cfg1.win 1).blk t).view.read (Elt Ideal)
          (Cert.Spec.colSum (V c main_v57) : Buf (Elt Ideal) ((c : Thread nD τ).loc main_v58_0)) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1]
  have e : (outsAt1 V c t1_9.val t1_9.isLt).1 = (Cert.Spec.colSum (V c main_v57) : Cert.Spec.SR.Idx → EReal) :=
    last_sum V c t1_9.isLt
  rw [e]
  have hz' : (fun a => win1_1.index t1_9 a * main_v58_0.ty.shape.size a) = fun _ => 0 :=
    funext fun a => by fin_cases a <;> decide
  exact (Memref.read_access_unit_zero (Elt Ideal) main_v58_0 hz' (fun a => by rw [congrFun hz' a]; simp)
    (Cert.Spec.colSum (V c main_v57) : Buf (Elt Ideal) ((c : Thread nD τ).loc main_v58_0))).symm

/-- The same for the second row: the last point writes the column sums of squares. -/
theorem flushed_sumsq (c : Dev nD) (t : Fin cfg1.N) (hf : (cfg1.win 2).flush t = true) :
    (dat1 V c).flushed 2 t
      = ((cfg1.win 2).blk t).view.read (Elt Ideal)
          (Cert.Spec.colSumSq (V c main_v57) : Buf (Elt Ideal) ((c : Thread nD τ).loc main_v58_1)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have e : (outsAt1 V c t1_9.val t1_9.isLt).2 = (Cert.Spec.colSumSq (V c main_v57) : Cert.Spec.SR.Idx → EReal) :=
    last_sumsq V c t1_9.isLt
  rw [e]
  have hz' : (fun a => win1_2.index t1_9 a * main_v58_1.ty.shape.size a) = fun _ => 0 :=
    funext fun a => by fin_cases a <;> decide
  exact (Memref.read_access_unit_zero (Elt Ideal) main_v58_1 hz' (fun a => by rw [congrFun hz' a]; simp)
    (Cert.Spec.colSumSq (V c main_v57) : Buf (Elt Ideal) ((c : Thread nD τ).loc main_v58_1))).symm

/-- The first output array after the region: the column sums of the input as the region found it. The last
    point's block covers the whole 1 × 64 array. -/
theorem sum_eq (c : Dev nD) :
    (dat1 (F := Ideal) V c).arrAt 1 cfg1.N = Cert.Spec.colSum (V c main_v57) :=
  (dat1 V c).arrAt_eq_of_cover 1 (Cert.Spec.colSum (V c main_v57)) (flushed_sum V c) fun i =>
    ⟨t1_9, (flush1_1 t1_9).mpr rfl, by
      show i ∈ ((View.whole main_v58_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]; omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 64 from by decide +kernel]; omega⟩

/-- The second output array after the region: the column sums of squares of the input as the region found it. -/
theorem sumsq_eq (c : Dev nD) :
    (dat1 (F := Ideal) V c).arrAt 2 cfg1.N = Cert.Spec.colSumSq (V c main_v57) :=
  (dat1 V c).arrAt_eq_of_cover 2 (Cert.Spec.colSumSq (V c main_v57)) (flushed_sumsq V c) fun i =>
    ⟨t1_9, (flush1_2 t1_9).mpr rfl, by
      show i ∈ ((View.whole main_v58_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 64 from by decide +kernel]; omega⟩

end Cert.KernelIdeal.Region1

end
-- ==== Proof.RegionStats4Points.lean ====
/-
  Region 4, point by point: what one grid point leaves in the two resident 1 × 64 rows.

  The region's body, at every point, loads the current 10000 × 64 block of its input and the two rows, and
  stores back: the first row plus the block's column sums, and the second row plus the column sums of the
  block's squares. At the first point it has just before stored zeros into both rows, so what it loads back are
  those zeros. Each row is written by stores that cover it whole, so what a point leaves in a row is the
  payload of the last store (`out_A_1 … out_B_2`, for any float values), and the two rows after a point are:
  at the first point, the step applied to the zero rows and block 0 (`outsAt_first`); at a later point, the step
  applied to what the point before left and that point's block (`outsAt_later`).
-/
import proofs.«152807_j76802605187214_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region4

open Cert.KernelIdeal Cert.KernelIdeal.Gen

/-! ## What one point leaves in the two rows, for any float values -/

section Pieces

variable {F : FTy → Type} [FloatOps F]

theorem hz : (![0, 0] : Fin 2 → Nat) = fun _ => 0 := funext fun a => by fin_cases a <;> rfl

/-- A later point leaves in the first row its one store's payload: the row as the point before left it, plus the
    block's column sums. Both loads read whole buffers. -/
theorem out_B_1 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S10000x64) hz,
    View.ld_unit_zero (S := S1x64) hz]

/-- A later point leaves in the second row: the row as it was, plus the column sums of the block's squares. -/
theorem out_B_2 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S10000x64) hz,
    View.ld_unit_zero (S := S1x64) hz]

/-- The first point stores the zero row, reads it back, and leaves: zero plus the block's column sums. The
    read-back is a covered load of the store just made. -/
theorem out_A_1 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S10000x64) hz]

/-- The first point leaves in the second row: zero plus the column sums of the block's squares. -/
theorem out_A_2 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S10000x64) hz]

variable (V : (c : Dev nD) → (b : Ref sig .tc) → Buf (Elt F) ((c : Thread nD τ).loc b))

/-- The two rows after the first point: the reset case on block 0. -/
theorem outsAt_first (c : Dev nD) (t : Fin cfg4.N) (h0 : t.val % 10 = 0) :
    outsAt4 V c t.val t.isLt
      = (k4_pay4 (iblk4 V c 0 t) k4_pay1, k4_pay5 (iblk4 V c 0 t) k4_pay2) := by
  rw [outsAt4_A V c t h0]
  exact Prod.ext
    (out_A_1 c (grid4.coords t) (ms4_0 t) (hs4_0 t) (ms4_1 t) (hs4_1 t) (ms4_2 t) (hs4_2 t) ((hcond4_0 t).mpr h0) (iblk4 V c 0 t))
    (out_A_2 c (grid4.coords t) (ms4_0 t) (hs4_0 t) (ms4_1 t) (hs4_1 t) (ms4_2 t) (hs4_2 t) ((hcond4_0 t).mpr h0) (iblk4 V c 0 t))

/-- The two rows after a later point: the accumulating case on block `t`, over what the point before left. -/
theorem outsAt_later (c : Dev nD) (t : Fin cfg4.N) (h0 : ¬t.val % 10 = 0) :
    outsAt4 V c t.val t.isLt
      = (k4_pay4 (iblk4 V c 0 t) (outsAt4 V c (t.val - 1) (Nat.lt_of_le_of_lt (Nat.sub_le _ _) t.isLt)).1,
         k4_pay5 (iblk4 V c 0 t) (outsAt4 V c (t.val - 1) (Nat.lt_of_le_of_lt (Nat.sub_le _ _) t.isLt)).2) := by
  rw [outsAt4_B V c t h0]
  exact Prod.ext
    (out_B_1 c (grid4.coords t) (ms4_0 t) (hs4_0 t) (ms4_1 t) (hs4_1 t) (ms4_2 t) (hs4_2 t) (fun h => h0 ((hcond4_0 t).mp h)) (iblk4 V c 0 t)
      (outsAt4 V c (t.val - 1) (Nat.lt_of_le_of_lt (Nat.sub_le _ _) t.isLt)).1 (outsAt4 V c (t.val - 1) (Nat.lt_of_le_of_lt (Nat.sub_le _ _) t.isLt)).2)
    (out_B_2 c (grid4.coords t) (ms4_0 t) (hs4_0 t) (ms4_1 t) (hs4_1 t) (ms4_2 t) (hs4_2 t) (fun h => h0 ((hcond4_0 t).mp h)) (iblk4 V c 0 t)
      (outsAt4 V c (t.val - 1) (Nat.lt_of_le_of_lt (Nat.sub_le _ _) t.isLt)).1 (outsAt4 V c (t.val - 1) (Nat.lt_of_le_of_lt (Nat.sub_le _ _) t.isLt)).2)

end Pieces

end Cert.KernelIdeal.Region4

end
-- ==== Proof.RegionStats4Totals.lean ====
/-
  Region 4: the running column totals of a 100000 × 64 array read in ten blocks of rows.

  At point `t` the region reads block `t` of its input — the rows `10000·t + k`, `k < 10000`, all 64 columns
  (`iblk_apply`) — and keeps two 1 × 64 rows that stay resident across the points. Read at column `col`, one
  point's step adds to the first row the sum down that column of the block and to the second the sum of the
  squared entries (`pay4_apply`, `pay5_apply`); the first point starts both from zero (`pay1_apply`,
  `pay2_apply`). So after point `n` the rows hold, in column `col`, the sum of the block totals of blocks
  `0 … n` (`running`, by induction on the point: point 0 is the reset case, every later point adds to what the
  point before left), and after the last point the totals over all 100000 rows (`last_sum`, `last_sumsq`):
  the ten blocks partition the rows, and regrouping a sum of extended reals needs no finiteness.
-/
import proofs.«152807_j76802605187214_1_alg».proof.Proof.RegionStats4Points
import proofs.«152807_j76802605187214_1_alg».proof.Proof.Spec
import proofs.«152807_j76802605187214_1_alg».proof.Proof.RegionStatsBlocks

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen
open Cert.StatsBlocks (blockRow blockTotal)

/-! ## One step, read at a column -/

/-- The first row's step at column `col`: the row as it was, plus the sum down the column of the block. -/
theorem pay4_apply (x : FVec Ideal S10000x64 .f32) (acc : FVec Ideal S1x64 .f32) (col : Fin 64) :
    k4_pay4 (F := Ideal) x acc (ix2 (0 : Fin 1) col)
      = acc (ix2 (0 : Fin 1) col) + ∑ k : Fin 10000, x (ix2 k col) := by
  unfold k4_pay4 k4_pay3
  exact Cert.StatsBlocks.step_sum x acc _ _ _ _ _ _ col

/-- The second row's step at column `col`: the row as it was, plus the sum down the column of the squares. -/
theorem pay5_apply (x : FVec Ideal S10000x64 .f32) (acc : FVec Ideal S1x64 .f32) (col : Fin 64) :
    k4_pay5 (F := Ideal) x acc (ix2 (0 : Fin 1) col)
      = acc (ix2 (0 : Fin 1) col) + ∑ k : Fin 10000, x (ix2 k col) * x (ix2 k col) := by
  unfold k4_pay5 k4_pay3
  exact Cert.StatsBlocks.step_sumsq x acc _ _ _ _ _ _ col

/-- The row the first point stores into the first output is zero at every column. -/
theorem pay1_apply (col : Fin 64) : k4_pay1 (F := Ideal) (ix2 (0 : Fin 1) col) = 0 := by
  unfold k4_pay1
  exact Cert.StatsBlocks.zero_row col

/-- The row the first point stores into the second output is zero at every column. -/
theorem pay2_apply (col : Fin 64) : k4_pay2 (F := Ideal) (ix2 (0 : Fin 1) col) = 0 := by
  unfold k4_pay2
  exact Cert.StatsBlocks.zero_row col

/-! ## The blocks of the input -/

variable (V : (c : Dev nD) → (b : Ref sig .tc) → Buf (Elt Ideal) ((c : Thread nD τ).loc b))

/-- The input window's block index at point `t` is `(t, 0)`: decided over the ten points. -/
theorem idx_facts : ∀ t : Fin cfg4.N, win4_0.index t 0 = t.val ∧ win4_0.index t 1 = 0 :=
  (by decide +kernel : ∀ t : Fin grid4.N, win4_0.index t 0 = t.val ∧ win4_0.index t 1 = 0)

/-- Column `col` of the input array as the region finds it, as a function of the row. -/
def column (c : Dev nD) (col : Fin 64) : Fin 100000 → EReal :=
  fun r => (V c main_v99 : Cert.Spec.SN.Idx → EReal) (ix2 r col)

/-- The squares of column `col`. -/
def columnSq (c : Dev nD) (col : Fin 64) : Fin 100000 → EReal :=
  fun r => column V c col r * column V c col r

/-- Entry `(k, col)` of the block read at point `t` is entry `(10000·t + k, col)` of the input array. -/
theorem iblk_apply (c : Dev nD) (t : Fin cfg4.N) (ht : t.val < 10) (x : FVec Ideal S10000x64 .f32)
    (hx : x = iblk4 V c 0 t) (k : Fin 10000) (col : Fin 64) :
    x (ix2 k col) = column V c col (blockRow ⟨t.val, ht⟩ k) := by
  subst hx
  unfold iblk4 column
  rw [View.read_apply]
  show V c main_v99 _ = V c main_v99 _
  congr 1
  funext a
  apply Fin.ext
  match a with
  | ⟨0, _⟩ =>
    show win4_0.index t 0 * 10000 + 1 * k.val = 10000 * t.val + k.val
    rw [(idx_facts t).1]; omega
  | ⟨1, _⟩ =>
    show win4_0.index t 1 * 64 + 1 * col.val = col.val
    rw [(idx_facts t).2]; omega

/-- The sum down column `col` of the block read at point `t` is the column's total over block `t`. -/
theorem block_sum (c : Dev nD) (t : Fin cfg4.N) (ht : t.val < 10) (x : FVec Ideal S10000x64 .f32)
    (hx : x = iblk4 V c 0 t) (col : Fin 64) :
    ∑ k : Fin 10000, x (ix2 k col) = blockTotal (column V c col) t.val := by
  rw [Cert.StatsBlocks.blockTotal_of_lt _ _ ht]
  exact Finset.sum_congr rfl fun k _ => iblk_apply V c t ht x hx k col

/-- The same for the squares. -/
theorem block_sumsq (c : Dev nD) (t : Fin cfg4.N) (ht : t.val < 10) (x : FVec Ideal S10000x64 .f32)
    (hx : x = iblk4 V c 0 t) (col : Fin 64) :
    ∑ k : Fin 10000, x (ix2 k col) * x (ix2 k col) = blockTotal (columnSq V c col) t.val := by
  rw [Cert.StatsBlocks.blockTotal_of_lt _ _ ht]
  exact Finset.sum_congr rfl fun k _ =>
    congrArg₂ (· * ·) (iblk_apply V c t ht x hx k col) (iblk_apply V c t ht x hx k col)

/-! ## The running totals -/

/-- After point `n` the two rows hold, in column `col`, the column's (and its squares') totals over blocks `0 … n`:
    point 0 starts from zero, each later point adds its block's total to what the point before left. -/
theorem running (c : Dev nD) : ∀ (n : ℕ) (h : n < cfg4.N) (col : Fin 64),
    (outsAt4 V c n h).1 (ix2 (0 : Fin 1) col) = ∑ s ∈ Finset.range (n + 1), blockTotal (column V c col) s
      ∧ (outsAt4 V c n h).2 (ix2 (0 : Fin 1) col) = ∑ s ∈ Finset.range (n + 1), blockTotal (columnSq V c col) s
  | 0, h, col => by
    have e := outsAt_first V c ⟨0, h⟩ (Nat.zero_mod 10)
    have h10 : (⟨0, h⟩ : Fin cfg4.N).val < 10 := Nat.zero_lt_succ 9
    refine ⟨?_, ?_⟩
    · refine (congrFun (congrArg Prod.fst e) (ix2 (0 : Fin 1) col)).trans ?_
      refine (pay4_apply (iblk4 V c 0 ⟨0, h⟩) k4_pay1 col).trans ?_
      exact Cert.StatsBlocks.start_total _ _ _ (pay1_apply col) (block_sum V c ⟨0, h⟩ h10 (iblk4 V c 0 ⟨0, h⟩) rfl col)
    · refine (congrFun (congrArg Prod.snd e) (ix2 (0 : Fin 1) col)).trans ?_
      refine (pay5_apply (iblk4 V c 0 ⟨0, h⟩) k4_pay2 col).trans ?_
      exact Cert.StatsBlocks.start_total _ _ _ (pay2_apply col) (block_sumsq V c ⟨0, h⟩ h10 (iblk4 V c 0 ⟨0, h⟩) rfl col)
  | n + 1, h, col => by
    have hN : cfg4.N = 10 := N_4
    have hB : ¬(⟨n + 1, h⟩ : Fin cfg4.N).val % 10 = 0 := by dsimp only; omega
    have h10 : (⟨n + 1, h⟩ : Fin cfg4.N).val < 10 := by dsimp only; omega
    have e := outsAt_later V c ⟨n + 1, h⟩ hB
    have ih := running c n (Nat.lt_of_succ_lt h) col
    refine ⟨?_, ?_⟩
    · refine (congrFun (congrArg Prod.fst e) (ix2 (0 : Fin 1) col)).trans ?_
      refine (pay4_apply (iblk4 V c 0 ⟨n + 1, h⟩) (outsAt4 V c n (Nat.lt_of_succ_lt h)).1 col).trans ?_
      exact Cert.StatsBlocks.next_total _ n _ _ ih.1 (block_sum V c ⟨n + 1, h⟩ h10 (iblk4 V c 0 ⟨n + 1, h⟩) rfl col)
    · refine (congrFun (congrArg Prod.snd e) (ix2 (0 : Fin 1) col)).trans ?_
      refine (pay5_apply (iblk4 V c 0 ⟨n + 1, h⟩) (outsAt4 V c n (Nat.lt_of_succ_lt h)).2 col).trans ?_
      exact Cert.StatsBlocks.next_total _ n _ _ ih.2 (block_sumsq V c ⟨n + 1, h⟩ h10 (iblk4 V c 0 ⟨n + 1, h⟩) rfl col)

/-- After the last point the first row holds the column sums of the whole input. -/
theorem last_sum (c : Dev nD) (h : 9 < cfg4.N) :
    (outsAt4 V c 9 h).1 = (Cert.Spec.colSum (V c main_v99) : Cert.Spec.SR.Idx → EReal) := by
  funext j
  obtain ⟨col, rfl⟩ : ∃ col : Fin 64, j = ix2 (0 : Fin 1) col := ⟨_, Cert.Spec.eq_zero_col j⟩
  exact ((running V c 9 h col).1).trans (Cert.StatsBlocks.sum_blockTotal (column V c col))

/-- After the last point the second row holds the column sums of squares of the whole input. -/
theorem last_sumsq (c : Dev nD) (h : 9 < cfg4.N) :
    (outsAt4 V c 9 h).2 = (Cert.Spec.colSumSq (V c main_v99) : Cert.Spec.SR.Idx → EReal) := by
  funext j
  obtain ⟨col, rfl⟩ : ∃ col : Fin 64, j = ix2 (0 : Fin 1) col := ⟨_, Cert.Spec.eq_zero_col j⟩
  exact ((running V c 9 h col).2).trans (Cert.StatsBlocks.sum_blockTotal (columnSq V c col))

end Cert.KernelIdeal.Region4

end
-- ==== Proof.RegionStats4.lean ====
/-
  Region 4: the column statistics of a 100000 × 64 array, as two whole-array functions.

  The region keeps two 1 × 64 rows resident across its ten grid points; after the last point they hold the
  column sums and the column sums of squares of the whole input. Only the last point writes the rows back, and
  each row is a single block that is the whole 1 × 64 array (its block index is `(0, 0)` at every point), so
  what that point writes is the array (`flushed_sum`, `flushed_sumsq`) and its block covers every index. The
  two output arrays therefore end holding exactly the column sums and the column sums of squares of the input
  as the region found it (`sum_eq`, `sumsq_eq`).
-/
import proofs.«152807_j76802605187214_1_alg».proof.Proof.RegionStats4Totals

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

/-! ## What the last point writes back, and the arrays after the region -/

/-- The one write-back of the first row, at the last point, writes the column sums: its block `(0, 0)` of the
    1 × 64 array, read through zero offsets, is the array. -/
theorem flushed_sum (c : Dev nD) (t : Fin cfg4.N) (hf : (cfg4.win 1).flush t = true) :
    (dat4 V c).flushed 1 t
      = ((cfg4.win 1).blk t).view.read (Elt Ideal)
          (Cert.Spec.colSum (V c main_v99) : Buf (Elt Ideal) ((c : Thread nD τ).loc main_v100_0)) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  have e : (outsAt4 V c t4_9.val t4_9.isLt).1 = (Cert.Spec.colSum (V c main_v99) : Cert.Spec.SR.Idx → EReal) :=
    last_sum V c t4_9.isLt
  rw [e]
  have hz' : (fun a => win4_1.index t4_9 a * main_v100_0.ty.shape.size a) = fun _ => 0 :=
    funext fun a => by fin_cases a <;> decide
  exact (Memref.read_access_unit_zero (Elt Ideal) main_v100_0 hz' (fun a => by rw [congrFun hz' a]; simp)
    (Cert.Spec.colSum (V c main_v99) : Buf (Elt Ideal) ((c : Thread nD τ).loc main_v100_0))).symm

/-- The same for the second row: the last point writes the column sums of squares. -/
theorem flushed_sumsq (c : Dev nD) (t : Fin cfg4.N) (hf : (cfg4.win 2).flush t = true) :
    (dat4 V c).flushed 2 t
      = ((cfg4.win 2).blk t).view.read (Elt Ideal)
          (Cert.Spec.colSumSq (V c main_v99) : Buf (Elt Ideal) ((c : Thread nD τ).loc main_v100_1)) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have e : (outsAt4 V c t4_9.val t4_9.isLt).2 = (Cert.Spec.colSumSq (V c main_v99) : Cert.Spec.SR.Idx → EReal) :=
    last_sumsq V c t4_9.isLt
  rw [e]
  have hz' : (fun a => win4_2.index t4_9 a * main_v100_1.ty.shape.size a) = fun _ => 0 :=
    funext fun a => by fin_cases a <;> decide
  exact (Memref.read_access_unit_zero (Elt Ideal) main_v100_1 hz' (fun a => by rw [congrFun hz' a]; simp)
    (Cert.Spec.colSumSq (V c main_v99) : Buf (Elt Ideal) ((c : Thread nD τ).loc main_v100_1))).symm

/-- The first output array after the region: the column sums of the input as the region found it. The last
    point's block covers the whole 1 × 64 array. -/
theorem sum_eq (c : Dev nD) :
    (dat4 (F := Ideal) V c).arrAt 1 cfg4.N = Cert.Spec.colSum (V c main_v99) :=
  (dat4 V c).arrAt_eq_of_cover 1 (Cert.Spec.colSum (V c main_v99)) (flushed_sum V c) fun i =>
    ⟨t4_9, (flush4_1 t4_9).mpr rfl, by
      show i ∈ ((View.whole main_v100_0).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_1.index t4_9 0 * win4_1.size 0 ≤ (i 0 : Nat) ∧ (i 0 : Nat) < win4_1.index t4_9 0 * win4_1.size 0 + win4_1.xsize (grid4.coords t4_9) 0
        rw [show win4_1.index t4_9 0 * win4_1.size 0 = 0 from by decide +kernel, show win4_1.xsize (grid4.coords t4_9) 0 = 1 from by decide +kernel]; omega
      | ⟨1, _⟩ =>
        show win4_1.index t4_9 1 * win4_1.size 1 ≤ (i 1 : Nat) ∧ (i 1 : Nat) < win4_1.index t4_9 1 * win4_1.size 1 + win4_1.xsize (grid4.coords t4_9) 1
        rw [show win4_1.index t4_9 1 * win4_1.size 1 = 0 from by decide +kernel, show win4_1.xsize (grid4.coords t4_9) 1 = 64 from by decide +kernel]; omega⟩

/-- The second output array after the region: the column sums of squares of the input as the region found it. -/
theorem sumsq_eq (c : Dev nD) :
    (dat4 (F := Ideal) V c).arrAt 2 cfg4.N = Cert.Spec.colSumSq (V c main_v99) :=
  (dat4 V c).arrAt_eq_of_cover 2 (Cert.Spec.colSumSq (V c main_v99)) (flushed_sumsq V c) fun i =>
    ⟨t4_9, (flush4_2 t4_9).mpr rfl, by
      show i ∈ ((View.whole main_v100_1).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 1 from by decide +kernel]; omega
      | ⟨1, _⟩ =>
        show win4_2.index t4_9 1 * win4_2.size 1 ≤ (i 1 : Nat) ∧ (i 1 : Nat) < win4_2.index t4_9 1 * win4_2.size 1 + win4_2.xsize (grid4.coords t4_9) 1
        rw [show win4_2.index t4_9 1 * win4_2.size 1 = 0 from by decide +kernel, show win4_2.xsize (grid4.coords t4_9) 1 = 64 from by decide +kernel]; omega⟩

end Cert.KernelIdeal.Region4

end
-- ==== Proof.Consts.lean ====
/-
  The float literals whose VALUES the argument needs.

  The batch size appears as the single-precision pattern `0x47C35000`: sign 0, exponent 143, fraction
  4411392 / 2^23, that is 2^16 · (1 + 4411392 / 8388608) = 65536 + 34464 = 100000, exactly the number of
  rows. The variance's guard appears as `0x3727C5AC` (the float nearest 1e-5): all that matters is
  that it is a positive real number. Every other literal occurs identically on both sides and is never
  evaluated.
-/
import Idealize.ShloMosaic.PureOps.Ideal.Laws

noncomputable section

open Idealize.ShloMosaic

namespace Cert.Consts

/-- The pattern `0x47C35000` is the number 100000. -/
theorem ofBits_rows : Ideal.ofBits .f32 0x47C35000#32 = ((100000 : ℝ) : EReal) := by
  simp [Ideal.ofBits, Ideal.ieee]
  have h : ((12800000 : ℝ) * ((2 : ℝ) ^ 7)⁻¹) = 100000 := by norm_num
  exact_mod_cast h

/-- The pattern `0x3727C5AC` is a positive real number. -/
theorem ofBits_eps : ∃ ε : ℝ, 0 < ε ∧ Ideal.ofBits .f32 0x3727C5AC#32 = (ε : EReal) := by
  refine ⟨(10995116 : ℝ) * ((2 : ℝ) ^ 40)⁻¹, by positivity, ?_⟩
  simp [Ideal.ofBits, Ideal.ieee]

/-- The pattern `0x3C23D70A` (the float nearest 0.01) is a real number. -/
theorem ofBits_slope : ∃ σ : ℝ, Ideal.ofBits .f32 0x3C23D70A#32 = (σ : EReal) := by
  refine ⟨(10737418 : ℝ) * ((2 : ℝ) ^ 30)⁻¹, ?_⟩
  simp [Ideal.ofBits, Ideal.ieee]

end Cert.Consts

end
-- ==== Proof.KernelBatchNorm.lean ====
/-
  The kernel program's normalisation read at one entry, on real data.

  Let the array `p` hold the reals `P r c`. Its column sums and column sums of squares, kept as 1 × 64
  rows, are `S c = ∑ r, P r c` and `Q c = ∑ r, P r c · P r c`. The host turns them into a mean
  `S c / 100000`, a variance `Q c / 100000 − mean²`, a scale `γ c · rsqrt (variance + ε)` and a shift
  `β c − mean · scale`; the last region computes `x · scale + shift` and rectifies it with the test
  `0 < y`. So the entry `(r, c)` of the layer's result is the folded form of `BatchNorm.entry_eq`.
-/
import proofs.«152807_j76802605187214_1_alg».proof.Proof.KernelStages
import proofs.«152807_j76802605187214_1_alg».proof.Proof.LibHostReads
import proofs.«152807_j76802605187214_1_alg».proof.Proof.LibERealSums
import proofs.«152807_j76802605187214_1_alg».proof.Proof.Consts

noncomputable section

open scoped BigOperators

open Idealize.ShloMosaic Idealize.ShloMosaic.ValueIdx

namespace Cert.KernelBatchNorm

open Cert.KernelIdeal Cert.KernelIdeal.KStages Cert.KernelIdeal.Facts₀

variable [Cert.KernelIdeal.Facts₀]

/-- A scalar spread over any shape reads, anywhere, the scalar. -/
theorem bcast_scalar_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  congrArg x (funext fun a => a.elim0)

/-- A row of totals divided by the row count, at column `c`. -/
theorem rowMean_apply (s : Row) (c : Fin 64) :
    rowMean s (ix2 0 c) = Ideal.div (s (ix2 0 c)) ((100000 : ℝ) : EReal) := by
  unfold rowMean
  show Ideal.div (s (ix2 0 c))
    (broadcastInDim S1x64 ![] bcast_S_S1x64 (constant (F := Ideal) S_ .f32 0x47C35000#32) (ix2 0 c)) = _
  rw [bcast_scalar_apply, constant_apply, Cert.Consts.ofBits_rows]

/-- The scale at column `c`. -/
theorem bnScale_apply (s q : Row) (γ : Param) (c : Fin 64) :
    bnScale s q γ (ix2 0 c)
      = γ (ix1 c) * Ideal.rsqrt ((Ideal.div (q (ix2 0 c)) ((100000 : ℝ) : EReal)
          - Ideal.div (s (ix2 0 c)) ((100000 : ℝ) : EReal) * Ideal.div (s (ix2 0 c)) ((100000 : ℝ) : EReal))
          + Ideal.ofBits .f32 0x3727C5AC#32) := by
  unfold bnScale
  rw [mulf_apply, Cert.LibHostReads.rowInner_apply]
  show _ * Ideal.rsqrt ((addf (F := Ideal) (φ := .f32) (subf (F := Ideal) (φ := .f32) (rowMean q)
      (mulf (F := Ideal) (φ := .f32) (rowMean s) (rowMean s)))
      (broadcastInDim S1x64 ![] bcast_S_S1x64 (constant (F := Ideal) S_ .f32 0x3727C5AC#32))) (ix2 0 c)) = _
  rw [addf_apply, subf_apply, mulf_apply, rowMean_apply, rowMean_apply, bcast_scalar_apply, constant_apply]

/-- The shift at column `c`. -/
theorem bnShift_apply (s q : Row) (γ β : Param) (c : Fin 64) :
    bnShift s q γ β (ix2 0 c)
      = β (ix1 c) - Ideal.div (s (ix2 0 c)) ((100000 : ℝ) : EReal) * bnScale s q γ (ix2 0 c) := by
  unfold bnShift
  rw [subf_apply, mulf_apply, Cert.LibHostReads.rowInner_apply, rowMean_apply]

variable (p : Feat) (P : Fin 100000 → Fin 64 → ℝ) (hp : ∀ r c, p (ix2 r c) = ((P r c : ℝ) : EReal))

include hp

/-- The column sums of real data. -/
theorem colSum_apply (c : Fin 64) : Cert.Spec.colSum p (ix2 0 c) = ((∑ r, P r c : ℝ) : EReal) := by
  rw [Cert.Spec.colSum_ix2, Cert.LibERealSums.coe_finset_sum]
  exact Finset.sum_congr rfl fun k _ => hp k c

/-- The column sums of squares of real data. -/
theorem colSumSq_apply (c : Fin 64) : Cert.Spec.colSumSq p (ix2 0 c) = ((∑ r, P r c * P r c : ℝ) : EReal) := by
  rw [Cert.Spec.colSumSq_ix2, Cert.LibERealSums.coe_finset_sum]
  exact Finset.sum_congr rfl fun k _ => by rw [hp k c, ← EReal.coe_mul]

variable (γ β : Param) (G B : Fin 64 → ℝ) (hγ : ∀ c, γ (ix1 c) = ((G c : ℝ) : EReal))
  (hβ : ∀ c, β (ix1 c) = ((B c : ℝ) : EReal))

include hγ hβ

/-- THE KERNEL PROGRAM'S ENTRY: normalised in the folded form, rectified with the test `0 < y`. -/
theorem normAct_apply (r : Fin 100000) (c : Fin 64) :
    Cert.Spec.normAct p (bnScale (Cert.Spec.colSum p) (Cert.Spec.colSumSq p) γ)
        (bnShift (Cert.Spec.colSum p) (Cert.Spec.colSumSq p) γ β) (ix2 r c)
      = (let mean : EReal := Ideal.div ((∑ r, P r c : ℝ) : EReal) ((100000 : ℝ) : EReal)
         let var : EReal := Ideal.div ((∑ r, P r c * P r c : ℝ) : EReal) ((100000 : ℝ) : EReal) - mean * mean
         let scale : EReal := (G c : EReal) * Ideal.rsqrt (var + Ideal.ofBits .f32 0x3727C5AC#32)
         let shift : EReal := (B c : EReal) - mean * scale
         let y : EReal := (P r c : EReal) * scale + shift
         if 0 < y then y else Ideal.ofBits .f32 0x3C23D70A#32 * y) := by
  rw [Cert.Spec.normAct_ix2, bnShift_apply, bnScale_apply, colSum_apply p P hp, colSumSq_apply p P hp, hγ, hβ, hp]
  rfl

end Cert.KernelBatchNorm

end
-- ==== Proof.LibHostColumns.lean ====
/-
  Three readings of host operations over the extended reals.

  * The host's sum down the columns of a matrix (a `reduce` with an add body over axis 0 and a scalar
    initial value), at column `c`: the initial value plus `∑ k, v (k, c)`.
  * A `select` on the bit of an ordered comparison is the `if` on that comparison.
  * The integer zero converted to a float is zero.
-/
import proofs.«152807_j76802605187214_1_alg».proof.Proof.LibAxisZero
import Idealize.ShloMosaic.PureOps.Ideal.Laws
import Idealize.ShloMosaic.Lib.ValueIdx

noncomputable section

open scoped BigOperators

open Idealize.ShloMosaic Idealize.ShloMosaic.ValueIdx

namespace Cert.LibHostColumns

/-- The host's sum down the columns at `c`: the initial value plus the sum over the column. -/
theorem hostColSum_apply {m n : ℕ} (v : FVec Ideal (⟨2, ![m, n]⟩ : Shape) .f32) (init : (⟨0, ![]⟩ : Shape).Idx → EReal)
    (h' : (⟨2, ![m, n]⟩ : Shape).ReducesTo [0] (⟨1, ![n]⟩ : Shape))
    (hu : 0 < (⟨0, ![]⟩ : Shape).numel) (c : Fin n) :
    Host.reduceAdd (F := Ideal) (φ := .f32) v init h' hu (ix1 c) = init (Shape.Idx.first hu) + ∑ k : Fin m, v (ix2 k c) := by
  have h : (⟨2, ![m, n]⟩ : Shape).Reduces [0] (⟨1, ![n]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.LibAxisZero.lift_col h c k)

/-- A `select` on "`z ≤ y`" is the `if`. -/
theorem select_oge {α : Type} (y z : EReal) (a b : α) :
    Scalar.select (FloatOps.cmpf (F := Ideal) (φ := .f32) .oge y z) a b = if z ≤ y then a else b := by
  show (if Ideal.cmp .oge y z = 1 then a else b) = _
  unfold Ideal.cmp
  by_cases h : z ≤ y <;> simp [h]

/-- A `select` on "`z < y`" is the `if`. -/
theorem select_ogt {α : Type} (y z : EReal) (a b : α) :
    Scalar.select (FloatOps.cmpf (F := Ideal) (φ := .f32) .ogt y z) a b = if z < y then a else b := by
  show (if Ideal.cmp .ogt y z = 1 then a else b) = _
  unfold Ideal.cmp
  by_cases h : z < y <;> simp [h]

/-- The 32-bit integer zero, converted, is the real zero. -/
theorem sitofp_zero : FloatOps.sitofp (F := Ideal) .f32 (0#32 : BitVec 32) = (0 : EReal) := by
  show (((0#32 : BitVec 32).toInt : ℝ) : EReal) = 0
  simp

end Cert.LibHostColumns

end
-- ==== Proof.BatchNormReal.lean ====
/-
  Batch normalisation, entry by entry, on real data: the folded form equals the centred form.

  Fix one column of real numbers `P r`, `r` over the 100000 rows, with sum `S`, sum of squares `Q`
  and mean `μ = S / 100000`. The centred sum of squares is `∑ (P r - μ)² = Q - S² / 100000`
  (expand the square; the cross term is `2 μ S` and the constant term `100000 μ²`), so the two-pass
  variance `(∑ (P r - μ)²) / 100000` is the one-pass variance `Q / 100000 - μ²`, and it is not
  negative. With a positive guard `ε` the reciprocal square root `ρ` of `variance + ε` is then a real
  number, and for a real `x`, gain `γ` and offset `β`
      x · (γ ρ) + (β - μ · (γ ρ))  =  (γ · (x - μ)) · ρ + β
  by distributivity. The leaky rectifier written with the test `0 < y` and the one written with
  `0 ≤ y` agree: at `y = 0` one gives `slope · 0 = 0` and the other `0`.
-/
import Mathlib.Analysis.SpecialFunctions.Pow.Real
import Idealize.ShloMosaic.PureOps.Ideal.Laws

noncomputable section

open scoped BigOperators

open Idealize.ShloMosaic

namespace Cert.BatchNorm

/-- The centred sum of squares of a column of 100000 reals. -/
theorem centred_sum_sq (P : Fin 100000 → ℝ) :
    ∑ r, (P r - (∑ r, P r) / 100000) * (P r - (∑ r, P r) / 100000)
      = (∑ r, P r * P r) - (∑ r, P r) * (∑ r, P r) / 100000 := by
  have h : ∀ r, (P r - (∑ r, P r) / 100000) * (P r - (∑ r, P r) / 100000)
      = P r * P r - 2 * ((∑ r, P r) / 100000) * P r + ((∑ r, P r) / 100000) * ((∑ r, P r) / 100000) :=
    fun r => by ring
  simp only [h, Finset.sum_add_distrib, Finset.sum_sub_distrib, ← Finset.mul_sum, Finset.sum_const,
    Finset.card_univ, Fintype.card_fin, nsmul_eq_mul]
  push_cast
  ring

/-- It is not negative. -/
theorem centred_sum_sq_nonneg (P : Fin 100000 → ℝ) :
    0 ≤ ∑ r, (P r - (∑ r, P r) / 100000) * (P r - (∑ r, P r) / 100000) :=
  Finset.sum_nonneg fun r _ => mul_self_nonneg _

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- The reciprocal square root of a positive real is a real. -/
theorem rsqrt_coe_pos {v : ℝ} (h : 0 < v) : Ideal.rsqrt (v : EReal) = (((Real.sqrt v)⁻¹ : ℝ) : EReal) := by
  rw [Ideal.rsqrt_coe, if_neg (not_lt.mpr h.le), if_neg (ne_of_gt h)]

/-- The two rectifiers agree at a common real value: they differ only at `0`, where one gives `slope · 0` and
    the other `0`. -/
theorem leaky_agree (slope a b : EReal) (y : ℝ) (ha : a = (y : EReal)) (hb : b = (y : EReal)) :
    (if 0 < a then a else slope * a) = (if 0 ≤ b then b else slope * b) := by
  subst ha hb
  rcases lt_trichotomy 0 y with h | h | h
  · rw [if_pos (by exact_mod_cast h), if_pos (by exact_mod_cast h.le)]
  · subst h; simp
  · rw [if_neg (by exact_mod_cast not_lt.mpr h.le), if_neg (by exact_mod_cast not_le.mpr h)]

/-- THE ENTRY: the folded form `x · scale + shift` rectified with the test `0 < y`, against the centred
    form `(γ (x - μ)) ρ + β` rectified with the test `0 ≤ y`; `S`, `Q` the column's sum and sum of squares,
    `T` its centred sum of squares. -/
theorem entry_eq (slope : EReal) (x S Q T γ β ε : ℝ) (hε : 0 < ε) (hT : T = Q - S * S / 100000) (hT0 : 0 ≤ T) :
    (let mean : EReal := Ideal.div (S : EReal) ((100000 : ℝ) : EReal)
     let var : EReal := Ideal.div (Q : EReal) ((100000 : ℝ) : EReal) - mean * mean
     let scale : EReal := (γ : EReal) * Ideal.rsqrt (var + (ε : EReal))
     let shift : EReal := (β : EReal) - mean * scale
     let y : EReal := (x : EReal) * scale + shift
     if 0 < y then y else slope * y)
    = (let mean : EReal := Ideal.div (S : EReal) ((100000 : ℝ) : EReal)
       let var : EReal := Ideal.div (T : EReal) ((100000 : ℝ) : EReal)
       let y : EReal := ((γ : EReal) * ((x : EReal) - mean)) * Ideal.rsqrt (var + (ε : EReal)) + (β : EReal)
       if 0 ≤ y then y else slope * y) := by
  have hN : (100000 : ℝ) ≠ 0 := by norm_num
  have hv : Q / 100000 - S / 100000 * (S / 100000) = T / 100000 := by rw [hT]; field_simp
  have hpos : 0 < T / 100000 + ε := by positivity
  dsimp only
  refine leaky_agree slope _ _ (γ * (x - S / 100000) * (Real.sqrt (T / 100000 + ε))⁻¹ + β) ?_ ?_
  · rw [div_coe_coe hN, div_coe_coe hN, ← EReal.coe_mul, ← EReal.coe_sub, hv, ← EReal.coe_add, rsqrt_coe_pos hpos]
    simp only [← EReal.coe_mul, ← EReal.coe_sub, ← EReal.coe_add]
    congr 1; ring
  · rw [div_coe_coe hN, div_coe_coe hN, ← EReal.coe_add, rsqrt_coe_pos hpos]
    simp only [← EReal.coe_mul, ← EReal.coe_sub, ← EReal.coe_add]

/-- A rectified real value with a real slope is real. -/
theorem leaky_real (σ : ℝ) (a : EReal) (y : ℝ) (ha : a = (y : EReal)) :
    ∃ z : ℝ, (if 0 ≤ a then a else (σ : EReal) * a) = (z : EReal) := by
  subst ha
  by_cases h : (0 : EReal) ≤ (y : EReal)
  · exact ⟨y, if_pos h⟩
  · exact ⟨σ * y, by rw [if_neg h, EReal.coe_mul]⟩

/-- The centred form's value is a real number. -/
theorem centred_real (σ x S T γ β ε : ℝ) (hε : 0 < ε) (hT0 : 0 ≤ T) :
    ∃ z : ℝ,
      (let mean : EReal := Ideal.div (S : EReal) ((100000 : ℝ) : EReal)
       let var : EReal := Ideal.div (T : EReal) ((100000 : ℝ) : EReal)
       let y : EReal := ((γ : EReal) * ((x : EReal) - mean)) * Ideal.rsqrt (var + (ε : EReal)) + (β : EReal)
       if 0 ≤ y then y else (σ : EReal) * y) = (z : EReal) := by
  have hN : (100000 : ℝ) ≠ 0 := by norm_num
  have hpos : 0 < T / 100000 + ε := by positivity
  dsimp only
  refine leaky_real σ _ (γ * (x - S / 100000) * (Real.sqrt (T / 100000 + ε))⁻¹ + β) ?_
  rw [div_coe_coe hN, div_coe_coe hN, ← EReal.coe_add, rsqrt_coe_pos hpos]
  simp only [← EReal.coe_mul, ← EReal.coe_sub, ← EReal.coe_add]

end Cert.BatchNorm

end
-- ==== Proof.RefBatchNorm.lean ====
/-
  The reference's normalisation and rectifier read at one entry, on real data.

  Let the array `p` hold the reals `P r c`, and the gain and offset vectors the reals `G c`, `B c`. Column
  `c` has sum `S c = ∑ r, P r c`. The reference's column mean is `(0 + S c) / 100000`; its deviations are
  `P r c - S c / 100000`; its variance divides the column sum `T c` of the squared deviations by the
  count `100000 - 0`, which is positive, so the selection takes that quotient and never the filler
  constant. A vector repeated along the rows reads, at `(r, c)`, its entry `c`. So the normalised and
  rectified entry `(r, c)` is the centred form of `BatchNorm.entry_eq`.
-/
import proofs.«152807_j76802605187214_1_alg».proof.Proof.RefStages
import proofs.«152807_j76802605187214_1_alg».proof.Proof.LibHostReads
import proofs.«152807_j76802605187214_1_alg».proof.Proof.LibHostColumns
import proofs.«152807_j76802605187214_1_alg».proof.Proof.LibERealSums
import proofs.«152807_j76802605187214_1_alg».proof.Proof.Consts
import proofs.«152807_j76802605187214_1_alg».proof.Proof.BatchNormReal

noncomputable section

open scoped BigOperators

open Idealize.ShloMosaic Idealize.ShloMosaic.ValueIdx

namespace Cert.RefBatchNorm

open Cert.ReferenceIdeal Cert.ReferenceIdeal.RefStages Cert.ReferenceIdeal.Facts₀

variable [Cert.ReferenceIdeal.Facts]

/-- A scalar spread over any shape reads, anywhere, the scalar. -/
theorem bcast_scalar_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  congrArg x (funext fun a => a.elim0)

/-- A vector repeated along the rows reads, at `(r, c)`, its entry `c`. -/
theorem rows_apply (v : FVec Ideal S64 .f32) (r : Fin 100000) (c : Fin 64) : rows v (ix2 r c) = v (ix1 c) := by
  unfold rows
  rw [Cert.LibHostReads.rowOuter_apply, Cert.LibHostReads.rowInner_apply]

variable (p : FVec Ideal S100000x64 .f32) (P : Fin 100000 → Fin 64 → ℝ) (hp : ∀ r c, p (ix2 r c) = ((P r c : ℝ) : EReal))

include hp

/-- The column sums from zero are the real column sums. -/
theorem colsum_apply (c : Fin 64) :
    Host.reduceAdd (F := Ideal) p (constant (F := Ideal) S_ .f32 0x00000000#32) reducesTo_S100000x64_S64_d0 h_S_ (ix1 c)
      = ((∑ r, P r c : ℝ) : EReal) := by
  rw [Cert.LibHostColumns.hostColSum_apply, constant_apply, Ideal.ofBits_zero_f32, zero_add,
    Cert.LibERealSums.coe_finset_sum]
  exact Finset.sum_congr rfl fun k _ => hp k c

/-- The column means. -/
theorem mean_apply (c : Fin 64) :
    mean p (ix1 c) = Ideal.div ((∑ r, P r c : ℝ) : EReal) ((100000 : ℝ) : EReal) := by
  unfold mean
  show Ideal.div (Host.reduceAdd (F := Ideal) p _ reducesTo_S100000x64_S64_d0 h_S_ (ix1 c))
    (broadcastInDim S64 ![] bcast_S_S64 (constant (F := Ideal) S_ .f32 0x47C35000#32) (ix1 c)) = _
  rw [colsum_apply p P hp, bcast_scalar_apply, constant_apply, Cert.Consts.ofBits_rows]

/-- The deviations. -/
theorem dev_apply (r : Fin 100000) (c : Fin 64) :
    dev p (ix2 r c) = ((P r c - (∑ r, P r c) / 100000 : ℝ) : EReal) := by
  unfold dev
  rw [subf_apply, Cert.LibHostReads.rowOuter_apply]
  show p (ix2 r c) - Ideal.div
      (broadcastInDim S1x64 ![1] bcast_S64_S1x64_1
        (Host.reduceAdd (F := Ideal) p (constant (F := Ideal) S_ .f32 0x00000000#32) reducesTo_S100000x64_S64_d0 h_S_) (ix2 0 c))
      (broadcastInDim S1x64 ![] bcast_S_S1x64 (constant (F := Ideal) S_ .f32 0x47C35000#32) (ix2 0 c)) = _
  rw [Cert.LibHostReads.rowInner_apply, colsum_apply p P hp, bcast_scalar_apply, constant_apply,
    Cert.Consts.ofBits_rows, hp, Cert.BatchNorm.div_coe_coe (by norm_num), ← EReal.coe_sub]

omit hp in
/-- The divisor of the variance is 100000. -/
theorem count_apply : RefStages.count ix0 = ((100000 : ℝ) : EReal) := by
  unfold RefStages.count
  rw [subf_apply, constant_apply, Cert.Consts.ofBits_rows, sitofp_apply]
  show ((100000 : ℝ) : EReal) - FloatOps.sitofp (F := Ideal) .f32 (0#32 : BitVec 32) = _
  rw [Cert.LibHostColumns.sitofp_zero, sub_zero]

/-- The column variances: the column sums of the squared deviations over 100000. -/
theorem var_apply (c : Fin 64) :
    var p (ix1 c) = Ideal.div ((∑ r, (P r c - (∑ r, P r c) / 100000) * (P r c - (∑ r, P r c) / 100000) : ℝ) : EReal)
      ((100000 : ℝ) : EReal) := by
  unfold var
  rw [select_apply]
  rw [bcast_scalar_apply]
  rw [cmpf_apply]
  rw [count_apply]
  rw [constant_apply, Ideal.ofBits_zero_f32]
  rw [Cert.LibHostColumns.select_ogt]
  have h0 : (0 : EReal) < ((100000 : ℝ) : EReal) := by exact_mod_cast (by norm_num : (0 : ℝ) < 100000)
  rw [if_pos h0]
  show Ideal.div (Host.reduceAdd (F := Ideal) (mulf (dev p) (dev p)) _ reducesTo_S100000x64_S64_d0 h_S_ (ix1 c))
    (broadcastInDim S64 ![] bcast_S_S64 RefStages.count (ix1 c)) = _
  rw [bcast_scalar_apply, count_apply, Cert.LibHostColumns.hostColSum_apply, constant_apply, Ideal.ofBits_zero_f32,
    zero_add, Cert.LibERealSums.coe_finset_sum]
  have hs : (∑ k : Fin 100000, mulf (dev p) (dev p) (ix2 k c))
      = ∑ k : Fin 100000, (((P k c - (∑ r, P r c) / 100000) * (P k c - (∑ r, P r c) / 100000) : ℝ) : EReal) :=
    Finset.sum_congr rfl fun k _ => by rw [mulf_apply, dev_apply p P hp, ← EReal.coe_mul]
  rw [hs]

variable (γ β : FVec Ideal S64 .f32) (G B : Fin 64 → ℝ) (hγ : ∀ c, γ (ix1 c) = ((G c : ℝ) : EReal))
  (hβ : ∀ c, β (ix1 c) = ((B c : ℝ) : EReal))

include hγ hβ

/-- THE REFERENCE'S ENTRY: normalised in the centred form, rectified with the test `0 ≤ y`. -/
theorem leaky_bn_apply (r : Fin 100000) (c : Fin 64) :
    leaky (bn p γ β) (ix2 r c)
      = (let mean : EReal := Ideal.div ((∑ r, P r c : ℝ) : EReal) ((100000 : ℝ) : EReal)
         let var : EReal := Ideal.div ((∑ r, (P r c - (∑ r, P r c) / 100000) * (P r c - (∑ r, P r c) / 100000) : ℝ) : EReal)
           ((100000 : ℝ) : EReal)
         let y : EReal := ((G c : EReal) * ((P r c : EReal) - mean)) * Ideal.rsqrt (var + Ideal.ofBits .f32 0x3727C5AC#32) + (B c : EReal)
         if 0 ≤ y then y else Ideal.ofBits .f32 0x3C23D70A#32 * y) := by
  have hbn : bn p γ β (ix2 r c)
      = ((G c : EReal) * ((P r c : EReal) - Ideal.div ((∑ r, P r c : ℝ) : EReal) ((100000 : ℝ) : EReal)))
        * Ideal.rsqrt (Ideal.div ((∑ r, (P r c - (∑ r, P r c) / 100000) * (P r c - (∑ r, P r c) / 100000) : ℝ) : EReal)
            ((100000 : ℝ) : EReal) + Ideal.ofBits .f32 0x3727C5AC#32) + (B c : EReal) := by
    unfold bn
    rw [addf_apply, mulf_apply, mulf_apply, subf_apply, rows_apply, rows_apply, rows_apply, rows_apply, hγ, hβ, hp,
      mean_apply p P hp]
    show _ * Ideal.rsqrt ((addf (var p) (broadcastInDim S64 ![] bcast_S_S64 (constant (F := Ideal) S_ .f32 0x3727C5AC#32))) (ix1 c)) + _ = _
    rw [addf_apply, var_apply p P hp, bcast_scalar_apply, constant_apply]
  unfold leaky
  rw [select_apply, cmpf_apply, mulf_apply, bcast_scalar_apply, bcast_scalar_apply, constant_apply,
    Ideal.ofBits_zero_f32, Cert.LibHostColumns.select_oge, hbn]
  rfl

end Cert.RefBatchNorm

end
-- ==== Proof.LibRealArrays.lean ====
/-
  Arrays of real numbers inside arrays of extended reals, and the operations that keep them real.

  An array is REAL when every entry is (the coercion of) a real number. Reading an array at computed
  places (a gather, a broadcast) keeps it real; so do entrywise sums, differences and products, and a
  finite sum of entries — in particular the accumulating scatter, whose entry is the operand's entry
  plus a finite sum of update entries. The reciprocal square root keeps an array real where its entries are POSITIVE,
  and then the result is positive too. No operation here looks at which places are read: only at the
  fact that finitely many real numbers are combined.
-/
import Idealize.ShloMosaic.PureOps.Ideal.Laws
import Idealize.ShloMosaic.Lib.ValueIdx

noncomputable section

open scoped BigOperators

open Idealize.ShloMosaic Idealize.ShloMosaic.ValueIdx

namespace Cert.RealArr

/-- Every entry is a real number. -/
def IsReal {s : Shape} (v : s.Idx → EReal) : Prop := ∀ i, ∃ r : ℝ, v i = (r : EReal)

/-- Every entry is a positive real number. -/
def IsPos {s : Shape} (v : s.Idx → EReal) : Prop := ∀ i, ∃ r : ℝ, 0 < r ∧ v i = (r : EReal)

theorem IsPos.isReal {s : Shape} {v : s.Idx → EReal} (h : IsPos v) : IsReal v :=
  fun i => let ⟨r, _, e⟩ := h i; ⟨r, e⟩

/-- A finite sum of real numbers is a real number. -/
theorem sum_real {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert a s ha ih =>
    obtain ⟨ra, ea⟩ := h a (Finset.mem_insert_self a s)
    obtain ⟨rs, es⟩ := ih fun i hi => h i (Finset.mem_insert_of_mem hi)
    exact ⟨ra + rs, by rw [Finset.sum_insert ha, ea, es, EReal.coe_add]⟩

/-- A finite sum of nonnegative reals is a nonnegative real. -/
theorem sum_nonneg_real {ι : Type*} (s : Finset ι) (g : ι → EReal)
    (h : ∀ i ∈ s, ∃ r : ℝ, 0 ≤ r ∧ g i = (r : EReal)) : ∃ r : ℝ, 0 ≤ r ∧ ∑ i ∈ s, g i = (r : EReal) := by
  classical
  induction s using Finset.induction_on with
  | empty => exact ⟨0, le_rfl, by rw [Finset.sum_empty, EReal.coe_zero]⟩
  | insert a s ha ih =>
    obtain ⟨ra, pa, ea⟩ := h a (Finset.mem_insert_self a s)
    obtain ⟨rs, ps, es⟩ := ih fun i hi => h i (Finset.mem_insert_of_mem hi)
    exact ⟨ra + rs, add_nonneg pa ps, by rw [Finset.sum_insert ha, ea, es, EReal.coe_add]⟩

variable {s t : Shape}

/-- An array read at computed places (a gather) stays real. -/
theorem gather {si : Shape} {w : Nat} (d : GatherDims s si t) (x : s.Idx → EReal) (idx : IVec si w)
    (hx : IsReal x) : IsReal (Host.gather d x idx) := fun j => hx _

/-- A broadcast stays real. -/
theorem bcast (dims : Fin s.rank → Fin t.rank) (h : s.BroadcastsInDim t dims) (x : s.Idx → EReal)
    (hx : IsReal x) : IsReal (broadcastInDim t dims h x) := fun j => hx _

theorem bcast_pos (dims : Fin s.rank → Fin t.rank) (h : s.BroadcastsInDim t dims) (x : s.Idx → EReal)
    (hx : IsPos x) : IsPos (broadcastInDim t dims h x) := fun j => hx _

theorem mul (x y : FVec Ideal s .f32) (hx : IsReal x) (hy : IsReal y) : IsReal (mulf x y) := fun i => by
  obtain ⟨a, ea⟩ := hx i
  obtain ⟨b, eb⟩ := hy i
  exact ⟨a * b, by show x i * y i = _; rw [ea, eb, EReal.coe_mul]⟩

theorem add (x y : FVec Ideal s .f32) (hx : IsReal x) (hy : IsReal y) : IsReal (addf x y) := fun i => by
  obtain ⟨a, ea⟩ := hx i
  obtain ⟨b, eb⟩ := hy i
  exact ⟨a + b, by show x i + y i = _; rw [ea, eb, EReal.coe_add]⟩

theorem sub (x y : FVec Ideal s .f32) (hx : IsReal x) (hy : IsReal y) : IsReal (subf x y) := fun i => by
  obtain ⟨a, ea⟩ := hx i
  obtain ⟨b, eb⟩ := hy i
  exact ⟨a - b, by show x i - y i = _; rw [ea, eb, EReal.coe_sub]⟩

/-- A splat of a real constant is real. -/
theorem const (b : BitVec 32) (r : ℝ) (hb : Ideal.ofBits .f32 b = (r : EReal)) :
    IsReal (constant (F := Ideal) s .f32 b) := fun _ => ⟨r, hb⟩

/-- The accumulating scatter of a real array into a real array is real. -/
theorem scatterAdd {si u : Shape} {w : Nat} (d : ScatterDims s si u) (x : FVec Ideal s .f32) (idx : IVec si w)
    (upd : FVec Ideal u .f32) (hx : IsReal x) (hu : IsReal upd) : IsReal (Host.scatterAdd d x idx upd) := fun i => by
  obtain ⟨a, ea⟩ := hx i
  obtain ⟨b, eb⟩ := sum_real (Finset.univ.filter fun j => d.resultIdx? j idx = some i) upd fun j _ => hu j
  exact ⟨a + b, by
    show x i + ∑ j ∈ Finset.univ.filter (fun j => d.resultIdx? j idx = some i), upd j = _
    rw [ea, eb, EReal.coe_add]⟩

/-- The accumulating scatter of nonnegative reals into zeros, plus one, is positive. -/
theorem scatterAdd_count_pos {si u : Shape} {w : Nat} (d : ScatterDims s si u) (x : FVec Ideal s .f32)
    (idx : IVec si w) (upd one : FVec Ideal u .f32) (o : FVec Ideal s .f32)
    (hx : ∀ i, x i = 0) (hu : ∀ j, upd j = 1) (ho : ∀ i, o i = 1) :
    IsPos (addf (Host.scatterAdd d x idx upd) o) := fun i => by
  obtain ⟨b, pb, eb⟩ := sum_nonneg_real (Finset.univ.filter fun j => d.resultIdx? j idx = some i) upd
    fun j _ => ⟨1, zero_le_one, by rw [hu j, EReal.coe_one]⟩
  refine ⟨b + 1, by linarith, ?_⟩
  show (x i + ∑ j ∈ Finset.univ.filter (fun j => d.resultIdx? j idx = some i), upd j) + o i = _
  rw [hx i, ho i, eb, zero_add, EReal.coe_add, EReal.coe_one]

/-- The reciprocal square root of positive reals is positive reals. -/
theorem rsqrt_pos (v : FVec Ideal s .f32) (hv : IsPos v) : IsPos (Host.rsqrt v) := fun i => by
  obtain ⟨r, pr, er⟩ := hv i
  refine ⟨(Real.sqrt r)⁻¹, inv_pos.mpr (Real.sqrt_pos.mpr pr), ?_⟩
  show Ideal.rsqrt (v i) = _
  rw [er, Ideal.rsqrt_coe, if_neg (not_lt.mpr pr.le), if_neg (ne_of_gt pr)]

end Cert.RealArr

end
-- ==== Proof.RealArrays.lean ====
/-
  Real arrays through the layer's whole-array functions: the product of a real feature array with a real
  weight matrix is real (each entry is a finite sum of products of reals), and so are the column sums and the
  column sums of squares.
-/
import proofs.«152807_j76802605187214_1_alg».proof.Proof.Spec
import proofs.«152807_j76802605187214_1_alg».proof.Proof.LibRealArrays

noncomputable section

open scoped BigOperators

open Idealize.ShloMosaic Idealize.ShloMosaic.ValueIdx

namespace Cert.RealArr

/-- The product of a real feature array with a real weight matrix is real. -/
theorem mm (x : Spec.SN.Idx → EReal) (w : Spec.SW.Idx → EReal) (hx : IsReal x) (hw : IsReal w) :
    IsReal (Spec.mm x w) := fun i =>
  sum_real Finset.univ _ fun k _ => by
    obtain ⟨a, ea⟩ := hx (ix2 (Spec.rowOf i) k)
    obtain ⟨b, eb⟩ := hw (ix2 k (Spec.colOf i))
    exact ⟨a * b, by rw [ea, eb, EReal.coe_mul]⟩

/-- The column sums of a real array are real. -/
theorem colSum (v : Spec.SN.Idx → EReal) (hv : IsReal v) : IsReal (Spec.colSum v) := fun j =>
  sum_real Finset.univ _ fun r _ => hv _

/-- The column sums of squares of a real array are real. -/
theorem colSumSq (v : Spec.SN.Idx → EReal) (hv : IsReal v) : IsReal (Spec.colSumSq v) := fun j =>
  sum_real Finset.univ _ fun r _ => by
    obtain ⟨a, ea⟩ := hv (ix2 r (Spec.colOfR j))
    exact ⟨a * a, by rw [ea, EReal.coe_mul]⟩

end Cert.RealArr

end
-- ==== Proof.LayerBridge.lean ====
/-
  One layer, the kernel program's against the reference's, on real data.

  Both programs form the same aggregated array `p` from the product of the features with the weights
  (the reference by one host product, the kernel program block by block: the same sums), and on real
  inputs `p` is real. The kernel program then normalises in the folded form from the column sums and
  column sums of squares; the reference in the centred form from the mean and the two-pass variance. On
  real data the two are equal entry by entry (`BatchNorm.entry_eq` with `BatchNorm.centred_sum_sq`),
  and the result is again real, so the second layer starts from real data too.

  The three facts about the aggregation that this argument uses — the host product is the matrix product,
  the two programs' aggregation stages are the same function, and that function keeps real arrays real —
  are taken as hypotheses here and supplied where the certificate is assembled.
-/
import proofs.«152807_j76802605187214_1_alg».proof.Proof.KernelBatchNorm
import proofs.«152807_j76802605187214_1_alg».proof.Proof.RefBatchNorm
import proofs.«152807_j76802605187214_1_alg».proof.Proof.BatchNormReal
import proofs.«152807_j76802605187214_1_alg».proof.Proof.RealArrays

noncomputable section

open scoped BigOperators

open Idealize.ShloMosaic Idealize.ShloMosaic.ValueIdx

namespace Cert.LayerBridge

open Cert.RealArr
open Cert.KernelIdeal.KStages (Feat Weight Param Edges)

variable [Cert.KernelIdeal.Facts₀] [Cert.ReferenceIdeal.Facts]

/-- A real 100000 × 64 array is the array of a matrix of reals. -/
theorem exists_matrix (p : Feat) (hp : IsReal p) :
    ∃ P : Fin 100000 → Fin 64 → ℝ, ∀ r c, p (ix2 r c) = ((P r c : ℝ) : EReal) :=
  ⟨fun r c => (hp (ix2 r c)).choose, fun r c => (hp (ix2 r c)).choose_spec⟩

/-- A real vector of 64 entries is the vector of 64 reals. -/
theorem exists_vector (γ : Param) (hγ : IsReal γ) : ∃ G : Fin 64 → ℝ, ∀ c, γ (ix1 c) = ((G c : ℝ) : EReal) :=
  ⟨fun c => (hγ (ix1 c)).choose, fun c => (hγ (ix1 c)).choose_spec⟩

/-- The folded normalisation of the kernel program is the centred normalisation of the reference, on real data. -/
theorem bn_eq (p : Feat) (γ β : Param) (hp : IsReal p) (hγ : IsReal γ) (hβ : IsReal β) :
    Cert.Spec.normAct p
        (Cert.KernelIdeal.KStages.bnScale (Cert.Spec.colSum p) (Cert.Spec.colSumSq p) γ)
        (Cert.KernelIdeal.KStages.bnShift (Cert.Spec.colSum p) (Cert.Spec.colSumSq p) γ β)
      = Cert.ReferenceIdeal.RefStages.leaky (Cert.ReferenceIdeal.RefStages.bn p γ β) := by
  obtain ⟨P, hP⟩ := exists_matrix p hp
  obtain ⟨G, hG⟩ := exists_vector γ hγ
  obtain ⟨B, hB⟩ := exists_vector β hβ
  obtain ⟨ε, hε, he⟩ := Cert.Consts.ofBits_eps
  funext i
  rw [Cert.Spec.eq_row_col i, Cert.KernelBatchNorm.normAct_apply p P hP γ β G B hG hB,
    Cert.RefBatchNorm.leaky_bn_apply p P hP γ β G B hG hB, he]
  exact Cert.BatchNorm.entry_eq _ _ _ _ _ _ _ ε hε
    (Cert.BatchNorm.centred_sum_sq fun r => P r (Cert.Spec.colOf i))
    (Cert.BatchNorm.centred_sum_sq_nonneg fun r => P r (Cert.Spec.colOf i))

/-- The reference's normalised and rectified array is real, on real data. -/
theorem bn_real (p : Feat) (γ β : Param) (hp : IsReal p) (hγ : IsReal γ) (hβ : IsReal β) :
    IsReal (Cert.ReferenceIdeal.RefStages.leaky (Cert.ReferenceIdeal.RefStages.bn p γ β)) := by
  obtain ⟨P, hP⟩ := exists_matrix p hp
  obtain ⟨G, hG⟩ := exists_vector γ hγ
  obtain ⟨B, hB⟩ := exists_vector β hβ
  obtain ⟨ε, hε, he⟩ := Cert.Consts.ofBits_eps
  obtain ⟨σ, hs⟩ := Cert.Consts.ofBits_slope
  intro i
  rw [Cert.Spec.eq_row_col i, Cert.RefBatchNorm.leaky_bn_apply p P hP γ β G B hG hB, he, hs]
  exact Cert.BatchNorm.centred_real σ _ _ _ _ _ ε hε
    (Cert.BatchNorm.centred_sum_sq_nonneg fun r => P r (Cert.Spec.colOf i))

section Layers

variable (hdot : ∀ (h : Feat) (W : Weight), Cert.ReferenceIdeal.RefStages.dot h W = Cert.Spec.mm h W)
  (hagg : ∀ (ei : Edges) (xw : Feat) (b : Param),
    Cert.ReferenceIdeal.RefStages.agg ei xw b = Cert.KernelIdeal.KStages.agg ei xw b)
  (hreal : ∀ (ei : Edges) (xw : Feat) (b : Param), IsReal xw → IsReal b →
    IsReal (Cert.ReferenceIdeal.RefStages.agg ei xw b))

include hdot hagg hreal

/-- ONE LAYER: equal results, and a real result, on real inputs. -/
theorem layer_eq (ei : Edges) (h : Feat) (W : Weight) (b γ β : Param)
    (hh : IsReal h) (hW : IsReal W) (hb : IsReal b) (hγ : IsReal γ) (hβ : IsReal β) :
    Cert.KernelIdeal.KStages.layer ei h W b γ β = Cert.ReferenceIdeal.RefStages.layer ei h W b γ β
      ∧ IsReal (Cert.ReferenceIdeal.RefStages.layer ei h W b γ β) := by
  have hp : IsReal (Cert.ReferenceIdeal.RefStages.agg ei (Cert.Spec.mm h W) b) :=
    hreal ei _ b (Cert.RealArr.mm h W hh hW) hb
  have hconv : Cert.ReferenceIdeal.RefStages.conv ei h W b
      = Cert.ReferenceIdeal.RefStages.agg ei (Cert.Spec.mm h W) b := by
    unfold Cert.ReferenceIdeal.RefStages.conv
    rw [hdot]
  unfold Cert.ReferenceIdeal.RefStages.layer Cert.KernelIdeal.KStages.layer
  rw [hconv]
  dsimp only
  rw [← hagg ei (Cert.Spec.mm h W) b]
  exact ⟨bn_eq _ γ β hp hγ hβ, bn_real _ γ β hp hγ hβ⟩

/-- THE TWO PROGRAMS' RESULTS are equal on real inputs. -/
theorem out_eq (a0 : Feat) (a1 : Edges) (a2 : Weight) (a3 a4 a5 : Param) (a6 : Weight) (a7 a8 a9 : Param)
    (h0 : IsReal a0) (h2 : IsReal a2) (h3 : IsReal a3) (h4 : IsReal a4) (h5 : IsReal a5) (h6 : IsReal a6)
    (h7 : IsReal a7) (h8 : IsReal a8) (h9 : IsReal a9) :
    Cert.KernelIdeal.KStages.out a0 a1 a2 a3 a4 a5 a6 a7 a8 a9
      = Cert.ReferenceIdeal.RefStages.out a0 a1 a2 a3 a4 a5 a6 a7 a8 a9 := by
  obtain ⟨e1, r1⟩ := layer_eq hdot hagg hreal a1 a0 a2 a3 a4 a5 h0 h2 h3 h4 h5
  unfold Cert.KernelIdeal.KStages.out Cert.ReferenceIdeal.RefStages.out
  rw [e1]
  exact (layer_eq hdot hagg hreal a1 _ a6 a7 a8 a9 r1 h6 h7 h8 h9).1

end Layers

end Cert.LayerBridge

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.FiniteInputs.lean ====
/-
  The precondition, decoded: every float argument is an array of real numbers.

  The printed predicate tests, for each of the nine float arguments in turn, that every entry has absolute value
  strictly below +∞, reduces each test by "and" to one bit, and joins the nine bits by "and". If the joint
  bit is 1 then each of the nine is 1, and an extended real with |x| < +∞ is a real number.
-/
import proofs.«152807_j76802605187214_1_alg».proof.Pre_finite_inputs
import proofs.«152807_j76802605187214_1_alg».proof.Proof.LibFiniteAll
import proofs.«152807_j76802605187214_1_alg».proof.Proof.RealArrays

noncomputable section

open Idealize.ShloMosaic Idealize.ShloMosaic.ValueIdx

namespace Cert.FiniteInputs

open Cert.Pre_finite_inputs Cert.Pre_finite_inputs.Facts Cert.RealArr Cert.FiniteAll

variable [Cert.Pre_finite_inputs.Facts]

/-- If the predicate holds of the ten arguments, the nine float ones are real. -/
theorem real_of_pre (a0 : FVec Ideal S100000x64 .f32) (a1 : IVec S2x1200000 32) (a2 : FVec Ideal S64x64 .f32)
    (a3 a4 a5 : FVec Ideal S64 .f32) (a6 : FVec Ideal S64x64 .f32) (a7 a8 a9 : FVec Ideal S64 .f32)
    (h : Cert.Pre_finite_inputs.fn (F := Ideal) a0 a1 a2 a3 a4 a5 a6 a7 a8 a9 = fun _ => 1#1) :
    IsReal a0 ∧ IsReal a2 ∧ IsReal a3 ∧ IsReal a4 ∧ IsReal a5 ∧ IsReal a6 ∧ IsReal a7 ∧ IsReal a8 ∧ IsReal a9 := by
  have h0 := congrFun h ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7, all_real a8 _ _ _ _ e8,
    all_real a9 _ _ _ _ e9⟩

end Cert.FiniteInputs

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«152807_j76802605187214_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.RefDot.lean ====
/-
  The reference's dense product is the matrix product of the two arrays.

  The host's general contraction, with the plain dimension numbers (the left operand's columns against the right
  operand's rows, no batch axes), of a 100000 × 64 feature array and a 64 × 64 weight matrix is, at entry
  `(r, c)`, the sum over `k` of `h (r, k) · W (k, c)`: over the extended reals there is no rounding and no order
  of summation left in it. That is entry `(r, c)` of the whole-array product the kernel's regions are read at.
-/
import proofs.«152807_j76802605187214_1_alg».proof.Proof.RefStages
import proofs.«152807_j76802605187214_1_alg».proof.Proof.Spec
import proofs.«152807_j76802605187214_1_alg».proof.Proof.LibPlainDot

noncomputable section

open scoped BigOperators

namespace Cert.RefDot

open Idealize.ShloMosaic Idealize.ShloMosaic.ValueIdx Cert.ReferenceIdeal

/-- The reference's dense product stage is the matrix product, entry by entry. -/
theorem dot_eq [Cert.ReferenceIdeal.Facts] (h : FVec Ideal Cert.ReferenceIdeal.S100000x64 .f32)
    (W : FVec Ideal Cert.ReferenceIdeal.S64x64 .f32) :
    Cert.ReferenceIdeal.RefStages.dot h W = Cert.Spec.mm h W := by
  funext i
  obtain ⟨r, c, rfl⟩ : ∃ (r : Fin 100000) (c : Fin 64), i = ix2 r c := ⟨_, _, Cert.Spec.eq_row_col i⟩
  rw [Cert.Spec.mm_ix2]
  unfold Cert.ReferenceIdeal.RefStages.dot
  exact Cert.LibPlainDot.dotGeneral_plain_apply (M := 100000) (K := 64) (N := 64)
    dot_S100000x64_S64x64_S100000x64_1_0_0_1_n_n rfl rfl rfl rfl rfl rfl none _ h W r c

end Cert.RefDot

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.RefAggReal.lean ====
/-
  The reference's aggregation keeps real arrays real.

  The degree count of a node is a finite sum of ones accumulated into zero, plus one: a positive real number, so
  its reciprocal square root is a positive real number too (`dinv_pos`). An edge's weight is the product of two
  such numbers, read at the edge's two ends (`edgeNorm_real`). The aggregation of a real feature array is, entry
  by entry, zero plus a finite sum of products of an edge weight and a gathered feature entry, plus the product of
  a squared degree factor and the entry itself, plus a bias entry: finitely many real numbers combined by sums
  and products (`agg_real`). Which places the gathers and the accumulation read is never looked at.

  The leaky rectifier of a scaled and shifted real entry is that real number or a fixed real multiple of it, so
  the scale–shift–rectify function of three real arrays is real (`normAct_real`).
-/
import proofs.«152807_j76802605187214_1_alg».proof.Proof.RefStages
import proofs.«152807_j76802605187214_1_alg».proof.Proof.Spec
import proofs.«152807_j76802605187214_1_alg».proof.Proof.RealArrays
import proofs.«152807_j76802605187214_1_alg».proof.Proof.LibIdealReal

noncomputable section

open scoped BigOperators

namespace Cert.RefAggReal

open Idealize.ShloMosaic Idealize.ShloMosaic.ValueIdx Cert.ReferenceIdeal Cert.ReferenceIdeal.RefStages
open Cert.ReferenceIdeal.Facts₀
open Cert.RealArr

/-- The float pattern of zero is the real number zero. -/
theorem zero_real : Ideal.ofBits .f32 0x00000000#32 = ((0 : ℝ) : EReal) :=
  Ideal.ofBits_zero_f32.trans EReal.coe_zero.symm

section Stages

variable [Cert.ReferenceIdeal.Facts]

/-- Per node, the reciprocal square root of (the number of edges arriving at it, plus one) is a positive real. -/
theorem dinv_pos (ei : IVec S2x1200000 32) : IsPos (dinv ei) := by
  unfold dinv
  refine rsqrt_pos _ (scatterAdd_count_pos _ _ _ _
    (broadcastInDim S1200000 ![] bcast_S_S1200000 (constant (F := Ideal) S_ .f32 0x3F800000#32)) _ (fun i => ?_) (fun j => ?_) (fun i => ?_))
  · exact Ideal.ofBits_zero_f32
  · exact Cert.IdealReal.ofBits_one_f32
  · exact Cert.IdealReal.ofBits_one_f32

/-- Each edge's weight, a product of two positive reals read at its ends, is real. -/
theorem edgeNorm_real (ei : IVec S2x1200000 32) : IsReal (edgeNorm ei) := by
  unfold edgeNorm
  exact mul _ _ (gather _ _ _ (dinv_pos ei).isReal) (gather _ _ _ (dinv_pos ei).isReal)

/-- A real length-64 vector repeated along the rows is real. -/
theorem rows_real (b : FVec Ideal S64 .f32) (hb : IsReal b) : IsReal (rows b) := by
  unfold rows
  exact bcast _ _ _ (bcast _ _ _ hb)

/-- The aggregation of a real feature array with a real bias is real. -/
theorem agg_real (ei : IVec S2x1200000 32) (xw : FVec Ideal S100000x64 .f32) (b : FVec Ideal S64 .f32)
    (hxw : IsReal xw) (hb : IsReal b) : IsReal (agg ei xw b) := by
  unfold agg
  refine add _ _ (add _ _ (scatterAdd _ _ _ _ ?_ ?_) ?_) (rows_real b hb)
  · exact bcast _ _ _ (const _ 0 zero_real)
  · exact mul _ _ (bcast _ _ _ (bcast _ _ _ (edgeNorm_real ei))) (gather _ _ _ hxw)
  · exact mul _ _ (bcast _ _ _ (bcast _ _ _ (mul _ _ (dinv_pos ei).isReal (dinv_pos ei).isReal))) hxw

end Stages

/-- The rectifier's slope, the float pattern `0x3C23D70A`, is a real number. -/
theorem slope_real : ∃ σ : ℝ, Ideal.ofBits .f32 0x3C23D70A#32 = (σ : EReal) := by
  refine ⟨(10737418 : ℝ) * ((2 : ℝ) ^ 30)⁻¹, ?_⟩
  simp [Ideal.ofBits, Ideal.ieee]

/-- Scaling, shifting and rectifying real arrays gives a real array. -/
theorem normAct_real (x : Cert.Spec.SN.Idx → EReal) (sc sh : Cert.Spec.SR.Idx → EReal)
    (hx : IsReal x) (hsc : IsReal sc) (hsh : IsReal sh) : IsReal (Cert.Spec.normAct x sc sh) := fun i => by
  obtain ⟨a, ea⟩ := hx i
  obtain ⟨b, eb⟩ := hsc (ix2 0 (Cert.Spec.colOf i))
  obtain ⟨d, ed⟩ := hsh (ix2 0 (Cert.Spec.colOf i))
  obtain ⟨σ, eσ⟩ := slope_real
  show ∃ r : ℝ, Cert.Spec.act (x i * sc (ix2 0 (Cert.Spec.colOf i)) + sh (ix2 0 (Cert.Spec.colOf i))) = (r : EReal)
  rw [ea, eb, ed, ← EReal.coe_mul, ← EReal.coe_add]
  unfold Cert.Spec.act
  split
  · exact ⟨_, rfl⟩
  · exact ⟨σ * (a * b + d), by rw [eσ, EReal.coe_mul]⟩

end Cert.RefAggReal

end
-- ==== Proof.AggSame.lean ====
/-
  The two programs aggregate alike.

  Both programs apply the same host operations, in the same order and with the same operands in the same places,
  to a feature array `xw` and a bias `b` along the edge list `ei`: the index columns of the sources and the
  targets, the degree factors, the per-edge weights, the gather at the sources, the accumulation at the targets,
  the nodes' own scaled rows and the bias. The two texts differ only in where the shapes, the dimension-number
  records and the shape facts are declared; the records have equal fields, so the two aggregations are one
  function.
-/
import proofs.«152807_j76802605187214_1_alg».proof.Proof.RefStages
import proofs.«152807_j76802605187214_1_alg».proof.Proof.KernelStages

noncomputable section

namespace Cert.AggSame

open Idealize.ShloMosaic

variable [Cert.KernelIdeal.Facts] [Cert.ReferenceIdeal.Facts]

/-- The sources' index column is the same in both programs. -/
theorem srcCol_eq (ei : IVec Cert.ReferenceIdeal.S2x1200000 32) :
    Cert.ReferenceIdeal.RefStages.srcCol ei = Cert.KernelIdeal.KStages.srcCol ei := rfl

/-- The targets' index column is the same in both programs. -/
theorem dstCol_eq (ei : IVec Cert.ReferenceIdeal.S2x1200000 32) :
    Cert.ReferenceIdeal.RefStages.dstCol ei = Cert.KernelIdeal.KStages.dstCol ei := rfl

/-- The degree factors are the same in both programs. -/
theorem dinv_eq (ei : IVec Cert.ReferenceIdeal.S2x1200000 32) :
    Cert.ReferenceIdeal.RefStages.dinv ei = Cert.KernelIdeal.KStages.dinv ei := rfl

/-- The per-edge weights are the same in both programs. -/
theorem edgeNorm_eq (ei : IVec Cert.ReferenceIdeal.S2x1200000 32) :
    Cert.ReferenceIdeal.RefStages.edgeNorm ei = Cert.KernelIdeal.KStages.edgeNorm ei := rfl

/-- The aggregation of a feature array with a bias along the edge list is the same in both programs. -/
theorem agg_eq (ei : IVec Cert.ReferenceIdeal.S2x1200000 32) (xw : FVec Ideal Cert.ReferenceIdeal.S100000x64 .f32)
    (b : FVec Ideal Cert.ReferenceIdeal.S64 .f32) :
    Cert.ReferenceIdeal.RefStages.agg ei xw b = Cert.KernelIdeal.KStages.agg ei xw b := rfl

end Cert.AggSame

end
-- ==== Proof.lean ====
/-
  Two graph-convolution layers with batch normalisation: the tiled program against the plain one.

  Both programs take node features `x` (100000 × 64), an edge list (2 × 1200000 node numbers) and, per layer,
  a weight matrix, a bias, a gain `γ` and an offset `β`. A layer multiplies the features by the weights,
  sums over each node's incoming edges the source rows scaled by `1/√(deg src · deg dst)`, adds the node's own
  row scaled by `1/deg` and the bias, normalises every column by its mean and variance over the 100000 rows,
  applies `γ`, `β`, and a leaky rectifier.

  The tiled program computes the product in ten row blocks, accumulates each column's sum and sum of squares
  over the ten blocks, forms on the host `mean = sum / 100000`, `variance = sumsq / 100000 − mean²`,
  `scale = γ · rsqrt (variance + ε)`, `shift = β − mean · scale`, and a last pass computes
  `x · scale + shift` and rectifies. The plain program uses one product, the mean, the two-pass variance
  `(∑ (x − mean)²) / 100000`, and `γ · (x − mean) · rsqrt (variance + ε) + β`.

  At exact arithmetic on the extended reals the two agree when the inputs are finite: the products and the
  blockwise sums are the same finite sums; the edge aggregation is the same sequence of host operations on
  both sides and keeps real arrays real; `∑ (x − mean)² = sumsq − sum² / 100000` makes the two variances
  equal and not negative, so with `ε > 0` the reciprocal square root is a real number and distributivity
  turns one normalised form into the other; the two rectifiers differ only in the test at `0`, where both
  give `0`. Finiteness is used exactly there (distributivity fails at infinities), and it is what the
  precondition grants. The first layer's result is again real, so the second layer repeats the argument.

  The three frame conjuncts are the programs' runs with their results dropped; the idealisation rewrote
  nothing, so its conjunct is trivial.
-/
import proofs.«152807_j76802605187214_1_alg».proof.Defs
import proofs.«152807_j76802605187214_1_alg».proof.Proof.Gen.Kernel
import proofs.«152807_j76802605187214_1_alg».proof.Proof.Gen.Kernel.Frame
import proofs.«152807_j76802605187214_1_alg».proof.Proof.Gen.KernelIdeal
import proofs.«152807_j76802605187214_1_alg».proof.Proof.Gen.KernelIdeal.Frame
import proofs.«152807_j76802605187214_1_alg».proof.Proof.Gen.ReferenceIdeal
import proofs.«152807_j76802605187214_1_alg».proof.Proof.Gen.Pre_finite_inputs
import proofs.«152807_j76802605187214_1_alg».proof.Proof.KernelRun
import proofs.«152807_j76802605187214_1_alg».proof.Proof.KernelChain
import proofs.«152807_j76802605187214_1_alg».proof.Proof.RefRun
import proofs.«152807_j76802605187214_1_alg».proof.Proof.RegionMatmul0
import proofs.«152807_j76802605187214_1_alg».proof.Proof.RegionMatmul3
import proofs.«152807_j76802605187214_1_alg».proof.Proof.RegionAct2
import proofs.«152807_j76802605187214_1_alg».proof.Proof.RegionAct5
import proofs.«152807_j76802605187214_1_alg».proof.Proof.RegionStats1
import proofs.«152807_j76802605187214_1_alg».proof.Proof.RegionStats4
import proofs.«152807_j76802605187214_1_alg».proof.Proof.LayerBridge
import proofs.«152807_j76802605187214_1_alg».proof.Proof.FiniteInputs
import proofs.«152807_j76802605187214_1_alg».proof.Proof.RefDot
import proofs.«152807_j76802605187214_1_alg».proof.Proof.RefAggReal
import proofs.«152807_j76802605187214_1_alg».proof.Proof.AggSame

noncomputable section

namespace Cert.Proof

open Idealize.ShloMosaic Idealize.SL.Sem

/-- The tiled program, run word by word, terminates and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The two programs end with equal results, entry by entry, from memories that agree on the arguments. -/
theorem algebraic : Cert.algebraic_KernelIdeal_ReferenceIdeal := by
  intro m ρ m' ρ' hpre hagree
  refine ⟨fun c => Cert.KernelIdeal.KStages.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KChain.out_eq m ρ Cert.KernelIdeal.Region0.out_eq Cert.KernelIdeal.Region1.sum_eq
          Cert.KernelIdeal.Region1.sumsq_eq Cert.KernelIdeal.Region2.out_eq Cert.KernelIdeal.Region3.out_eq
          Cert.KernelIdeal.Region4.sum_eq Cert.KernelIdeal.Region4.sumsq_eq Cert.KernelIdeal.Region5.out_eq c), (h c).2⟩)
      (Cert.KernelIdeal.KRun.run_out (F := Ideal) m ρ)
  · refine (θ_run Cert.ReferenceIdeal.defs _ _).mono (fun r h c => ⟨?_, (h c).2⟩)
      (Cert.ReferenceIdeal.RefRun.run m' ρ')
    obtain ⟨e0, e1, e2, e3, e4, e5, e6, e7, e8, e9⟩ := hagree c
    obtain ⟨r0, r2, r3, r4, r5, r6, r7, r8, r9⟩ := Cert.FiniteInputs.real_of_pre _ _ _ _ _ _ _ _ _ _ (hpre c)
    rw [(h c).1, e0, e1, e2, e3, e4, e5, e6, e7, e8, e9]
    exact (Cert.LayerBridge.out_eq Cert.RefDot.dot_eq Cert.AggSame.agg_eq Cert.RefAggReal.agg_real
      _ _ _ _ _ _ _ _ _ _ r0 r2 r3 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefRun.frame, trivial, algebraic⟩

end Cert.Proof

end
